-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2x128 : Shape := ⟨4, ![4, 4096, 2, 128]⟩
abbrev S384x384x2x128 : Shape := ⟨4, ![384, 384, 2, 128]⟩
abbrev S2x4096x2 : Shape := ⟨3, ![2, 4096, 2]⟩
abbrev S2x4096 : Shape := ⟨2, ![2, 4096]⟩
abbrev S2x384 : Shape := ⟨2, ![2, 384]⟩
abbrev S1 : Shape := ⟨1, ![1]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S4x4096x2x128 : S_.BroadcastsInDim S4x4096x2x128 (![] : Fin 0 → Fin S4x4096x2x128.rank)
  reducesTo_S4x4096x2x128_S_d0_1_2_3 : S4x4096x2x128.ReducesTo [0, 1, 2, 3] S_
  h_S_ : 0 < S_.numel
  bcast_S_S384x384x2x128 : S_.BroadcastsInDim S384x384x2x128 (![] : Fin 0 → Fin S384x384x2x128.rank)
  reducesTo_S384x384x2x128_S_d0_1_2_3 : S384x384x2x128.ReducesTo [0, 1, 2, 3] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S2x4096x2 : S_.BroadcastsInDim S2x4096x2 (![] : Fin 0 → Fin S2x4096x2.rank)
  reducesTo_S2x4096x2_S_d0_1_2 : S2x4096x2.ReducesTo [0, 1, 2] S_

variable [Facts]

def fn_part2 {F : FTy → Type} [FloatOps F] (main_arg2 : IVec S2x4096x2 32) (main_arg10 : FVec F S128x128 .f32) (main_arg11 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 1#32
  let main_v44 : IVec S2x4096x2 32 := broadcastInDim S2x4096x2 ![] bcast_S_S2x4096x2 main_c_16
  let main_v45 : IVec S2x4096x2 1 := cmpi .sge main_arg2 main_v44
  let main_c_17 : IVec S_ 32 := constantI S_ 32 384#32
  let main_v46 : IVec S2x4096x2 32 := broadcastInDim S2x4096x2 ![] bcast_S_S2x4096x2 main_c_17
  let main_v47 : IVec S2x4096x2 1 := cmpi .sle main_arg2 main_v46
  let main_v48 : IVec S2x4096x2 1 := andi main_v45 main_v47
  let main_c_18 : IVec S_ 1 := constantI S_ 1 1#1
  let main_v49 : IVec S_ 1 := (fun x v => Host.reduce IntOp.andi x v reducesTo_S2x4096x2_S_d0_1_2 h_S_) main_v48 main_c_18
  let main_v50 : IVec S_ 1 := andi main_v43 main_v49
  main_v50

def fn_part1 {F : FTy → Type} [FloatOps F] (main_arg2 : IVec S2x4096x2 32) (main_arg7 : FVec F S128 .f32) (main_arg8 : FVec F S128x256 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg8
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg10 main_arg11 main_v33

def fn {F : FTy → Type} [FloatOps F] (main_arg0 : FVec F S4x4096x2x128 .f32) (main_arg1 : FVec F S384x384x2x128 .f32) (main_arg2 : IVec S2x4096x2 32) (main_arg3 : IVec S2x4096 1) (main_arg4 : IVec S2x384 1) (main_arg5 : FVec F S1 .f32) (main_arg6 : FVec F S128x128 .f32) (main_arg7 : FVec F S128 .f32) (main_arg8 : FVec F S128x256 .f32) (main_arg9 : FVec F S128 .f32) (main_arg10 : FVec F S128x128 .f32) (main_arg11 : FVec F S128 .f32) : IVec S_ 1 :=
  let main_v0 : FVec F S4x4096x2x128 .f32 := Host.absf main_arg0
  let main_cst : FVec F S_ .f32 := constant S_ .f32 0x7F800000#32
  let main_v1 : FVec F S4x4096x2x128 .f32 := broadcastInDim S4x4096x2x128 ![] bcast_S_S4x4096x2x128 main_cst
  let main_v2 : IVec S4x4096x2x128 1 := cmpf .olt main_v0 main_v1
  let main_c : IVec S_ 1 := constantI S_ 1 1#1
  let main_v3 : IVec S_ 1 := (fun x v => Host.reduce IntOp.andi x v reducesTo_S4x4096x2x128_S_d0_1_2_3 h_S_) main_v2 main_c
  let main_v4 : FVec F S384x384x2x128 .f32 := Host.absf main_arg1
  let main_cst_0 : FVec F S_ .f32 := constant S_ .f32 0x7F800000#32
  let main_v5 : FVec F S384x384x2x128 .f32 := broadcastInDim S384x384x2x128 ![] bcast_S_S384x384x2x128 main_cst_0
  let main_v6 : IVec S384x384x2x128 1 := cmpf .olt main_v4 main_v5
  let main_c_1 : IVec S_ 1 := constantI S_ 1 1#1
  let main_v7 : IVec S_ 1 := (fun x v => Host.reduce IntOp.andi x v reducesTo_S384x384x2x128_S_d0_1_2_3 h_S_) main_v6 main_c_1
  let main_v8 : IVec S_ 1 := andi main_v3 main_v7
  let main_v9 : FVec F S1 .f32 := Host.absf main_arg5
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg7 main_arg8 main_arg9 main_arg10 main_arg11 main_v13 main_v16
-- ==== Kernel.lean ====
abbrev S4x4096x2x128 : Shape := ⟨4, ![4, 4096, 2, 128]⟩
abbrev S384x384x2x128 : Shape := ⟨4, ![384, 384, 2, 128]⟩
abbrev S2x4096x2 : Shape := ⟨3, ![2, 4096, 2]⟩
abbrev S2x4096 : Shape := ⟨2, ![2, 4096]⟩
abbrev S2x384 : Shape := ⟨2, ![2, 384]⟩
abbrev S1 : Shape := ⟨1, ![1]⟩
abbrev S128x128 : Shape := ⟨2, ![128, 128]⟩
abbrev S128 : Shape := ⟨1, ![128]⟩
abbrev S128x256 : Shape := ⟨2, ![128, 256]⟩
abbrev S4x8192x128 : Shape := ⟨3, ![4, 8192, 128]⟩
abbrev S8192x128 : Shape := ⟨2, ![8192, 128]⟩
abbrev S1x4096x128 : Shape := ⟨3, ![1, 4096, 128]⟩
abbrev S4096x128 : Shape := ⟨2, ![4096, 128]⟩
abbrev S1x128 : Shape := ⟨2, ![1, 128]⟩
abbrev S4096x2x128 : Shape := ⟨3, ![4096, 2, 128]⟩
abbrev S1x4096x1 : Shape := ⟨3, ![1, 4096, 1]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S294912x128 : Shape := ⟨2, ![294912, 128]⟩
abbrev S2x4096x1 : Shape := ⟨3, ![2, 4096, 1]⟩
abbrev S2 : Shape := ⟨1, ![2]⟩
abbrev S1x2 : Shape := ⟨2, ![1, 2]⟩
abbrev S4096x2x1 : Shape := ⟨3, ![4096, 2, 1]⟩
abbrev S4096x2x3 : Shape := ⟨3, ![4096, 2, 3]⟩
abbrev S1x4096x2x128 : Shape := ⟨4, ![1, 4096, 2, 128]⟩

abbrev nBuf : Space → Nat
  | .hbm => 106
  | .vmem => 20
  | .smem => 0
  | _ => 0

abbrev bufTy : (tb : Table) → Fin (tcTables nBuf tb) → BufTy
  | .hbm, ⟨0, _⟩ => ⟨S4x4096x2x128, .f32⟩
  | .hbm, ⟨1, _⟩ => ⟨S384x384x2x128, .f32⟩
  | .hbm, ⟨2, _⟩ => ⟨S2x4096x2, .i32⟩
  | .hbm, ⟨3, _⟩ => ⟨S2x4096, .i1⟩
  | .hbm, ⟨4, _⟩ => ⟨S2x384, .i1⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .bf16⟩
  | .hbm, ⟨14, _⟩ => ⟨S4x8192x128, .f32⟩
  | .hbm, ⟨15, _⟩ => ⟨S4x8192x128, .f32⟩
  | .hbm, ⟨16, _⟩ => ⟨S8192x128, .f32⟩
  | .hbm, ⟨17, _⟩ => ⟨S4x4096x2x128, .f32⟩
  | .hbm, ⟨18, _⟩ => ⟨S4096x2x128, .f32⟩
  | .hbm, ⟨19, _⟩ => ⟨S1x4096x1, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S1x4096x1, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S1, .bf16⟩
  | .hbm, ⟨30, _⟩ => ⟨S384x384x2x128, .bf16⟩
  | .hbm, ⟨31, _⟩ => ⟨S4096x2x128, .bf16⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096x1, .i32⟩
  | .hbm, ⟨48, _⟩ => ⟨S4096x2, .i32⟩
  | .hbm, ⟨49, _⟩ => ⟨S384x384x2x128, .bf16⟩
  | .hbm, ⟨50, _⟩ => ⟨S128x128, .f32⟩
  | .hbm, ⟨51, _⟩ => ⟨S128x128, .f32⟩
  | .hbm, ⟨52, _⟩ => ⟨S128x128, .bf16⟩
  | .hbm, ⟨53, _⟩ => ⟨S128x128, .f32⟩
  | .hbm, ⟨54, _⟩ => ⟨S128x128, .f32⟩
  | .hbm, ⟨55, _⟩ => ⟨S128x128, .bf16⟩
  | .hbm, ⟨56, _⟩ => ⟨S128x128, .f32⟩
  | .hbm, ⟨57, _⟩ => ⟨S128x128, .bf16⟩
  | .hbm, ⟨58, _⟩ => ⟨S294912x128, .f32⟩
  | .hbm, ⟨59, _⟩ => ⟨S294912x128, .bf16⟩
  | .hbm, ⟨60, _⟩ => ⟨S294912x128, .f32⟩
  | .hbm, ⟨61, _⟩ => ⟨S384x384x2x128, .f32⟩
  | .hbm, ⟨62, _⟩ => ⟨S_, .i32⟩
  | .hbm, ⟨63, _⟩ => ⟨S2x4096x2, .i32⟩
  | .hbm, ⟨64, _⟩ => ⟨S2x4096x2, .i32⟩
  | .hbm, ⟨65, _⟩ => ⟨S_, .i32⟩
  | .hbm, ⟨66, _⟩ => ⟨S2x4096x2, .i32⟩
  | .hbm, ⟨67, _⟩ => ⟨S2x4096x2, .i32⟩
  | .hbm, ⟨68, _⟩ => ⟨S2x4096x1, .i32⟩
  | .hbm, ⟨69, _⟩ => ⟨S2x4096, .i32⟩
  | .hbm, ⟨70, _⟩ => ⟨S4096x2, .i32⟩
  | .hbm, ⟨71, _⟩ => ⟨S2x4096x1, .i32⟩
  | .hbm, ⟨72, _⟩ => ⟨S2x4096, .i32⟩
  | .hbm, ⟨73, _⟩ => ⟨S4096x2, .i32⟩
  | .hbm, ⟨74, _⟩ => ⟨S2, .i32⟩
  | .hbm, ⟨75, _⟩ => ⟨S1x2, .i32⟩
  | .hbm, ⟨76, _⟩ => ⟨S4096x2, .i32⟩
  | .hbm, ⟨77, _⟩ => ⟨S_, .i32⟩
  | .hbm, ⟨78, _⟩ => ⟨S4096x2, .i32⟩
  | .hbm, ⟨79, _⟩ => ⟨S4096x2, .i1⟩
  | .hbm, ⟨80, _⟩ => ⟨S_, .i32⟩
  | .hbm, ⟨81, _⟩ => ⟨S4096x2, .i32⟩
  | .hbm, ⟨82, _⟩ => ⟨S4096x2, .i32⟩
  | .hbm, ⟨83, _⟩ => ⟨S4096x2, .i32⟩
  | .hbm, ⟨84, _⟩ => ⟨S_, .i32⟩
  | .hbm, ⟨85, _⟩ => ⟨S4096x2, .i32⟩
  | .hbm, ⟨86, _⟩ => ⟨S4096x2, .i1⟩
  | .hbm, ⟨87, _⟩ => ⟨S_, .i32⟩
  | .hbm, ⟨88, _⟩ => ⟨S4096x2, .i32⟩
  | .hbm, ⟨89, _⟩ => ⟨S4096x2, .i32⟩
  | .hbm, ⟨90, _⟩ => ⟨S4096x2, .i32⟩
  | .hbm, ⟨91, _⟩ => ⟨S_, .i32⟩
  | .hbm, ⟨92, _⟩ => ⟨S4096x2, .i32⟩
  | .hbm, ⟨93, _⟩ => ⟨S4096x2, .i1⟩
  | .hbm, ⟨94, _⟩ => ⟨S_, .i32⟩
  | .hbm, ⟨95, _⟩ => ⟨S4096x2, .i32⟩
  | .hbm, ⟨96, _⟩ => ⟨S4096x2, .i32⟩
  | .hbm, ⟨97, _⟩ => ⟨S4096x2, .i32⟩
  | .hbm, ⟨98, _⟩ => ⟨S4096x2x1, .i32⟩
  | .hbm, ⟨99, _⟩ => ⟨S4096x2x1, .i32⟩
  | .hbm, ⟨100, _⟩ => ⟨S4096x2x1, .i32⟩
  | .hbm, ⟨101, _⟩ => ⟨S4096x2x3, .i32⟩
  | .hbm, ⟨102, _⟩ => ⟨S4096x2x128, .f32⟩
  | .hbm, ⟨103, _⟩ => ⟨S1x4096x2x128, .f32⟩
  | .hbm, ⟨104, _⟩ => ⟨S4x4096x2x128, .f32⟩
  | .hbm, ⟨105, _⟩ => ⟨S4x4096x2x128, .f32⟩
  | .local _ .vmem, ⟨0, _⟩ => ⟨S1x4096x128, .f32⟩
  | .local _ .vmem, ⟨1, _⟩ => ⟨S1x4096x128, .f32⟩
  | .local _ .vmem, ⟨2, _⟩ => ⟨S128x128, .bf16⟩
  | .local _ .vmem, ⟨3, _⟩ => ⟨S128, .f32⟩
  | .local _ .vmem, ⟨4, _⟩ => ⟨S1x4096x128, .f32⟩
  | .local _ .vmem, ⟨5, _⟩ => ⟨S1x4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .bf16⟩
  | .local _ .vmem, ⟨12, _⟩ => ⟨S4096x128, .bf16⟩
  | .local _ .vmem, ⟨13, _⟩ => ⟨S128x128, .bf16⟩
  | .local _ .vmem, ⟨14, _⟩ => ⟨S128x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S4096x128, .f32⟩
  | .local _ .vmem, ⟨19, _⟩ => ⟨S4096x128, .f32⟩
  | _, _ => ⟨S4x4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_7 : Ref sig .tc := ⟨.hbm, 77, rfl⟩
abbrev main_v56 : Ref sig .tc := ⟨.hbm, 78, rfl⟩
abbrev main_v57 : Ref sig .tc := ⟨.hbm, 79, rfl⟩
abbrev main_c_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_9 : Ref sig .tc := ⟨.hbm, 84, rfl⟩
abbrev main_v61 : Ref sig .tc := ⟨.hbm, 85, rfl⟩
abbrev main_v62 : Ref sig .tc := ⟨.hbm, 86, rfl⟩
abbrev main_c_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_13 : BitVec 32 := 0#32
  let v23 : BitVec 1 := Scalar.cmpi .ne v22 c0_i32_13
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![72], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S128x128_S128x128_1_0 : S128x128.Transposes [1, 0] S128x128
  bitsLt_bf16_f32 : FTy.bits .bf16 < FTy.bits .f32
  shapeCasts_S4x4096x2x128_S4x8192x128 : S4x4096x2x128.ShapeCasts S4x8192x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  shapeCasts_S4096x128_S1x4096x128 : S4096x128.ShapeCasts S1x4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S4x8192x128_S4x4096x2x128 : S4x8192x128.ShapeCasts S4x4096x2x128
  shapeCasts_S8192x128_S4096x2x128 : S8192x128.ShapeCasts S4096x2x128
  slices_S2x4096x2_S1x4096x1_0_0_0 : S2x4096x2.Slices ![0, 0, 0] S1x4096x1
  shapeCasts_S1x4096x1_S4096 : S1x4096x1.ShapeCasts S4096
  bcast_S_S4096 : S_.BroadcastsInDim S4096 (![] : Fin 0 → Fin S4096.rank)
  slices_S2x4096x2_S1x4096x1_0_0_1 : S2x4096x2.Slices ![0, 0, 1] S1x4096x1
  bcast_S1_S384x384x2x128_3 : S1.BroadcastsInDim S384x384x2x128 (![3] : Fin 1 → Fin S384x384x2x128.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S128x256_S128x128_0_0 : S128x256.Slices ![0, 0] S128x128
  slices_S128x256_S128x128_0_128 : S128x256.Slices ![0, 128] S128x128
  shapeCasts_S384x384x2x128_S294912x128 : S384x384x2x128.ShapeCasts S294912x128
  shapeCasts_S294912x128_S384x384x2x128 : S294912x128.ShapeCasts S384x384x2x128
  bcast_S_S2x4096x2 : S_.BroadcastsInDim S2x4096x2 (![] : Fin 0 → Fin S2x4096x2.rank)
  slices_S2x4096x2_S2x4096x1_0_0_0 : S2x4096x2.Slices ![0, 0, 0] S2x4096x1
  shapeCasts_S2x4096x1_S2x4096 : S2x4096x1.ShapeCasts S2x4096
  transposes_S2x4096_S4096x2_1_0 : S2x4096.Transposes [1, 0] S4096x2
  slices_S2x4096x2_S2x4096x1_0_0_1 : S2x4096x2.Slices ![0, 0, 1] S2x4096x1
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  concatenates_S4096x2x1_S4096x2x1_S4096x2x1_S4096x2x3_d2 : Shape.Concatenates [S4096x2x1, S4096x2x1, S4096x2x1] S4096x2x3 2
  bcast_S4096x2x128_S1x4096x2x128_1_2_3 : S4096x2x128.BroadcastsInDim S1x4096x2x128 (![1, 2, 3] : Fin 3 → Fin S1x4096x2x128.rank)
  bcast_S1x4096x2x128_S4x4096x2x128_0_1_2_3 : S1x4096x2x128.BroadcastsInDim S4x4096x2x128 (![0, 1, 2, 3] : Fin 4 → Fin S4x4096x2x128.rank)
  dot_S4096x128_S128x128_S4096x128_1_0_0_1_n_n_wf : DotDims.WF S4096x128 S128x128 S4096x128 [1] [0] [0] [1] [] []
  scatter_S384x384x2x128_S4096x2_S4096x2x128_12_01_01_1_wf : ScatterDims.WF S384x384x2x128 S4096x2 S4096x2x128 [1, 2] [0, 1] [0, 1] 1
  gather_S384x384x2x128_S4096x2x3_S4096x2x128_2_012_n_n_012_2_111128_wf : GatherDims.WF S384x384x2x128 S4096x2x3 S4096x2x128 [2] [0, 1, 2] [] [0, 1, 2] [] 2 ![1, 1, 1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x8192x128.size a
  hwx0_0 : ∀ i : grid0.Coords, EltTy.bits .f32 = 32 ∨ (Rect.block (s := S4x8192x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S4x8192x128.size a
  hwx0_3 : ∀ i : grid0.Coords, EltTy.bits .f32 = 32 ∨ (Rect.block (s := S4x8192x128) S1x4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S8192x128.size a
  hwx0_4 : ∀ i : grid0.Coords, EltTy.bits .f32 = 32 ∨ (Rect.block (s := S8192x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S294912x128.size a
  hwx1_0 : ∀ i : grid1.Coords, EltTy.bits .f32 = 32 ∨ (Rect.block (s := S294912x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S294912x128.size a
  hwx1_1 : ∀ i : grid1.Coords, EltTy.bits .bf16 = 32 ∨ (Rect.block (s := S294912x128) S4096x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x128.size a ≤ S294912x128.size a
  hwx1_7 : ∀ i : grid1.Coords, EltTy.bits .f32 = 32 ∨ (Rect.block (s := S294912x128) S4096x128.size (cc1_transform_7 i) (hinb1_7 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S384x384x2x128_S4096x2_S4096x2x128_12_01_01_1 : ScatterDims S384x384x2x128 S4096x2 S4096x2x128 where
  updateWindowDims := [1, 2]
  insertedWindowDims := [0, 1]
  scatterDimsToOperandDims := [0, 1]
  indexVectorDim := 1
  wf := scatter_S384x384x2x128_S4096x2_S4096x2x128_12_01_01_1_wf
def gather_S384x384x2x128_S4096x2x3_S4096x2x128_2_012_n_n_012_2_111128 : GatherDims S384x384x2x128 S4096x2x3 S4096x2x128 where
  offsetDims := [2]
  collapsedSliceDims := [0, 1, 2]
  operandBatchingDims := []
  startIndicesBatchingDims := []
  startIndexMap := [0, 1, 2]
  indexVectorDim := 2
  sliceSizes := ![1, 1, 1, 128]
  wf := gather_S384x384x2x128_S4096x2x3_S4096x2x128_2_012_n_n_012_2_111128_wf

abbrev win0_0 : Pipeline.Window sig grid0 :=
  Pipeline.Window.ofSpec (Memref.whole main_v2) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v39) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S4096x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x4096x2x128 : Shape := ⟨4, ![4, 4096, 2, 128]⟩
abbrev S384x384x2x128 : Shape := ⟨4, ![384, 384, 2, 128]⟩
abbrev S2x4096x2 : Shape := ⟨3, ![2, 4096, 2]⟩
abbrev S2x4096 : Shape := ⟨2, ![2, 4096]⟩
abbrev S2x384 : Shape := ⟨2, ![2, 384]⟩
abbrev S1 : Shape := ⟨1, ![1]⟩
abbrev S128x128 : Shape := ⟨2, ![128, 128]⟩
abbrev S128 : Shape := ⟨1, ![128]⟩
abbrev S128x256 : Shape := ⟨2, ![128, 256]⟩
abbrev S1x1x1x128 : Shape := ⟨4, ![1, 1, 1, 128]⟩
abbrev S_ : Shape := ⟨0, ![]⟩
abbrev S4096x2x128 : Shape := ⟨3, ![4096, 2, 128]⟩
abbrev S385x385x2x128 : Shape := ⟨4, ![385, 385, 2, 128]⟩
abbrev S1x1x1x1 : Shape := ⟨4, ![1, 1, 1, 1]⟩
abbrev S1x4096x1 : Shape := ⟨3, ![1, 4096, 1]⟩
abbrev S4096 : Shape := ⟨1, ![4096]⟩
abbrev S4096x1 : Shape := ⟨2, ![4096, 1]⟩
abbrev S4096x2 : Shape := ⟨2, ![4096, 2]⟩
abbrev S384x384x2x256 : Shape := ⟨4, ![384, 384, 2, 256]⟩
abbrev S2x4096x1 : Shape := ⟨3, ![2, 4096, 1]⟩
abbrev S2 : Shape := ⟨1, ![2]⟩
abbrev S1x2 : Shape := ⟨2, ![1, 2]⟩
abbrev S4096x2x1 : Shape := ⟨3, ![4096, 2, 1]⟩
abbrev S4096x2x3 : Shape := ⟨3, ![4096, 2, 3]⟩
abbrev S1x4096x2x128 : Shape := ⟨4, ![1, 4096, 2, 128]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x2x128, .f32⟩
  | .hbm, ⟨1, _⟩ => ⟨S384x384x2x128, .f32⟩
  | .hbm, ⟨2, _⟩ => ⟨S2x4096x2, .i32⟩
  | .hbm, ⟨3, _⟩ => ⟨S2x4096, .i1⟩
  | .hbm, ⟨4, _⟩ => ⟨S2x384, .i1⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S4x4096x2x128, .f32⟩
  | .hbm, ⟨13, _⟩ => ⟨S1x1x1x128, .f32⟩
  | .hbm, ⟨14, _⟩ => ⟨S4x4096x2x128, .f32⟩
  | .hbm, ⟨15, _⟩ => ⟨S4x4096x2x128, .f32⟩
  | .hbm, ⟨16, _⟩ => ⟨S_, .f32⟩
  | .hbm, ⟨17, _⟩ => ⟨S4096x2x128, .f32⟩
  | .hbm, ⟨18, _⟩ => ⟨S_, .f32⟩
  | .hbm, ⟨19, _⟩ => ⟨S4096x2x128, .f32⟩
  | .hbm, ⟨20, _⟩ => ⟨S4096x2x128, .f32⟩
  | .hbm, ⟨21, _⟩ => ⟨S_, .f32⟩
  | .hbm, ⟨22, _⟩ => ⟨S385x385x2x128, .f32⟩
  | .hbm, ⟨23, _⟩ => ⟨S1x1x1x1, .f32⟩
  | .hbm, ⟨24, _⟩ => ⟨S385x385x2x128, .f32⟩
  | .hbm, ⟨25, _⟩ => ⟨S385x385x2x128, .f32⟩
  | .hbm, ⟨26, _⟩ => ⟨S1x4096x1, .i32⟩
  | .hbm, ⟨27, _⟩ => ⟨S4096, .i32⟩
  | .hbm, ⟨28, _⟩ => ⟨S1x4096x1, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S385x385x2x128, .f32⟩
  | .hbm, ⟨48, _⟩ => ⟨S384x384x2x128, .f32⟩
  | .hbm, ⟨49, _⟩ => ⟨S384x384x2x256, .f32⟩
  | .hbm, ⟨50, _⟩ => ⟨S384x384x2x128, .f32⟩
  | .hbm, ⟨51, _⟩ => ⟨S1x1x1x128, .f32⟩
  | .hbm, ⟨52, _⟩ => ⟨S384x384x2x128, .f32⟩
  | .hbm, ⟨53, _⟩ => ⟨S384x384x2x128, .f32⟩
  | .hbm, ⟨54, _⟩ => ⟨S384x384x2x128, .f32⟩
  | .hbm, ⟨55, _⟩ => ⟨S1x1x1x128, .f32⟩
  | .hbm, ⟨56, _⟩ => ⟨S384x384x2x128, .f32⟩
  | .hbm, ⟨57, _⟩ => ⟨S384x384x2x128, .f32⟩
  | .hbm, ⟨58, _⟩ => ⟨S_, .i32⟩
  | .hbm, ⟨59, _⟩ => ⟨S2x4096x2, .i32⟩
  | .hbm, ⟨60, _⟩ => ⟨S2x4096x2, .i32⟩
  | .hbm, ⟨61, _⟩ => ⟨S_, .i32⟩
  | .hbm, ⟨62, _⟩ => ⟨S2x4096x2, .i32⟩
  | .hbm, ⟨63, _⟩ => ⟨S2x4096x2, .i32⟩
  | .hbm, ⟨64, _⟩ => ⟨S2x4096x1, .i32⟩
  | .hbm, ⟨65, _⟩ => ⟨S2x4096, .i32⟩
  | .hbm, ⟨66, _⟩ => ⟨S4096x2, .i32⟩
  | .hbm, ⟨67, _⟩ => ⟨S2x4096x1, .i32⟩
  | .hbm, ⟨68, _⟩ => ⟨S2x4096, .i32⟩
  | .hbm, ⟨69, _⟩ => ⟨S4096x2, .i32⟩
  | .hbm, ⟨70, _⟩ => ⟨S2, .i32⟩
  | .hbm, ⟨71, _⟩ => ⟨S1x2, .i32⟩
  | .hbm, ⟨72, _⟩ => ⟨S_, .i32⟩
  | .hbm, ⟨73, _⟩ => ⟨S4096x2, .i32⟩
  | .hbm, ⟨74, _⟩ => ⟨S4096x2, .i1⟩
  | .hbm, ⟨75, _⟩ => ⟨S_, .i32⟩
  | .hbm, ⟨76, _⟩ => ⟨S4096x2, .i32⟩
  | .hbm, ⟨77, _⟩ => ⟨S4096x2, .i32⟩
  | .hbm, ⟨78, _⟩ => ⟨S4096x2, .i32⟩
  | .hbm, ⟨79, _⟩ => ⟨S_, .i32⟩
  | .hbm, ⟨80, _⟩ => ⟨S4096x2, .i32⟩
  | .hbm, ⟨81, _⟩ => ⟨S4096x2, .i1⟩
  | .hbm, ⟨82, _⟩ => ⟨S_, .i32⟩
  | .hbm, ⟨83, _⟩ => ⟨S4096x2, .i32⟩
  | .hbm, ⟨84, _⟩ => ⟨S4096x2, .i32⟩
  | .hbm, ⟨85, _⟩ => ⟨S4096x2, .i32⟩
  | .hbm, ⟨86, _⟩ => ⟨S_, .i32⟩
  | .hbm, ⟨87, _⟩ => ⟨S1x2, .i32⟩
  | .hbm, ⟨88, _⟩ => ⟨S1x2, .i1⟩
  | .hbm, ⟨89, _⟩ => ⟨S_, .i32⟩
  | .hbm, ⟨90, _⟩ => ⟨S1x2, .i32⟩
  | .hbm, ⟨91, _⟩ => ⟨S1x2, .i32⟩
  | .hbm, ⟨92, _⟩ => ⟨S1x2, .i32⟩
  | .hbm, ⟨93, _⟩ => ⟨S4096x2, .i32⟩
  | .hbm, ⟨94, _⟩ => ⟨S4096x2x1, .i32⟩
  | .hbm, ⟨95, _⟩ => ⟨S4096x2x1, .i32⟩
  | .hbm, ⟨96, _⟩ => ⟨S4096x2x1, .i32⟩
  | .hbm, ⟨97, _⟩ => ⟨S4096x2x3, .i32⟩
  | .hbm, ⟨98, _⟩ => ⟨S4096x2x128, .f32⟩
  | .hbm, ⟨99, _⟩ => ⟨S1x4096x2x128, .f32⟩
  | .hbm, ⟨100, _⟩ => ⟨S4x4096x2x128, .f32⟩
  | .hbm, ⟨101, _⟩ => ⟨S4x4096x2x128, .f32⟩
  | _, _ => ⟨S4x4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S4x4096x2x128_0_1_2_3 : S1x1x1x128.BroadcastsInDim S4x4096x2x128 (![0, 1, 2, 3] : Fin 4 → Fin S4x4096x2x128.rank)
  reducesTo_S4x4096x2x128_S4096x2x128_d0 : S4x4096x2x128.ReducesTo [0] S4096x2x128
  h_S_ : 0 < S_.numel
  bcast_S_S4096x2x128 : S_.BroadcastsInDim S4096x2x128 (![] : Fin 0 → Fin S4096x2x128.rank)
  bcast_S_S385x385x2x128 : S_.BroadcastsInDim S385x385x2x128 (![] : Fin 0 → Fin S385x385x2x128.rank)
  bcast_S1_S1x1x1x1_3 : S1.BroadcastsInDim S1x1x1x1 (![3] : Fin 1 → Fin S1x1x1x1.rank)
  bcast_S1x1x1x1_S385x385x2x128_0_1_2_3 : S1x1x1x1.BroadcastsInDim S385x385x2x128 (![0, 1, 2, 3] : Fin 4 → Fin S385x385x2x128.rank)
  slices_S2x4096x2_S1x4096x1_0_0_0 : S2x4096x2.Slices ![0, 0, 0] S1x4096x1
  shapeCasts_S1x4096x1_S4096 : S1x4096x1.ShapeCasts S4096
  slices_S2x4096x2_S1x4096x1_0_0_1 : S2x4096x2.Slices ![0, 0, 1] S1x4096x1
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S385x385x2x128_S384x384x2x128_1_1_0_0 : S385x385x2x128.Slices ![1, 1, 0, 0] S384x384x2x128
  concatenates_S384x384x2x128_S384x384x2x128_S384x384x2x256_d3 : Shape.Concatenates [S384x384x2x128, S384x384x2x128] S384x384x2x256 3
  bcast_S1x1x1x128_S384x384x2x128_0_1_2_3 : S1x1x1x128.BroadcastsInDim S384x384x2x128 (![0, 1, 2, 3] : Fin 4 → Fin S384x384x2x128.rank)
  bcast_S_S2x4096x2 : S_.BroadcastsInDim S2x4096x2 (![] : Fin 0 → Fin S2x4096x2.rank)
  slices_S2x4096x2_S2x4096x1_0_0_0 : S2x4096x2.Slices ![0, 0, 0] S2x4096x1
  shapeCasts_S2x4096x1_S2x4096 : S2x4096x1.ShapeCasts S2x4096
  transposes_S2x4096_S4096x2_1_0 : S2x4096.Transposes [1, 0] S4096x2
  slices_S2x4096x2_S2x4096x1_0_0_1 : S2x4096x2.Slices ![0, 0, 1] S2x4096x1
  bcast_S2_S1x2_1 : S2.BroadcastsInDim S1x2 (![1] : Fin 1 → Fin S1x2.rank)
  bcast_S_S4096x2 : S_.BroadcastsInDim S4096x2 (![] : Fin 0 → Fin S4096x2.rank)
  bcast_S_S1x2 : S_.BroadcastsInDim S1x2 (![] : Fin 0 → Fin S1x2.rank)
  bcast_S1x2_S4096x2_0_1 : S1x2.BroadcastsInDim S4096x2 (![0, 1] : Fin 2 → Fin S4096x2.rank)
  bcast_S4096x2_S4096x2x1_0_1 : S4096x2.BroadcastsInDim S4096x2x1 (![0, 1] : Fin 2 → Fin S4096x2x1.rank)
  concatenates_S4096x2x1_S4096x2x1_S4096x2x1_S4096x2x3_d2 : Shape.Concatenates [S4096x2x1, S4096x2x1, S4096x2x1] S4096x2x3 2
  bcast_S4096x2x128_S1x4096x2x128_1_2_3 : S4096x2x128.BroadcastsInDim S1x4096x2x128 (![1, 2, 3] : Fin 3 → Fin S1x4096x2x128.rank)
  bcast_S1x4096x2x128_S4x4096x2x128_0_1_2_3 : S1x4096x2x128.BroadcastsInDim S4x4096x2x128 (![0, 1, 2, 3] : Fin 4 → Fin S4x4096x2x128.rank)
  dot_S4x4096x2x128_S128x128_S4x4096x2x128_3_1_012_0_n_n_wf : DotDims.WF S4x4096x2x128 S128x128 S4x4096x2x128 [3] [1] [0, 1, 2] [0] [] []
  scatter_S385x385x2x128_S4096x2_S4096x2x128_12_01_01_1_wf : ScatterDims.WF S385x385x2x128 S4096x2 S4096x2x128 [1, 2] [0, 1] [0, 1] 1
  dot_S384x384x2x256_S128x256_S384x384x2x128_3_1_012_0_n_n_wf : DotDims.WF S384x384x2x256 S128x256 S384x384x2x128 [3] [1] [0, 1, 2] [0] [] []
  dot_S384x384x2x128_S128x128_S384x384x2x128_3_1_012_0_n_n_wf : DotDims.WF S384x384x2x128 S128x128 S384x384x2x128 [3] [1] [0, 1, 2] [0] [] []
  gather_S384x384x2x128_S4096x2x3_S4096x2x128_2_012_n_n_012_2_111128_wf : GatherDims.WF S384x384x2x128 S4096x2x3 S4096x2x128 [2] [0, 1, 2] [] [0, 1, 2] [] 2 ![1, 1, 1, 128]

variable [Facts₀]

def dot_S4x4096x2x128_S128x128_S4x4096x2x128_3_1_012_0_n_n : DotDims S4x4096x2x128 S128x128 S4x4096x2x128 where
  lhsContracting := [3]
  rhsContracting := [1]
  lhsNonContracting := [0, 1, 2]
  rhsNonContracting := [0]
  lhsBatch := []
  rhsBatch := []
  wf := dot_S4x4096x2x128_S128x128_S4x4096x2x128_3_1_012_0_n_n_wf
def scatter_S385x385x2x128_S4096x2_S4096x2x128_12_01_01_1 : ScatterDims S385x385x2x128 S4096x2 S4096x2x128 where
  updateWindowDims := [1, 2]
  insertedWindowDims := [0, 1]
  scatterDimsToOperandDims := [0, 1]
  indexVectorDim := 1
  wf := scatter_S385x385x2x128_S4096x2_S4096x2x128_12_01_01_1_wf
def dot_S384x384x2x256_S128x256_S384x384x2x128_3_1_012_0_n_n : DotDims S384x384x2x256 S128x256 S384x384x2x128 where
  lhsContracting := [3]
  rhsContracting := [1]
  lhsNonContracting := [0, 1, 2]
  rhsNonContracting := [0]
  lhsBatch := []
  rhsBatch := []
  wf := dot_S384x384x2x256_S128x256_S384x384x2x128_3_1_012_0_n_n_wf
def dot_S384x384x2x128_S128x128_S384x384x2x128_3_1_012_0_n_n : DotDims S384x384x2x128 S128x128 S384x384x2x128 where
  lhsContracting := [3]
  rhsContracting := [1]
  lhsNonContracting := [0, 1, 2]
  rhsNonContracting := [0]
  lhsBatch := []
  rhsBatch := []
  wf := dot_S384x384x2x128_S128x128_S384x384x2x128_3_1_012_0_n_n_wf
def gather_S384x384x2x128_S4096x2x3_S4096x2x128_2_012_n_n_012_2_111128 : GatherDims S384x384x2x128 S4096x2x3 S4096x2x128 where
  offsetDims := [2]
  collapsedSliceDims := [0, 1, 2]
  operandBatchingDims := []
  startIndicesBatchingDims := []
  startIndexMap := [0, 1, 2]
  indexVectorDim := 2
  sliceSizes := ![1, 1, 1, 128]
  wf := gather_S384x384x2x128_S4096x2x3_S4096x2x128_2_012_n_n_012_2_111128_wf

class Facts : Prop extends Facts₀ where

variable [Facts]
-- ==== Proof.BitsRegion0A.lean ====
/-
  The first kernel of the pipeline (the projection x · W_gᵀ + b_g and its running sum over the trial axis), what
  its runs share: each window's block at a grid point as a read of its array at the region's entry contents, the
  two conditions of the body in closed form over the eight grid points (the accumulator is reset when the trial
  coordinate is 0 and the mean is written when it is 3), where the mean's window is idle, and the first of the
  body's three runs — the case of a reset point: the projection block is stored, the accumulator is overwritten
  by zero plus the projection, the mean's buffer is handed back untouched.
-/
import proofs.«178774_j58600533786747_2_alg».proof.Proof.Gen.Kernel.Launch
import proofs.«178774_j58600533786747_2_alg».proof.Proof.Gen.Kernel.Skeleton
import proofs.«178774_j58600533786747_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Base
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end Base

/-- The accumulator is reset: the trial coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The mean is written: the trial coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev VO0_3 : View sig .tc .vmem S1x4096x128 .f32 := (Memref.whole cc0_stg3_0 : Memref sig .tc .vmem S1x4096x128 .f32).view
abbrev VO0_4 : View sig .tc .vmem S4096x128 .f32 := (Memref.whole cc0_stg4_0 : Memref sig .tc .vmem S4096x128 .f32).view
abbrev ms0_0 (t : Fin cfg0.N) : Memref sig .tc .vmem S1x4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S4096x128 .f32 := Memref.whole cc0_scratch0
abbrev VS0_0 : View sig .tc .vmem S4096x128 .f32 := scM0_0.view

/-- The scoped buffers the first kernel does not use (the second kernel's staging buffers), each whole at some contents. -/
abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant with the accumulator as a memref owned at some contents, beside the buffers the kernel does not use. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA; rw [scopedRest0_eq]; simp only [scM0_0, owns_whole]; try rfl

set_option maxHeartbeats 4000000 in
/-- The body at a reset point (trial coordinate 0): the pieces each buffer ends with, found by running it. -/
noncomputable def kernelRun0_A (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i)
    (x0 : Vec F S1x4096x128 .f32) (x1 : Vec F S128x128 .bf16) (x2 : Vec F S128 .f32) :
    Σ' (L3 : List (View.Piece (Elt F) S1x4096x128 .f32)) (L4 : List (View.Piece (Elt F) S4096x128 .f32)), { LS0 : List (View.Piece (Elt F) S4096x128 .f32) //
      ∀ (xi4 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__proj_mean_kernel i arg2 harg2 arg3 harg3 arg4 harg4 arg5 harg5 arg6 harg6 arg7 harg7) K } := by
  refine ⟨?_, [], ?_, fun xi4 E K => ?run⟩
  case run =>
    simp only [cc0__proj_mean_kernel_eq_skeleton]; unfold cc0__proj_mean_kernel_skel
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.Kernel.R0

end
-- ==== Proof.BitsRegion0B.lean ====
/-
  The first kernel's body, one more of its three runs.
-/
import proofs.«178774_j58600533786747_2_alg».proof.Proof.BitsRegion0A

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (trial coordinate 1 or 2): the projection block is stored, the accumulator takes the
    previous accumulator plus the projection, the mean's buffer is handed back untouched. -/
noncomputable def kernelRun0_B (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i)
    (x0 : Vec F S1x4096x128 .f32) (x1 : Vec F S128x128 .bf16) (x2 : Vec F S128 .f32) (xs0 : Vec F S4096x128 .f32) :
    Σ' (L3 : List (View.Piece (Elt F) S1x4096x128 .f32)) (L4 : List (View.Piece (Elt F) S4096x128 .f32)), { LS0 : List (View.Piece (Elt F) S4096x128 .f32) //
      ∀ (xi4 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__proj_mean_kernel i arg2 harg2 arg3 harg3 arg4 harg4 arg5 harg5 arg6 harg6 arg7 harg7) K } := by
  refine ⟨?_, [], ?_, fun xi4 E K => ?run⟩
  case run =>
    simp only [cc0__proj_mean_kernel_eq_skeleton]; unfold cc0__proj_mean_kernel_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.Kernel.R0

end
-- ==== Proof.BitsRegion0C.lean ====
/-
  The first kernel's body, one more of its three runs.
-/
import proofs.«178774_j58600533786747_2_alg».proof.Proof.BitsRegion0B

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that writes the mean (trial coordinate 3): the projection block is stored, the accumulator
    takes the previous accumulator plus the projection, and the mean's block is stored as the new accumulator times 1/4. -/
noncomputable def kernelRun0_C (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i)
    (x0 : Vec F S1x4096x128 .f32) (x1 : Vec F S128x128 .bf16) (x2 : Vec F S128 .f32) (xs0 : Vec F S4096x128 .f32) :
    Σ' (L3 : List (View.Piece (Elt F) S1x4096x128 .f32)) (L4 : List (View.Piece (Elt F) S4096x128 .f32)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__proj_mean_kernel i arg2 harg2 arg3 harg3 arg4 harg4 arg5 harg5 arg6 harg6 arg7 harg7) K } := by
  refine ⟨?_, ?_, ?_, fun E K => ?run⟩
  case run =>
    simp only [cc0__proj_mean_kernel_eq_skeleton]; unfold cc0__proj_mean_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.R0

end
-- ==== Proof.BitsRegion0.lean ====
/-
  The first kernel of the pipeline at the buffer contents `V` its region is entered with: what the projection
  block, the mean's block and the accumulator hold after each of the eight grid points (by recursion on the
  point: a reset point does not look at the accumulator, every other point adds to what the point before left),
  the region's invariant (the accumulator at what the point before left), the pipeline's proof data and its body
  obligation by cases on the point's trial coordinate, and the invariant's two ends.
-/
import proofs.«178774_j58600533786747_2_alg».proof.Proof.BitsRegion0C

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def out0_A_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) : Vec F S1x4096x128 .f32 :=
  VO0_3.read (Elt F) (VO0_3.writes (Elt F) VO0_3.junk (kernelRun0_A c i arg2 harg2 arg3 harg3 arg4 harg4 arg5 harg5 arg6 harg6 arg7 harg7 hc0 hc1 x0 x1 x2).1)
theorem cover0_A_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) (y : S1x4096x128.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S1x4096x128.size (by sl_kernel_rfl) y
def out0_A_4 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) : Vec F S4096x128 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)
theorem scover0_A_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) (y : S4096x128.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S4096x128.size (by sl_kernel_rfl) y
def sout0_A_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) : Vec F S4096x128 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

def out0_B_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) : Vec F S1x4096x128 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)
theorem cover0_B_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) (y : S1x4096x128.Idx) :
    ∃ pc ∈ (kernelRun0_B c i arg2 harg2 arg3 harg3 arg4 harg4 arg5 harg5 arg6 harg6 arg7 harg7 hc0 hc1 x0 x1 x2 xs0).1, y ∈ pc.1.set :=
  View.cover_of_tiledL (kernelRun0_B c i arg2 harg2 arg3 harg3 arg4 harg4 arg5 harg5 arg6 harg6 arg7 harg7 hc0 hc1 x0 x1 x2 xs0).1 S1x4096x128.size (by sl_kernel_rfl) y
def out0_B_4 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) : Vec F S4096x128 .f32 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)
theorem scover0_B_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) (y : S4096x128.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S4096x128.size (by sl_kernel_rfl) y
def sout0_B_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) : Vec F S4096x128 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

def out0_C_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) : Vec F S1x4096x128 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
theorem cover0_C_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) (y : S1x4096x128.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1x4096x128.size (by sl_kernel_rfl) y
def out0_C_4 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) : Vec F S4096x128 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
theorem scover0_C_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) (y : S4096x128.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S4096x128.size (by sl_kernel_rfl) y
def sout0_C_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) : Vec F S4096x128 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)
theorem cover0_C_4 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) (y : S4096x128.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S4096x128.size (by sl_kernel_rfl) y

variable (V : (c : Dev nD) → (b : Ref sig .tc) → Buf (Elt F) ((c : Thread nD τ).loc b))

def tupA (c : Dev nD) (t : Fin cfg0.N) (h0 : t.val % 4 = 0) (h1 : ¬t.val % 4 = 3) : Vec F S1x4096x128 .f32 × Vec F S4096x128 .f32 × Vec F S4096x128 .f32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t),
   out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t))

def tupB (c : Dev nD) (t : Fin cfg0.N) (h0 : ¬t.val % 4 = 0) (h1 : ¬t.val % 4 = 3) (xs0 : Vec F S4096x128 .f32) : Vec F S1x4096x128 .f32 × Vec F S4096x128 .f32 × Vec F S4096x128 .f32 :=
  (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs0,
   out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs0,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs0)

def tupC (c : Dev nD) (t : Fin cfg0.N) (h0 : ¬t.val % 4 = 0) (h1 : t.val % 4 = 3) (xs0 : Vec F S4096x128 .f32) : Vec F S1x4096x128 .f32 × Vec F S4096x128 .f32 × Vec F S4096x128 .f32 :=
  (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs0,
   out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs0,
   sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs0)

/-- The projection block, the mean's block and the accumulator after the body at position `n`. -/
def outsAt0 (c : Dev nD) : (n : ℕ) → n < cfg0.N → Vec F S1x4096x128 .f32 × Vec F S4096x128 .f32 × Vec F S4096x128 .f32
  | 0, hn => tupA V c ⟨0, hn⟩ (Nat.zero_mod _) (fun h => by have h' : (0 : ℕ) % 4 = 3 := h; omega)
  | n + 1, hn =>
    if h0 : (n + 1) % 4 = 0 then
      if h1 : (n + 1) % 4 = 3 then False.elim (by omega)
      else tupA V c ⟨n + 1, hn⟩ h0 h1
    else
      if h1 : (n + 1) % 4 = 3 then tupC V c ⟨n + 1, hn⟩ h0 h1 (outsAt0 c n (Nat.lt_of_succ_lt hn)).2.2
      else tupB V c ⟨n + 1, hn⟩ h0 h1 (outsAt0 c n (Nat.lt_of_succ_lt hn)).2.2

theorem outsAt0_A (c : Dev nD) (t : Fin cfg0.N) (h0 : t.val % 4 = 0) (h1 : ¬t.val % 4 = 3) :
    outsAt0 V c t.val t.isLt = tupA V c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 4 = 0) (h1 : ¬t.val % 4 = 3) :
    outsAt0 V c t.val t.isLt = tupB V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 4 = 0) (h1 : t.val % 4 = 3) :
    outsAt0 V c t.val t.isLt = tupC V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region's invariant before position `n`: the class's before the first point; afterwards the accumulator
    at what the point before left, beside the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 (F := F) c) ∗ (∃ r, prngReg c r))
theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ Rest0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Rest0 (F := F) c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 8000000 in
/-- The body at any point, by cases on its trial coordinate. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  by_cases h0 : t.val % 4 = 0
  · by_cases h1 : t.val % 4 = 3
    · exfalso; omega
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [Dat.leavesExact_idle (dat0 V c) 4 t (idleAt0_4 t (fun h => h1 ((hcond0_1 t).mp h))) (noFlush0_4 t (fun h => h1 ((hcond0_1 t).mp h)))]
        rw [outsAt0_A V c t h0 h1]
        unfold tupA out0_A_3 sout0_A_0; (try dsimp only)
        by_cases hz : t.val = 0
        · rw [PhiS_castSucc V c t, PhiS_zero V c _ _ hz, PhiA0_eq]
          iintro ⟨⟨⟨HS0, HR⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
          isplitl [H0]; · iexact H0
          isplitl [H1]; · iexact H1
          isplitl [H2]; · iexact H2
          isplitl [H3]; · iexists _; iexact H3
          isplitl [H4]; · iexact H4
          isplitl [HS0]; · iexact HS0
          iintro ⟨H0, H1, H2, ⟨%e3, H3⟩, H4, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_A_0 c _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 c _ _ _ _ _ _ _ _ _ _ _ _ _ _ _ _ _ _)
          iexists _; iexact H4
        · rw [PhiS_castSucc V c t, PhiS_pos V c _ _ hz]
          iintro ⟨⟨⟨HS0, HR⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
          isplitl [H0]; · iexact H0
          isplitl [H1]; · iexact H1
          isplitl [H2]; · iexact H2
          isplitl [H3]; · iexists _; iexact H3
          isplitl [H4]; · iexact H4
          isplitl [HS0]; · iexists _; iexact HS0
          iintro ⟨H0, H1, H2, ⟨%e3, H3⟩, H4, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_A_0 c _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 c _ _ _ _ _ _ _ _ _ _ _ _ _ _ _ _ _ _)
          iexists _; iexact H4
  · by_cases h1 : t.val % 4 = 3
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [show (dat0 V c).leavesExact 4 t = owns (c : Thread nD τ) (ms0_4 t) fullShare ((dat0 V c).after 4 t) from by
          unfold Dat.leavesExact; rw [liveAt0_4 t ((hcond0_1 t).mpr h1)], after0_4]
        rw [outsAt0_C V c t h0 h1]
        unfold tupC out0_C_3 out0_C_4 sout0_C_0; (try dsimp only)
        have hz : t.val ≠ 0 := fun e => h0 (by rw [e])
        · rw [PhiS_castSucc V c t, PhiS_pos V c _ _ hz]
          iintro ⟨⟨⟨HS0, HR⟩, Hg⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
          isplitl [H0]; · iexact H0
          isplitl [H1]; · iexact H1
          isplitl [H2]; · iexact H2
          isplitl [H3]; · iexists _; iexact H3
          isplitl [H4]; · iexists _; iexact H4
          isplitl [HS0]; · iexact HS0
          iintro ⟨H0, H1, H2, ⟨%e3, H3⟩, ⟨%e4, H4⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_C_0 c _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_C_3 c _ _ _ _ _ _ _ _ _ _ _ _ _ _ _ _ _ _ _)
          unfold owns; iexists _; isplitr
          swap; · iexact H4
          ipureintro; exact View.read_writes_of_cover _ _ _ _ _ (cover0_C_4 c _ _ _ _ _ _ _ _ _ _ _ _ _ _ _ _ _ _ _)
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [Dat.leavesExact_idle (dat0 V c) 4 t (idleAt0_4 t (fun h => h1 ((hcond0_1 t).mp h))) (noFlush0_4 t (fun h => h1 ((hcond0_1 t).mp h)))]
        rw [outsAt0_B V c t h0 h1]
        unfold tupB out0_B_3 sout0_B_0; (try dsimp only)
        have hz : t.val ≠ 0 := fun e => h0 (by rw [e])
        · rw [PhiS_castSucc V c t, PhiS_pos V c _ _ hz]
          iintro ⟨⟨⟨HS0, HR⟩, Hg⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ Set.univ _)
          isplitl [H0]; · iexact H0
          isplitl [H1]; · iexact H1
          isplitl [H2]; · iexact H2
          isplitl [H3]; · iexists _; iexact H3
          isplitl [H4]; · iexact H4
          isplitl [HS0]; · iexact HS0
          iintro ⟨H0, H1, H2, ⟨%e3, H3⟩, H4, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_B_0 c _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_B_3 c _ _ _ _ _ _ _ _ _ _ _ _ _ _ _ _ _ _ _)
          iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- After the last point the invariant gives the class's back: the accumulator's contents are forgotten. -/
theorem hout0 (c : Dev nD) : (dat0 V c).Φ (Fin.last cfg0.N) ⊢ Pipeline.ΦA spec0 c :=
  Phi_out0 V c _ (by rw [Fin.val_last]; have : cfg0.N = 8 := N_0; omega)

end Cert.Kernel.R0

end
-- ==== Proof.BitsRegion1.lean ====
/-
  The second kernel of the pipeline (the fused concatenated-linear and feature-layer maps), at the buffer contents
  `V` its region is entered with: each window's block at a grid point as a read of its array, the one output
  block the body leaves (the single whole-block store of the body's arithmetic over the seven input blocks), the
  body's triple, and the pipeline's proof data with its body obligation. The kernel keeps nothing between points:
  every point reads seven input blocks and overwrites its output block.
-/
import proofs.«178774_j58600533786747_2_alg».proof.Proof.Gen.Kernel.Launch
import proofs.«178774_j58600533786747_2_alg».proof.Proof.Gen.Kernel.Skeleton
import proofs.«178774_j58600533786747_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rA : Rect S4096x128 := Rect.unit (s := S4096x128) ![0, 0] S4096x128.size inb_S4096x128_S4096x128_0_0
abbrev rW : Rect S128x128 := Rect.unit (s := S128x128) ![0, 0] S128x128.size inb_S128x128_S128x128_0_0
abbrev rB : Rect S128 := Rect.unit (s := S128) ![0] S128.size inb_S128_S128_0

/-- The output block after the body: its one store, of the body's arithmetic over the seven loaded blocks. -/
def out1_7 (x0 : Vec F S4096x128 .f32) (x1 : Vec F S4096x128 .bf16) (x2 : Vec F S128x128 .bf16) (x3 : Vec F S128x128 .bf16) (x4 : Vec F S128 .f32) (x5 : Vec F S128x128 .bf16) (x6 : Vec F S128 .f32) : Vec F S4096x128 .f32 :=
  View.canon [⟨rA, k1_pay1 (View.ld x0 rA) (View.ld x1 rA) (View.ld x2 rW) (View.ld x3 rW) (View.ld x4 rB) (View.ld x5 rW) (View.ld x6 rB)⟩]

/-- The store covers the block. -/
theorem cover1_7 (p0 : Vec F S4096x128 .f32) (y : S4096x128.Idx) :
    ∃ pc ∈ ([⟨rA, p0⟩] : List (View.Piece (Elt F) S4096x128 .f32)), y ∈ pc.1.set :=
  View.cover_of_tiled [⟨rA, p0⟩] S4096x128.size (by rfl) y

set_option maxHeartbeats 4000000 in
/-- The body on whole staging memrefs: the inputs at read contents, the output at anything, runs to the
    continuation with the inputs as they were and the output at `out1_7` of the inputs. -/
theorem sound_kernel1 (c : Dev nD) (i : grid1.Coords) (E : Set ℕ) (arg1 : Memref sig .tc .vmem S4096x128 .f32) (harg1 : arg1.IsWhole) (arg2 : Memref sig .tc .vmem S4096x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S4096x128 .f32) (harg8 : arg8.IsWhole)
    (x0 : Vec F S4096x128 .f32) (x1 : Vec F S4096x128 .bf16) (x2 : Vec F S128x128 .bf16) (x3 : Vec F S128x128 .bf16) (x4 : Vec F S128 .f32) (x5 : Vec F S128x128 .bf16) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of the second pipeline on core `c`: the arrays as the region finds them; after the body at
    point `t` each input's buffer at its block and the output's at `out1_7` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c (grid1.coords t) Set.univ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.BitsRun.lean ====
/-
  The whole program as a run of five segments — host operations, the first kernel's region, host operations, the
  second kernel's region, host operations — and what every buffer holds at each boundary: the launch memory, then
  each host stretch applied, then each region's arrays at what its pipeline leaves there. The run terminates with
  every unscoped buffer at the last boundary's contents; the argument arrays walk back through the boundaries to
  the launch memory, since no host operation writes one and a region only reads them.
-/
import proofs.«178774_j58600533786747_2_alg».proof.Proof.BitsRegion0
import proofs.«178774_j58600533786747_2_alg».proof.Proof.BitsRegion1
import proofs.«178774_j58600533786747_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- Core `c`'s buffers at launch, -/
abbrev W0 : Dev nD → Valuation τ sig (Elt F) := fun c b => m ((c : Dev nD), b)
/-- after the first host stretch (the first region's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first region's exit: its arrays at what the pipeline leaves, every other buffer as entered, -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- after the second host stretch (the second region's entry), -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- at the second region's exit, -/
def W4 (c : Dev nD) : Valuation τ sig (Elt F) :=
  Pipeline.withArrays spec1 c (W3 m c) fun w => (R1.dat1 (V3 m) c).arrAt w cfg1.N
theorem W4_arr (c : Dev nD) (w : Fin cfg1.W) :
    W4 m c (Proc.devRef .tc (Pipeline.arrRef spec1 w)) = (R1.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- and after the last host stretch: the contents the program ends with. -/
abbrev W5 : Dev nD → Valuation τ sig (Elt F) := fun c => StableHlo.after hostOps2 (W4 m c)

/-! Each argument's buffer walks back through the boundaries to the launch memory. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := (W2_arr m c 2).trans (((R0.dat0 (V1 m) c).arrAt_in 2 rfl _).trans (R0.A_eq0 (V1 m) c 2))
    _ = W0 m c (Proc.devRef .tc main_arg7) := StableHlo.after_of_writes_sub hostOps0 _ hostOps0_writes (by decide)
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W5_main_arg9 (c : Dev nD) : W5 m c (Proc.devRef .tc main_arg9) = m ((c : Thread nD τ).loc main_arg9) :=
  calc W5 m c (Proc.devRef .tc main_arg9)
    _ = W4 m c (Proc.devRef .tc main_arg9) := StableHlo.after_of_writes_sub hostOps2 _ hostOps2_writes (by decide)
    _ = W3 m c (Proc.devRef .tc main_arg9) := (W4_arr m c 4).trans (((R1.dat1 (V3 m) c).arrAt_in 4 rfl _).trans (R1.A_eq1 (V3 m) c 4))
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W5_main_arg10 (c : Dev nD) : W5 m c (Proc.devRef .tc main_arg10) = m ((c : Thread nD τ).loc main_arg10) :=
  calc W5 m c (Proc.devRef .tc main_arg10)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl
theorem W5_main_arg11 (c : Dev nD) : W5 m c (Proc.devRef .tc main_arg11) = m ((c : Thread nD τ).loc main_arg11) :=
  calc W5 m c (Proc.devRef .tc main_arg11)
    _ = W4 m c (Proc.devRef .tc main_arg11) := StableHlo.after_of_writes_sub hostOps2 _ hostOps2_writes (by decide)
    _ = W3 m c (Proc.devRef .tc main_arg11) := (W4_arr m c 6).trans (((R1.dat1 (V3 m) c).arrAt_in 6 rfl _).trans (R1.A_eq1 (V3 m) c 6))
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- The first kernel's region over the thread state "every unscoped buffer at the boundary's contents, the
    generator register at some state, nothing owed". -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (R0.dat0 (V1 m) c).Φ 0 from rfl]
    iintro ⟨Hp, -, Hr⟩
    iapply (R0.hin0 (V1 m) c)
    unfold Pipeline.ΦA
    isplitl [Hr]; · iexact Hr
    iexact Hp
  hout c := by
    rw [Pipeline.ownSems0_none, show (pdats m 0 c).Φ (Fin.last _) = (R0.dat0 (V1 m) c).Φ (Fin.last cfg0.N) from rfl]
    iintro H
    ihave H' := (R0.hout0 (V1 m) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region over the thread state "every unscoped buffer at the boundary's contents, the
    generator register at some state, nothing owed". -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

variable (ρ : Dev nD → PrngReg)

set_option backward.isDefEq.respectTransparency.types false in
/-- THE RUN: every weakly fair execution terminates, nothing faulting, and every unscoped buffer ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_all m ρ)

end Cert.Kernel.Run

end
-- ==== Proof.IdealRegion0A.lean ====
/-
  The first kernel of the pipeline (the projection x · W_gᵀ + b_g and its running sum over the trial axis), what
  its runs share: each window's block at a grid point as a read of its array at the region's entry contents, the
  two conditions of the body in closed form over the eight grid points (the accumulator is reset when the trial
  coordinate is 0 and the mean is written when it is 3), where the mean's window is idle, and the first of the
  body's three runs — the case of a reset point: the projection block is stored, the accumulator is overwritten
  by zero plus the projection, the mean's buffer is handed back untouched.
-/
import proofs.«178774_j58600533786747_2_alg».proof.Proof.Gen.KernelIdeal.Launch
import proofs.«178774_j58600533786747_2_alg».proof.Proof.Gen.KernelIdeal.Skeleton
import proofs.«178774_j58600533786747_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Base
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end Base

/-- The accumulator is reset: the trial coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The mean is written: the trial coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev VO0_3 : View sig .tc .vmem S1x4096x128 .f32 := (Memref.whole cc0_stg3_0 : Memref sig .tc .vmem S1x4096x128 .f32).view
abbrev VO0_4 : View sig .tc .vmem S4096x128 .f32 := (Memref.whole cc0_stg4_0 : Memref sig .tc .vmem S4096x128 .f32).view
abbrev ms0_0 (t : Fin cfg0.N) : Memref sig .tc .vmem S1x4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S4096x128 .f32 := Memref.whole cc0_scratch0
abbrev VS0_0 : View sig .tc .vmem S4096x128 .f32 := scM0_0.view

/-- The scoped buffers the first kernel does not use (the second kernel's staging buffers), each whole at some contents. -/
abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant with the accumulator as a memref owned at some contents, beside the buffers the kernel does not use. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA; rw [scopedRest0_eq]; simp only [scM0_0, owns_whole]; try rfl

set_option maxHeartbeats 4000000 in
/-- The body at a reset point (trial coordinate 0): the pieces each buffer ends with, found by running it. -/
noncomputable def kernelRun0_A (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i)
    (x0 : Vec F S1x4096x128 .f32) (x1 : Vec F S128x128 .bf16) (x2 : Vec F S128 .f32) :
    Σ' (L3 : List (View.Piece (Elt F) S1x4096x128 .f32)) (L4 : List (View.Piece (Elt F) S4096x128 .f32)), { LS0 : List (View.Piece (Elt F) S4096x128 .f32) //
      ∀ (xi4 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__proj_mean_kernel i arg2 harg2 arg3 harg3 arg4 harg4 arg5 harg5 arg6 harg6 arg7 harg7) K } := by
  refine ⟨?_, [], ?_, fun xi4 E K => ?run⟩
  case run =>
    simp only [cc0__proj_mean_kernel_eq_skeleton]; unfold cc0__proj_mean_kernel_skel
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.KernelIdeal.R0

end
-- ==== Proof.IdealRegion0B.lean ====
/-
  The first kernel's body, one more of its three runs.
-/
import proofs.«178774_j58600533786747_2_alg».proof.Proof.IdealRegion0A

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (trial coordinate 1 or 2): the projection block is stored, the accumulator takes the
    previous accumulator plus the projection, the mean's buffer is handed back untouched. -/
noncomputable def kernelRun0_B (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i)
    (x0 : Vec F S1x4096x128 .f32) (x1 : Vec F S128x128 .bf16) (x2 : Vec F S128 .f32) (xs0 : Vec F S4096x128 .f32) :
    Σ' (L3 : List (View.Piece (Elt F) S1x4096x128 .f32)) (L4 : List (View.Piece (Elt F) S4096x128 .f32)), { LS0 : List (View.Piece (Elt F) S4096x128 .f32) //
      ∀ (xi4 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__proj_mean_kernel i arg2 harg2 arg3 harg3 arg4 harg4 arg5 harg5 arg6 harg6 arg7 harg7) K } := by
  refine ⟨?_, [], ?_, fun xi4 E K => ?run⟩
  case run =>
    simp only [cc0__proj_mean_kernel_eq_skeleton]; unfold cc0__proj_mean_kernel_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.KernelIdeal.R0

end
-- ==== Proof.IdealRegion0C.lean ====
/-
  The first kernel's body, one more of its three runs.
-/
import proofs.«178774_j58600533786747_2_alg».proof.Proof.IdealRegion0B

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that writes the mean (trial coordinate 3): the projection block is stored, the accumulator
    takes the previous accumulator plus the projection, and the mean's block is stored as the new accumulator times 1/4. -/
noncomputable def kernelRun0_C (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i)
    (x0 : Vec F S1x4096x128 .f32) (x1 : Vec F S128x128 .bf16) (x2 : Vec F S128 .f32) (xs0 : Vec F S4096x128 .f32) :
    Σ' (L3 : List (View.Piece (Elt F) S1x4096x128 .f32)) (L4 : List (View.Piece (Elt F) S4096x128 .f32)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__proj_mean_kernel i arg2 harg2 arg3 harg3 arg4 harg4 arg5 harg5 arg6 harg6 arg7 harg7) K } := by
  refine ⟨?_, ?_, ?_, fun E K => ?run⟩
  case run =>
    simp only [cc0__proj_mean_kernel_eq_skeleton]; unfold cc0__proj_mean_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.R0

end
-- ==== Proof.IdealRegion0.lean ====
/-
  The first kernel of the pipeline at the buffer contents `V` its region is entered with: what the projection
  block, the mean's block and the accumulator hold after each of the eight grid points (by recursion on the
  point: a reset point does not look at the accumulator, every other point adds to what the point before left),
  the region's invariant (the accumulator at what the point before left), the pipeline's proof data and its body
  obligation by cases on the point's trial coordinate, and the invariant's two ends.
-/
import proofs.«178774_j58600533786747_2_alg».proof.Proof.IdealRegion0C

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def out0_A_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) : Vec F S1x4096x128 .f32 :=
  VO0_3.read (Elt F) (VO0_3.writes (Elt F) VO0_3.junk (kernelRun0_A c i arg2 harg2 arg3 harg3 arg4 harg4 arg5 harg5 arg6 harg6 arg7 harg7 hc0 hc1 x0 x1 x2).1)
theorem cover0_A_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) (y : S1x4096x128.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S1x4096x128.size (by sl_kernel_rfl) y
def out0_A_4 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) : Vec F S4096x128 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)
theorem scover0_A_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) (y : S4096x128.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S4096x128.size (by sl_kernel_rfl) y
def sout0_A_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) : Vec F S4096x128 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

def out0_B_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) : Vec F S1x4096x128 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)
theorem cover0_B_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) (y : S1x4096x128.Idx) :
    ∃ pc ∈ (kernelRun0_B c i arg2 harg2 arg3 harg3 arg4 harg4 arg5 harg5 arg6 harg6 arg7 harg7 hc0 hc1 x0 x1 x2 xs0).1, y ∈ pc.1.set :=
  View.cover_of_tiledL (kernelRun0_B c i arg2 harg2 arg3 harg3 arg4 harg4 arg5 harg5 arg6 harg6 arg7 harg7 hc0 hc1 x0 x1 x2 xs0).1 S1x4096x128.size (by sl_kernel_rfl) y
def out0_B_4 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) : Vec F S4096x128 .f32 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)
theorem scover0_B_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) (y : S4096x128.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S4096x128.size (by sl_kernel_rfl) y
def sout0_B_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) : Vec F S4096x128 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

def out0_C_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) : Vec F S1x4096x128 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
theorem cover0_C_3 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) (y : S1x4096x128.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1x4096x128.size (by sl_kernel_rfl) y
def out0_C_4 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) : Vec F S4096x128 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
theorem scover0_C_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) (y : S4096x128.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S4096x128.size (by sl_kernel_rfl) y
def sout0_C_0 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) : Vec F S4096x128 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)
theorem cover0_C_4 (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) (y : S4096x128.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S4096x128.size (by sl_kernel_rfl) y

variable (V : (c : Dev nD) → (b : Ref sig .tc) → Buf (Elt F) ((c : Thread nD τ).loc b))

def tupA (c : Dev nD) (t : Fin cfg0.N) (h0 : t.val % 4 = 0) (h1 : ¬t.val % 4 = 3) : Vec F S1x4096x128 .f32 × Vec F S4096x128 .f32 × Vec F S4096x128 .f32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t),
   out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t))

def tupB (c : Dev nD) (t : Fin cfg0.N) (h0 : ¬t.val % 4 = 0) (h1 : ¬t.val % 4 = 3) (xs0 : Vec F S4096x128 .f32) : Vec F S1x4096x128 .f32 × Vec F S4096x128 .f32 × Vec F S4096x128 .f32 :=
  (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs0,
   out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs0,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs0)

def tupC (c : Dev nD) (t : Fin cfg0.N) (h0 : ¬t.val % 4 = 0) (h1 : t.val % 4 = 3) (xs0 : Vec F S4096x128 .f32) : Vec F S1x4096x128 .f32 × Vec F S4096x128 .f32 × Vec F S4096x128 .f32 :=
  (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs0,
   out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs0,
   sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs0)

/-- The projection block, the mean's block and the accumulator after the body at position `n`. -/
def outsAt0 (c : Dev nD) : (n : ℕ) → n < cfg0.N → Vec F S1x4096x128 .f32 × Vec F S4096x128 .f32 × Vec F S4096x128 .f32
  | 0, hn => tupA V c ⟨0, hn⟩ (Nat.zero_mod _) (fun h => by have h' : (0 : ℕ) % 4 = 3 := h; omega)
  | n + 1, hn =>
    if h0 : (n + 1) % 4 = 0 then
      if h1 : (n + 1) % 4 = 3 then False.elim (by omega)
      else tupA V c ⟨n + 1, hn⟩ h0 h1
    else
      if h1 : (n + 1) % 4 = 3 then tupC V c ⟨n + 1, hn⟩ h0 h1 (outsAt0 c n (Nat.lt_of_succ_lt hn)).2.2
      else tupB V c ⟨n + 1, hn⟩ h0 h1 (outsAt0 c n (Nat.lt_of_succ_lt hn)).2.2

theorem outsAt0_A (c : Dev nD) (t : Fin cfg0.N) (h0 : t.val % 4 = 0) (h1 : ¬t.val % 4 = 3) :
    outsAt0 V c t.val t.isLt = tupA V c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 4 = 0) (h1 : ¬t.val % 4 = 3) :
    outsAt0 V c t.val t.isLt = tupB V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 4 = 0) (h1 : t.val % 4 = 3) :
    outsAt0 V c t.val t.isLt = tupC V c t h0 h1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The region's invariant before position `n`: the class's before the first point; afterwards the accumulator
    at what the point before left, beside the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 (F := F) c) ∗ (∃ r, prngReg c r))
theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2) ∗ Rest0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Rest0 (F := F) c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 8000000 in
/-- The body at any point, by cases on its trial coordinate. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  by_cases h0 : t.val % 4 = 0
  · by_cases h1 : t.val % 4 = 3
    · exfalso; omega
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [Dat.leavesExact_idle (dat0 V c) 4 t (idleAt0_4 t (fun h => h1 ((hcond0_1 t).mp h))) (noFlush0_4 t (fun h => h1 ((hcond0_1 t).mp h)))]
        rw [outsAt0_A V c t h0 h1]
        unfold tupA out0_A_3 sout0_A_0; (try dsimp only)
        by_cases hz : t.val = 0
        · rw [PhiS_castSucc V c t, PhiS_zero V c _ _ hz, PhiA0_eq]
          iintro ⟨⟨⟨HS0, HR⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
          isplitl [H0]; · iexact H0
          isplitl [H1]; · iexact H1
          isplitl [H2]; · iexact H2
          isplitl [H3]; · iexists _; iexact H3
          isplitl [H4]; · iexact H4
          isplitl [HS0]; · iexact HS0
          iintro ⟨H0, H1, H2, ⟨%e3, H3⟩, H4, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_A_0 c _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 c _ _ _ _ _ _ _ _ _ _ _ _ _ _ _ _ _ _)
          iexists _; iexact H4
        · rw [PhiS_castSucc V c t, PhiS_pos V c _ _ hz]
          iintro ⟨⟨⟨HS0, HR⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
          isplitl [H0]; · iexact H0
          isplitl [H1]; · iexact H1
          isplitl [H2]; · iexact H2
          isplitl [H3]; · iexists _; iexact H3
          isplitl [H4]; · iexact H4
          isplitl [HS0]; · iexists _; iexact HS0
          iintro ⟨H0, H1, H2, ⟨%e3, H3⟩, H4, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_A_0 c _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 c _ _ _ _ _ _ _ _ _ _ _ _ _ _ _ _ _ _)
          iexists _; iexact H4
  · by_cases h1 : t.val % 4 = 3
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [show (dat0 V c).leavesExact 4 t = owns (c : Thread nD τ) (ms0_4 t) fullShare ((dat0 V c).after 4 t) from by
          unfold Dat.leavesExact; rw [liveAt0_4 t ((hcond0_1 t).mpr h1)], after0_4]
        rw [outsAt0_C V c t h0 h1]
        unfold tupC out0_C_3 out0_C_4 sout0_C_0; (try dsimp only)
        have hz : t.val ≠ 0 := fun e => h0 (by rw [e])
        · rw [PhiS_castSucc V c t, PhiS_pos V c _ _ hz]
          iintro ⟨⟨⟨HS0, HR⟩, Hg⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
          isplitl [H0]; · iexact H0
          isplitl [H1]; · iexact H1
          isplitl [H2]; · iexact H2
          isplitl [H3]; · iexists _; iexact H3
          isplitl [H4]; · iexists _; iexact H4
          isplitl [HS0]; · iexact HS0
          iintro ⟨H0, H1, H2, ⟨%e3, H3⟩, ⟨%e4, H4⟩, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_C_0 c _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_C_3 c _ _ _ _ _ _ _ _ _ _ _ _ _ _ _ _ _ _ _)
          unfold owns; iexists _; isplitr
          swap; · iexact H4
          ipureintro; exact View.read_writes_of_cover _ _ _ _ _ (cover0_C_4 c _ _ _ _ _ _ _ _ _ _ _ _ _ _ _ _ _ _ _)
    ·
        rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1 t], after0_1]
        rw [show (dat0 V c).leavesExact 2 t = owns (c : Thread nD τ) (ms0_2 t) fullShare ((dat0 V c).after 2 t) from by
          unfold Dat.leavesExact; rw [liveAt0_2 t], after0_2]
        rw [show (dat0 V c).leavesExact 3 t = owns (c : Thread nD τ) (ms0_3 t) fullShare ((dat0 V c).after 3 t) from by
          unfold Dat.leavesExact; rw [liveAt0_3 t], after0_3]
        rw [Dat.leavesExact_idle (dat0 V c) 4 t (idleAt0_4 t (fun h => h1 ((hcond0_1 t).mp h))) (noFlush0_4 t (fun h => h1 ((hcond0_1 t).mp h)))]
        rw [outsAt0_B V c t h0 h1]
        unfold tupB out0_B_3 sout0_B_0; (try dsimp only)
        have hz : t.val ≠ 0 := fun e => h0 (by rw [e])
        · rw [PhiS_castSucc V c t, PhiS_pos V c _ _ hz]
          iintro ⟨⟨⟨HS0, HR⟩, Hg⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ Set.univ _)
          isplitl [H0]; · iexact H0
          isplitl [H1]; · iexact H1
          isplitl [H2]; · iexact H2
          isplitl [H3]; · iexists _; iexact H3
          isplitl [H4]; · iexact H4
          isplitl [HS0]; · iexact HS0
          iintro ⟨H0, H1, H2, ⟨%e3, H3⟩, H4, ⟨%es0, HS0⟩⟩
          isplitl [HS0 HR Hg]
          · isplitl [HS0 HR]
            · isplitl [HS0]
              · unfold owns; iexists _; isplitr
                swap; · iexact HS0
                ipureintro; exact View.read_writes_of_cover _ _ _ _ _ (scover0_B_0 c _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_B_3 c _ _ _ _ _ _ _ _ _ _ _ _ _ _ _ _ _ _ _)
          iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- After the last point the invariant gives the class's back: the accumulator's contents are forgotten. -/
theorem hout0 (c : Dev nD) : (dat0 V c).Φ (Fin.last cfg0.N) ⊢ Pipeline.ΦA spec0 c :=
  Phi_out0 V c _ (by rw [Fin.val_last]; have : cfg0.N = 8 := N_0; omega)

end Cert.KernelIdeal.R0

end
-- ==== Proof.IdealRegion1.lean ====
/-
  The second kernel of the pipeline (the fused concatenated-linear and feature-layer maps), at the buffer contents
  `V` its region is entered with: each window's block at a grid point as a read of its array, the one output
  block the body leaves (the single whole-block store of the body's arithmetic over the seven input blocks), the
  body's triple, and the pipeline's proof data with its body obligation. The kernel keeps nothing between points:
  every point reads seven input blocks and overwrites its output block.
-/
import proofs.«178774_j58600533786747_2_alg».proof.Proof.Gen.KernelIdeal.Launch
import proofs.«178774_j58600533786747_2_alg».proof.Proof.Gen.KernelIdeal.Skeleton
import proofs.«178774_j58600533786747_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rA : Rect S4096x128 := Rect.unit (s := S4096x128) ![0, 0] S4096x128.size inb_S4096x128_S4096x128_0_0
abbrev rW : Rect S128x128 := Rect.unit (s := S128x128) ![0, 0] S128x128.size inb_S128x128_S128x128_0_0
abbrev rB : Rect S128 := Rect.unit (s := S128) ![0] S128.size inb_S128_S128_0

/-- The output block after the body: its one store, of the body's arithmetic over the seven loaded blocks. -/
def out1_7 (x0 : Vec F S4096x128 .f32) (x1 : Vec F S4096x128 .bf16) (x2 : Vec F S128x128 .bf16) (x3 : Vec F S128x128 .bf16) (x4 : Vec F S128 .f32) (x5 : Vec F S128x128 .bf16) (x6 : Vec F S128 .f32) : Vec F S4096x128 .f32 :=
  View.canon [⟨rA, k1_pay1 (View.ld x0 rA) (View.ld x1 rA) (View.ld x2 rW) (View.ld x3 rW) (View.ld x4 rB) (View.ld x5 rW) (View.ld x6 rB)⟩]

/-- The store covers the block. -/
theorem cover1_7 (p0 : Vec F S4096x128 .f32) (y : S4096x128.Idx) :
    ∃ pc ∈ ([⟨rA, p0⟩] : List (View.Piece (Elt F) S4096x128 .f32)), y ∈ pc.1.set :=
  View.cover_of_tiled [⟨rA, p0⟩] S4096x128.size (by rfl) y

set_option maxHeartbeats 4000000 in
/-- The body on whole staging memrefs: the inputs at read contents, the output at anything, runs to the
    continuation with the inputs as they were and the output at `out1_7` of the inputs. -/
theorem sound_kernel1 (c : Dev nD) (i : grid1.Coords) (E : Set ℕ) (arg1 : Memref sig .tc .vmem S4096x128 .f32) (harg1 : arg1.IsWhole) (arg2 : Memref sig .tc .vmem S4096x128 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S4096x128 .f32) (harg8 : arg8.IsWhole)
    (x0 : Vec F S4096x128 .f32) (x1 : Vec F S4096x128 .bf16) (x2 : Vec F S128x128 .bf16) (x3 : Vec F S128x128 .bf16) (x4 : Vec F S128 .f32) (x5 : Vec F S128x128 .bf16) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of the second pipeline on core `c`: the arrays as the region finds them; after the body at
    point `t` each input's buffer at its block and the output's at `out1_7` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c (grid1.coords t) Set.univ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.IdealRun.lean ====
/-
  The whole program as a run of five segments — host operations, the first kernel's region, host operations, the
  second kernel's region, host operations — and what every buffer holds at each boundary: the launch memory, then
  each host stretch applied, then each region's arrays at what its pipeline leaves there. The run terminates with
  every unscoped buffer at the last boundary's contents; the argument arrays walk back through the boundaries to
  the launch memory, since no host operation writes one and a region only reads them.
-/
import proofs.«178774_j58600533786747_2_alg».proof.Proof.IdealRegion0
import proofs.«178774_j58600533786747_2_alg».proof.Proof.IdealRegion1
import proofs.«178774_j58600533786747_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- Core `c`'s buffers at launch, -/
abbrev W0 : Dev nD → Valuation τ sig (Elt F) := fun c b => m ((c : Dev nD), b)
/-- after the first host stretch (the first region's entry), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the first region's exit: its arrays at what the pipeline leaves, every other buffer as entered, -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- after the second host stretch (the second region's entry), -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- at the second region's exit, -/
def W4 (c : Dev nD) : Valuation τ sig (Elt F) :=
  Pipeline.withArrays spec1 c (W3 m c) fun w => (R1.dat1 (V3 m) c).arrAt w cfg1.N
theorem W4_arr (c : Dev nD) (w : Fin cfg1.W) :
    W4 m c (Proc.devRef .tc (Pipeline.arrRef spec1 w)) = (R1.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- and after the last host stretch: the contents the program ends with. -/
abbrev W5 : Dev nD → Valuation τ sig (Elt F) := fun c => StableHlo.after hostOps2 (W4 m c)

/-! Each argument's buffer walks back through the boundaries to the launch memory. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := (W2_arr m c 2).trans (((R0.dat0 (V1 m) c).arrAt_in 2 rfl _).trans (R0.A_eq0 (V1 m) c 2))
    _ = W0 m c (Proc.devRef .tc main_arg7) := StableHlo.after_of_writes_sub hostOps0 _ hostOps0_writes (by decide)
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W5_main_arg9 (c : Dev nD) : W5 m c (Proc.devRef .tc main_arg9) = m ((c : Thread nD τ).loc main_arg9) :=
  calc W5 m c (Proc.devRef .tc main_arg9)
    _ = W4 m c (Proc.devRef .tc main_arg9) := StableHlo.after_of_writes_sub hostOps2 _ hostOps2_writes (by decide)
    _ = W3 m c (Proc.devRef .tc main_arg9) := (W4_arr m c 4).trans (((R1.dat1 (V3 m) c).arrAt_in 4 rfl _).trans (R1.A_eq1 (V3 m) c 4))
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W5_main_arg10 (c : Dev nD) : W5 m c (Proc.devRef .tc main_arg10) = m ((c : Thread nD τ).loc main_arg10) :=
  calc W5 m c (Proc.devRef .tc main_arg10)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl
theorem W5_main_arg11 (c : Dev nD) : W5 m c (Proc.devRef .tc main_arg11) = m ((c : Thread nD τ).loc main_arg11) :=
  calc W5 m c (Proc.devRef .tc main_arg11)
    _ = W4 m c (Proc.devRef .tc main_arg11) := StableHlo.after_of_writes_sub hostOps2 _ hostOps2_writes (by decide)
    _ = W3 m c (Proc.devRef .tc main_arg11) := (W4_arr m c 6).trans (((R1.dat1 (V3 m) c).arrAt_in 6 rfl _).trans (R1.A_eq1 (V3 m) c 6))
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- The first kernel's region over the thread state "every unscoped buffer at the boundary's contents, the
    generator register at some state, nothing owed". -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (R0.dat0 (V1 m) c).Φ 0 from rfl]
    iintro ⟨Hp, -, Hr⟩
    iapply (R0.hin0 (V1 m) c)
    unfold Pipeline.ΦA
    isplitl [Hr]; · iexact Hr
    iexact Hp
  hout c := by
    rw [Pipeline.ownSems0_none, show (pdats m 0 c).Φ (Fin.last _) = (R0.dat0 (V1 m) c).Φ (Fin.last cfg0.N) from rfl]
    iintro H
    ihave H' := (R0.hout0 (V1 m) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region over the thread state "every unscoped buffer at the boundary's contents, the
    generator register at some state, nothing owed". -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

variable (ρ : Dev nD → PrngReg)

set_option backward.isDefEq.respectTransparency.types false in
/-- THE RUN: every weakly fair execution terminates, nothing faulting, and every unscoped buffer ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_all m ρ)

end Cert.KernelIdeal.Run

end
-- ==== Proof.IdealPieces0.lean ====
/-
  What each run of the first kernel's body leaves, as the body's arithmetic of the blocks it loaded: the projection
  block is the projection of the input block; the accumulator is the previous accumulator (zero at a reset point)
  plus the projection; the mean's block, where written, is the new accumulator times the constant 1/4.
-/
import proofs.«178774_j58600533786747_2_alg».proof.Proof.IdealRegion0
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The projection block after the body (case A): the body's one store of the projection of the loaded blocks. -/
theorem out0_A_3_eq (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) :
    out0_A_3 c i arg2 harg2 arg3 harg3 arg4 harg4 arg5 harg5 arg6 harg6 arg7 harg7 hc0 hc1 x0 x1 x2 = k0_pay2 x0 x1 x2 := by
  unfold out0_A_3
  rw [View.read_writes_eq_canon _ _ _ (cover0_A_3 c i arg2 harg2 arg3 harg3 arg4 harg4 arg5 harg5 arg6 harg6 arg7 harg7 hc0 hc1 x0 x1 x2)]
  unfold kernelRun0_A
  dsimp only
  sl_unfold_words
  refine (View.canon_unit_zero (S := S1x4096x128) hz3 _ _).trans ?_
  simp only [View.readAt_eq_ld, harg2.read_unread, harg3.read_unread, harg4.read_unread, harg7.read_unread,
    View.ld_unit_zero (S := S1x4096x128) hz3, View.ld_unit_zero (S := S128x128) hz2, View.ld_unit_zero (S := S4096x128) hz2, View.ld_unit_zero (S := S128) hz1]

/-- The projection block after the body (case B): the body's one store of the projection of the loaded blocks. -/
theorem out0_B_3_eq (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) :
    out0_B_3 c i arg2 harg2 arg3 harg3 arg4 harg4 arg5 harg5 arg6 harg6 arg7 harg7 hc0 hc1 x0 x1 x2 xs0 = k0_pay2 x0 x1 x2 := by
  unfold out0_B_3
  rw [View.read_writes_eq_canon _ _ _ (cover0_B_3 c i arg2 harg2 arg3 harg3 arg4 harg4 arg5 harg5 arg6 harg6 arg7 harg7 hc0 hc1 x0 x1 x2 xs0)]
  unfold kernelRun0_B
  dsimp only
  sl_unfold_words
  refine (View.canon_unit_zero (S := S1x4096x128) hz3 _ _).trans ?_
  simp only [View.readAt_eq_ld, harg2.read_unread, harg3.read_unread, harg4.read_unread, harg7.read_unread,
    View.ld_unit_zero (S := S1x4096x128) hz3, View.ld_unit_zero (S := S128x128) hz2, View.ld_unit_zero (S := S4096x128) hz2, View.ld_unit_zero (S := S128) hz1]

/-- The projection block after the body (case C): the body's one store of the projection of the loaded blocks. -/
theorem out0_C_3_eq (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) :
    out0_C_3 c i arg2 harg2 arg3 harg3 arg4 harg4 arg5 harg5 arg6 harg6 arg7 harg7 hc0 hc1 x0 x1 x2 xs0 = k0_pay2 x0 x1 x2 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  refine (View.canon_unit_zero (S := S1x4096x128) hz3 _ _).trans ?_
  simp only [View.readAt_eq_ld, harg2.read_unread, harg3.read_unread, harg4.read_unread, harg7.read_unread,
    View.ld_unit_zero (S := S1x4096x128) hz3, View.ld_unit_zero (S := S128x128) hz2, View.ld_unit_zero (S := S4096x128) hz2, View.ld_unit_zero (S := S128) hz1]

/-- The accumulator after a reset point: zero plus the projection. -/
theorem sout0_A_0_eq (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i) (x0 : Vec F S1x4096x128 .f32) (x1 : Vec F S128x128 .bf16) (x2 : Vec F S128 .f32) :
    sout0_A_0 c i arg2 harg2 arg3 harg3 arg4 harg4 arg5 harg5 arg6 harg6 arg7 harg7 hc0 hc1 x0 x1 x2 = k0_pay4 x0 x1 x2 (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  refine (View.canon_cons_unit_zero (S := S4096x128) hz2 _ _ _).trans ?_
  simp only [View.readAt_eq_ld, harg2.read_unread, harg3.read_unread, harg4.read_unread, harg7.read_unread,
    View.ld_unit_zero (S := S1x4096x128) hz3, View.ld_unit_zero (S := S128x128) hz2, View.ld_unit_zero (S := S4096x128) hz2, View.ld_unit_zero (S := S128) hz1]
  exact congrArg (k0_pay4 x0 x1 x2) (View.readCov_unit_zero (S := S4096x128) arg7.view hz2 _ _)

/-- The accumulator after a middle point: the previous accumulator plus the projection. -/
theorem sout0_B_0_eq (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i) (x0 : Vec F S1x4096x128 .f32) (x1 : Vec F S128x128 .bf16) (x2 : Vec F S128 .f32) (xs0 : Vec F S4096x128 .f32) :
    sout0_B_0 c i arg2 harg2 arg3 harg3 arg4 harg4 arg5 harg5 arg6 harg6 arg7 harg7 hc0 hc1 x0 x1 x2 xs0 = k0_pay4 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  refine (View.canon_unit_zero (S := S4096x128) hz2 _ _).trans ?_
  simp only [View.readAt_eq_ld, harg2.read_unread, harg3.read_unread, harg4.read_unread, harg7.read_unread,
    View.ld_unit_zero (S := S1x4096x128) hz3, View.ld_unit_zero (S := S128x128) hz2, View.ld_unit_zero (S := S4096x128) hz2, View.ld_unit_zero (S := S128) hz1]

theorem sout0_C_0_eq (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) :
    sout0_C_0 c i arg2 harg2 arg3 harg3 arg4 harg4 arg5 harg5 arg6 harg6 arg7 harg7 hc0 hc1 x0 x1 x2 xs0 = k0_pay4 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  refine (View.canon_unit_zero (S := S4096x128) hz2 _ _).trans ?_
  simp only [View.readAt_eq_ld, harg2.read_unread, harg3.read_unread, harg4.read_unread, harg7.read_unread,
    View.ld_unit_zero (S := S1x4096x128) hz3, View.ld_unit_zero (S := S128x128) hz2, View.ld_unit_zero (S := S4096x128) hz2, View.ld_unit_zero (S := S128) hz1]

/-- The mean's block at a point that writes it: the new accumulator times 1/4. -/
theorem out0_C_4_eq (c : Dev nD) (i : grid0.Coords) (arg2 : Memref sig .tc .vmem S1x4096x128 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S1x4096x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : cond0_1 i) (x0 : Vec F S1x4096x128 .f32) (x1 : Vec F S128x128 .bf16) (x2 : Vec F S128 .f32) (xs0 : Vec F S4096x128 .f32) :
    out0_C_4 c i arg2 harg2 arg3 harg3 arg4 harg4 arg5 harg5 arg6 harg6 arg7 harg7 hc0 hc1 x0 x1 x2 xs0 = k0_pay5 (k0_pay4 x0 x1 x2 xs0) := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  refine (View.canon_unit_zero (S := S4096x128) hz2 _ _).trans ?_
  simp only [View.readAt_eq_ld, harg2.read_unread, harg3.read_unread, harg4.read_unread, harg7.read_unread,
    View.ld_unit_zero (S := S1x4096x128) hz3, View.ld_unit_zero (S := S128x128) hz2, View.ld_unit_zero (S := S4096x128) hz2, View.ld_unit_zero (S := S128) hz1]
  exact congrArg k0_pay5 (View.readCov_unit_zero (S := S4096x128) arg7.view hz2 _ _)

end Cert.KernelIdeal.R0

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.IdealValue0a.lean ====
/-
  The first kernel's arithmetic read at an entry, over the extended reals: the projection of a block at (r, o) is the
  inner product of row r of the block with column o of the weight block, plus the bias at o; the stored projection block
  is that under a leading unit axis; the accumulator adds the projection to what it held; the mean is the accumulator
  times the constant 1/4. And what the three buffers hold after each grid point in those terms.
-/
import proofs.«178774_j58600533786747_2_alg».proof.Proof.IdealPieces0
import proofs.«178774_j58600533786747_2_alg».proof.Proof.LibMatmulNN
import Idealize.ShloMosaic.Lib.ValueLayout
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Payloads
variable (x0 : Vec Ideal S1x4096x128 .f32) (x1 : Vec Ideal S128x128 .bf16) (x2 : Vec Ideal S128 .f32)

/-- The projection at (r, o): row r of the block against column o of the weights, plus the bias. -/
theorem pay1_apply (r : Fin 4096) (o : Fin 128) :
    k0_pay1 x0 x1 x2 (ix2 r o) = (∑ k : Fin 128, x0 (ix3 (0 : Fin 1) r k) * x1 (ix2 k o)) + x2 (ix1 o) := by
  unfold k0_pay1
  show matmul dot_S4096x128_S128x128_S4096x128_1_0_0_1_n_n none (truncf .bf16 (shapeCast S4096x128 x0 shapeCasts_S1x4096x128_S4096x128) bitsLt_bf16_f32) (shapeCast S128x128 x1 shapeCasts_S128x128_S128x128) (constant (F := Ideal) S4096x128 .f32 0x00000000#32) (ix2 r o)
      + broadcastTo S4096x128 (shapeCast S1x128 x2 shapeCasts_S128_S1x128) broadcasts_S1x128_S4096x128 (ix2 r o) = _
  refine congrArg₂ (· + ·) ?_ ?_
  · refine (Cert.MatmulNN.matmul_zero_apply _ rfl none _ _ r o).trans ?_
    refine Finset.sum_congr rfl fun k _ => ?_
    refine congrArg₂ (· * ·) ?_ ?_
    · exact shapeCast_1ab_ab_apply x0 _ r k
    · exact congrFun (shapeCast_self x1 _) (ix2 k o)
  · exact (broadcastTo_1b_ab_apply _ _ r o).trans (shapeCast_a_1a_apply x2 _ 0 o)

/-- The stored projection block is the projection under a leading unit axis. -/
theorem pay2_apply (u : Fin 1) (r : Fin 4096) (o : Fin 128) :
    k0_pay2 x0 x1 x2 (ix3 u r o) = k0_pay1 x0 x1 x2 (ix2 r o) := by
  unfold k0_pay2
  exact shapeCast_ab_1ab_apply _ _ u r o

/-- The reset value of the accumulator is the zero word everywhere. -/
theorem pay3_apply (j : S4096x128.Idx) : k0_pay3 (F := Ideal) j = Ideal.ofBits .f32 0x00000000#32 := by
  unfold k0_pay3
  exact congrFun (shapeCast_self _ _) j

/-- The accumulator's update: what it held plus the projection. -/
theorem pay4_apply (v16 : Vec Ideal S4096x128 .f32) (j : S4096x128.Idx) :
    k0_pay4 x0 x1 x2 v16 j = v16 j + k0_pay1 x0 x1 x2 j := by
  unfold k0_pay4
  exact congrFun (shapeCast_self _ _) j

/-- The mean: the accumulator times the constant. -/
theorem pay5_apply (v24 : Vec Ideal S4096x128 .f32) (j : S4096x128.Idx) :
    k0_pay5 v24 j = v24 j * Ideal.ofBits .f32 0x3E800000#32 := rfl
end Payloads

section Points
variable {F : FTy → Type} [FloatOps F]
variable (V : (c : Dev nD) → (b : Ref sig .tc) → Buf (Elt F) ((c : Thread nD τ).loc b)) (c : Dev nD)

/-- The projection of the input block at point `p`. -/
abbrev yAt (p : Fin cfg0.N) : FVec F S4096x128 .f32 := k0_pay1 (iblk0 V c 0 p) (iblk0 V c 1 p) (iblk0 V c 2 p)

/-- After every point the projection's buffer holds the projection block of that point. -/
theorem outs_proj (p : Fin cfg0.N) :
    (outsAt0 V c p.val p.isLt).1 = k0_pay2 (iblk0 V c 0 p) (iblk0 V c 1 p) (iblk0 V c 2 p) := by
  by_cases h0 : p.val % 4 = 0
  · have h1 : ¬p.val % 4 = 3 := by omega
    rw [outsAt0_A V c p h0 h1]; unfold tupA; dsimp only
    exact out0_A_3_eq c (grid0.coords p) (ms0_0 p) (hs0_0 p) (ms0_1 p) (hs0_1 p) (ms0_2 p) (hs0_2 p) (ms0_3 p) (hs0_3 p) (ms0_4 p) (hs0_4 p) scM0_0 (Memref.isWhole_whole _) ((hcond0_0 p).mpr h0) (fun h => h1 ((hcond0_1 p).mp h)) (iblk0 V c 0 p) (iblk0 V c 1 p) (iblk0 V c 2 p)
  · by_cases h1 : p.val % 4 = 3
    · rw [outsAt0_C V c p h0 h1]; unfold tupC; dsimp only
      exact out0_C_3_eq c (grid0.coords p) (ms0_0 p) (hs0_0 p) (ms0_1 p) (hs0_1 p) (ms0_2 p) (hs0_2 p) (ms0_3 p) (hs0_3 p) (ms0_4 p) (hs0_4 p) scM0_0 (Memref.isWhole_whole _) (fun h => h0 ((hcond0_0 p).mp h)) ((hcond0_1 p).mpr h1) (iblk0 V c 0 p) (iblk0 V c 1 p) (iblk0 V c 2 p) (outsAt0 V c (p.val - 1) (Nat.lt_of_le_of_lt (Nat.sub_le _ _) p.isLt)).2.2
    · rw [outsAt0_B V c p h0 h1]; unfold tupB; dsimp only
      exact out0_B_3_eq c (grid0.coords p) (ms0_0 p) (hs0_0 p) (ms0_1 p) (hs0_1 p) (ms0_2 p) (hs0_2 p) (ms0_3 p) (hs0_3 p) (ms0_4 p) (hs0_4 p) scM0_0 (Memref.isWhole_whole _) (fun h => h0 ((hcond0_0 p).mp h)) (fun h => h1 ((hcond0_1 p).mp h)) (iblk0 V c 0 p) (iblk0 V c 1 p) (iblk0 V c 2 p) (outsAt0 V c (p.val - 1) (Nat.lt_of_le_of_lt (Nat.sub_le _ _) p.isLt)).2.2

/-- The accumulator after a reset point: zero plus the projection. -/
theorem outs_acc_reset (p : Fin cfg0.N) (h0 : p.val % 4 = 0) :
    (outsAt0 V c p.val p.isLt).2.2 = k0_pay4 (iblk0 V c 0 p) (iblk0 V c 1 p) (iblk0 V c 2 p) (k0_pay3 (F := F)) := by
  have h1 : ¬p.val % 4 = 3 := by omega
  rw [outsAt0_A V c p h0 h1]; unfold tupA; dsimp only
  exact sout0_A_0_eq c (grid0.coords p) (ms0_0 p) (hs0_0 p) (ms0_1 p) (hs0_1 p) (ms0_2 p) (hs0_2 p) (ms0_3 p) (hs0_3 p) (ms0_4 p) (hs0_4 p) scM0_0 (Memref.isWhole_whole _) ((hcond0_0 p).mpr h0) (fun h => h1 ((hcond0_1 p).mp h)) (iblk0 V c 0 p) (iblk0 V c 1 p) (iblk0 V c 2 p)

/-- The accumulator after any other point: what the point before left plus the projection. -/
theorem outs_acc_step (p : Fin cfg0.N) (h0 : ¬p.val % 4 = 0) :
    (outsAt0 V c p.val p.isLt).2.2 = k0_pay4 (iblk0 V c 0 p) (iblk0 V c 1 p) (iblk0 V c 2 p)
      (outsAt0 V c (p.val - 1) (Nat.lt_of_le_of_lt (Nat.sub_le _ _) p.isLt)).2.2 := by
  by_cases h1 : p.val % 4 = 3
  · rw [outsAt0_C V c p h0 h1]; unfold tupC; dsimp only
    exact sout0_C_0_eq c (grid0.coords p) (ms0_0 p) (hs0_0 p) (ms0_1 p) (hs0_1 p) (ms0_2 p) (hs0_2 p) (ms0_3 p) (hs0_3 p) (ms0_4 p) (hs0_4 p) scM0_0 (Memref.isWhole_whole _) (fun h => h0 ((hcond0_0 p).mp h)) ((hcond0_1 p).mpr h1) (iblk0 V c 0 p) (iblk0 V c 1 p) (iblk0 V c 2 p) (outsAt0 V c (p.val - 1) (Nat.lt_of_le_of_lt (Nat.sub_le _ _) p.isLt)).2.2
  · rw [outsAt0_B V c p h0 h1]; unfold tupB; dsimp only
    exact sout0_B_0_eq c (grid0.coords p) (ms0_0 p) (hs0_0 p) (ms0_1 p) (hs0_1 p) (ms0_2 p) (hs0_2 p) (ms0_3 p) (hs0_3 p) (ms0_4 p) (hs0_4 p) scM0_0 (Memref.isWhole_whole _) (fun h => h0 ((hcond0_0 p).mp h)) (fun h => h1 ((hcond0_1 p).mp h)) (iblk0 V c 0 p) (iblk0 V c 1 p) (iblk0 V c 2 p) (outsAt0 V c (p.val - 1) (Nat.lt_of_le_of_lt (Nat.sub_le _ _) p.isLt)).2.2

/-- The mean's block at a point that writes it: the previous accumulator plus the projection, times the constant. -/
theorem outs_mean (p : Fin cfg0.N) (h1 : p.val % 4 = 3) :
    (outsAt0 V c p.val p.isLt).2.1 = k0_pay5 (k0_pay4 (iblk0 V c 0 p) (iblk0 V c 1 p) (iblk0 V c 2 p) (outsAt0 V c (p.val - 1) (Nat.lt_of_le_of_lt (Nat.sub_le _ _) p.isLt)).2.2) := by
  have h0 : ¬p.val % 4 = 0 := by omega
  rw [outsAt0_C V c p h0 h1]; unfold tupC; dsimp only
  exact out0_C_4_eq c (grid0.coords p) (ms0_0 p) (hs0_0 p) (ms0_1 p) (hs0_1 p) (ms0_2 p) (hs0_2 p) (ms0_3 p) (hs0_3 p) (ms0_4 p) (hs0_4 p) scM0_0 (Memref.isWhole_whole _) (fun h => h0 ((hcond0_0 p).mp h)) ((hcond0_1 p).mpr h1) (iblk0 V c 0 p) (iblk0 V c 1 p) (iblk0 V c 2 p) (outsAt0 V c (p.val - 1) (Nat.lt_of_le_of_lt (Nat.sub_le _ _) p.isLt)).2.2
end Points

end Cert.KernelIdeal.R0

end
-- ==== Proof.IdealValue0b.lean ====
/-
  The first kernel's two result arrays after its region, as whole-array functions of the arrays the region is
  entered with. The projection array [4, 8192, 128] holds at (t, R, o) the inner product of row (t, R) of the input
  with column o of the weights, plus the bias at o: its block at grid point (i, t) is rows 4096 i … 4096 i + 4095 of
  slab t, and the eight blocks tile the array. The mean's array [8192, 128] holds at (R, o) the four projections of
  row R summed from zero in trial order, times the constant 1/4: its block i is written back once, after the fourth
  trial, by which time the accumulator has taken the four projections of the rows of block i.
-/
import proofs.«178774_j58600533786747_2_alg».proof.Proof.IdealValue0a

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b)) (c : Dev nD)

/-- The input [4, 8192, 128], the weights [128, 128] and the bias [128] as the region finds them. -/
abbrev Xin : S4x8192x128.Idx → EReal := V c (Pipeline.arrRef spec0 0)
abbrev Win : S128x128.Idx → EReal := V c (Pipeline.arrRef spec0 1)
abbrev Bin : S128.Idx → EReal := V c (Pipeline.arrRef spec0 2)

/-- The projection at (t, R, o). -/
def proj (t : Fin 4) (R : Fin 8192) (o : Fin 128) : EReal :=
  (∑ k : Fin 128, Xin V c (ix3 t R k) * Win V c (ix2 k o)) + Bin V c (ix1 o)

/-- The projection array. -/
def G3 : S4x8192x128.Idx → EReal := fun j => proj V c ⟨(j 0).val, (j 0).isLt⟩ ⟨(j 1).val, (j 1).isLt⟩ ⟨(j 2).val, (j 2).isLt⟩

/-- The mean's array: the four projections summed from the zero word in trial order, times the constant. -/
def G4 : S8192x128.Idx → EReal := fun j =>
  ((((Ideal.ofBits .f32 0x00000000#32 + proj V c 0 ⟨(j 0).val, (j 0).isLt⟩ ⟨(j 1).val, (j 1).isLt⟩)
      + proj V c 1 ⟨(j 0).val, (j 0).isLt⟩ ⟨(j 1).val, (j 1).isLt⟩)
      + proj V c 2 ⟨(j 0).val, (j 0).isLt⟩ ⟨(j 1).val, (j 1).isLt⟩)
      + proj V c 3 ⟨(j 0).val, (j 0).isLt⟩ ⟨(j 1).val, (j 1).isLt⟩) * Ideal.ofBits .f32 0x3E800000#32

/-- The printed index maps over the eight grid points: point p = 4 i + t reads slab t, rows of block i. -/
theorem idx_facts0 : ∀ p : Fin cfg0.N,
    win0_0.index p (0 : Fin 3) = p.val % 4 ∧ win0_0.index p (1 : Fin 3) = p.val / 4 ∧ win0_0.index p (2 : Fin 3) = 0
    ∧ win0_1.index p (0 : Fin 2) = 0 ∧ win0_1.index p (1 : Fin 2) = 0 ∧ win0_2.index p (0 : Fin 1) = 0
    ∧ win0_3.index p (0 : Fin 3) = p.val % 4 ∧ win0_3.index p (1 : Fin 3) = p.val / 4 ∧ win0_3.index p (2 : Fin 3) = 0
    ∧ win0_4.index p (0 : Fin 2) = p.val / 4 ∧ win0_4.index p (1 : Fin 2) = 0 :=
  (by decide +kernel : ∀ p : Fin grid0.N, _)

/-- The projection of the input block at point p, at (r, o): the projection at (p mod 4, 4096 (p / 4) + r, o). -/
theorem yAt_apply (p : Fin cfg0.N) (r : Fin 4096) (o : Fin 128) :
    yAt V c p (ix2 r o) = proj V c ⟨p.val % 4, Nat.mod_lt _ (by decide)⟩ ⟨p.val / 4 * 4096 + r.val, by have := p.isLt; have : cfg0.N = 8 := N_0; have := r.isLt; omega⟩ o := by
  obtain ⟨e00, e01, e02, e10, e11, e20, -⟩ := idx_facts0 p
  refine (pay1_apply _ _ _ r o).trans ?_
  unfold proj
  refine congrArg₂ (· + ·) (Finset.sum_congr rfl fun k _ => congrArg₂ (· * ·) ?_ ?_) ?_
  · show Xin V c (((cfg0.win 0).blk p).view.emb (ix3 (0 : Fin 1) r k)) = _
    refine congrArg (Xin V c) (funext fun a => Fin.ext ?_)
    match a with
    | ⟨0, _⟩ => show win0_0.index p (0 : Fin 3) * 1 + 1 * 0 = p.val % 4; omega
    | ⟨1, _⟩ => show win0_0.index p (1 : Fin 3) * 4096 + 1 * r.val = p.val / 4 * 4096 + r.val; omega
    | ⟨2, _⟩ => show win0_0.index p (2 : Fin 3) * 128 + 1 * k.val = k.val; omega
  · show Win V c (((cfg0.win 1).blk p).view.emb (ix2 k o)) = _
    refine congrArg (Win V c) (funext fun a => Fin.ext ?_)
    match a with
    | ⟨0, _⟩ => show win0_1.index p (0 : Fin 2) * 128 + 1 * k.val = k.val; omega
    | ⟨1, _⟩ => show win0_1.index p (1 : Fin 2) * 128 + 1 * o.val = o.val; omega
  · show Bin V c (((cfg0.win 2).blk p).view.emb (ix1 o)) = _
    refine congrArg (Bin V c) (funext fun a => Fin.ext ?_)
    match a with
    | ⟨0, _⟩ => show win0_2.index p (0 : Fin 1) * 128 + 1 * o.val = o.val; omega

end Cert.KernelIdeal.R0

end
-- ==== Proof.IdealValue0c.lean ====
/-
  The blocks of the first kernel's two result arrays are restrictions of the whole-array functions: what a grid point
  writes back is the block of the projection array (of the mean's array, at the fourth trial of a row block), every
  index lies in the block of some writing point, so after the region the arrays are those functions.
-/
import proofs.«178774_j58600533786747_2_alg».proof.Proof.IdealValue0b

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b)) (c : Dev nD)

/-- What point p writes back of the projection is the block of the projection array. -/
theorem flushed3_eq (p : Fin cfg0.N) :
    (dat0 V c).flushed 3 p = ((cfg0.win 3).blk p).view.read (Elt Ideal) (G3 V c) := by
  show (cfg0.win 3).cut (grid0.coords p) ((dat0 V c).after 3 p) = _
  rw [after0_3, outs_proj]
  obtain ⟨-, -, -, -, -, -, e30, e31, e32, -⟩ := idx_facts0 p
  funext j
  obtain ⟨u, r, o, rfl⟩ : ∃ (u : Fin 1) (r : Fin 4096) (o : Fin 128), j = ix3 u r o := ⟨j 0, j 1, j 2, eq_ix3 j⟩
  refine (pay2_apply _ _ _ u r o).trans ((yAt_apply V c p r o).trans ?_)
  show _ = G3 V c (((cfg0.win 3).blk p).view.emb (ix3 u r o))
  unfold G3
  have hu : u.val = 0 := by omega
  refine congr (congr (congrArg (proj V c) (Fin.ext ?_)) (Fin.ext ?_)) (Fin.ext ?_)
  · show p.val % 4 = win0_3.index p (0 : Fin 3) * 1 + 1 * u.val; omega
  · show p.val / 4 * 4096 + r.val = win0_3.index p (1 : Fin 3) * 4096 + 1 * r.val; omega
  · show o.val = win0_3.index p (2 : Fin 3) * 128 + 1 * o.val; omega

theorem mem_blk3 (p : Fin cfg0.N) (i : S4x8192x128.Idx) :
    i ∈ ((cfg0.win 3).blk p).view.set ↔ ∀ a : Fin 3, win0_3.index p a * S1x4096x128.size a ≤ (i a).val ∧ (i a).val < win0_3.index p a * S1x4096x128.size a + S1x4096x128.size a := by
  show i ∈ ((View.whole main_v3_0).slice (win0_3.rect p)).set ↔ _
  rw [View.set_slice_whole, Rect.mem_set_unit]
  exact Iff.rfl

theorem idx_onto3 : ∀ (q0 : Fin 4) (q1 : Fin 2), ∃ p : Fin cfg0.N, win0_3.index p = ![q0.val, q1.val, 0] :=
  (by decide +kernel : ∀ (q0 : Fin 4) (q1 : Fin 2), ∃ p : Fin grid0.N, win0_3.index p = ![q0.val, q1.val, 0])

theorem cover3 (i : S4x8192x128.Idx) : ∃ p : Fin cfg0.N, (cfg0.win 3).flush p = true ∧ i ∈ ((cfg0.win 3).blk p).view.set := by
  have hi0 : (i 0).val < 4 := (i 0).isLt
  have hi1 : (i 1).val < 8192 := (i 1).isLt
  have hi2 : (i 2).val < 128 := (i 2).isLt
  obtain ⟨p, hp⟩ := idx_onto3 ⟨(i 0).val, hi0⟩ ⟨(i 1).val / 4096, by omega⟩
  have q0 : win0_3.index p (0 : Fin 3) = (i 0).val := congrFun hp 0
  have q1 : win0_3.index p (1 : Fin 3) = (i 1).val / 4096 := congrFun hp 1
  have q2 : win0_3.index p (2 : Fin 3) = 0 := congrFun hp 2
  refine ⟨p, flush0_3 p, ?_⟩
  rw [mem_blk3]
  intro a
  match a with
  | ⟨0, _⟩ => show win0_3.index p (0 : Fin 3) * 1 ≤ (i 0).val ∧ (i 0).val < win0_3.index p (0 : Fin 3) * 1 + 1; omega
  | ⟨1, _⟩ => show win0_3.index p (1 : Fin 3) * 4096 ≤ (i 1).val ∧ (i 1).val < win0_3.index p (1 : Fin 3) * 4096 + 4096; omega
  | ⟨2, _⟩ => show win0_3.index p (2 : Fin 3) * 128 ≤ (i 2).val ∧ (i 2).val < win0_3.index p (2 : Fin 3) * 128 + 128; omega

/-- The projection array after the region. -/
theorem final3 : (dat0 V c).arrAt 3 cfg0.N = G3 V c :=
  (dat0 V c).arrAt_eq_of_cover 3 (G3 V c) (fun p _ => flushed3_eq V c p) (cover3)

/-- The accumulator at an entry: zero plus the projection at a reset point, -/
theorem acc_reset_apply (p : Fin cfg0.N) (h0 : p.val % 4 = 0) (j : S4096x128.Idx) :
    (outsAt0 V c p.val p.isLt).2.2 j = Ideal.ofBits .f32 0x00000000#32 + yAt V c p j := by
  rw [outs_acc_reset V c p h0]
  exact (pay4_apply _ _ _ _ j).trans (congrArg (· + _) (pay3_apply j))

/-- what the point before left plus the projection otherwise. -/
theorem acc_step_apply (p : Fin cfg0.N) (h0 : ¬p.val % 4 = 0) (j : S4096x128.Idx) :
    (outsAt0 V c p.val p.isLt).2.2 j
      = (outsAt0 V c (p.val - 1) (Nat.lt_of_le_of_lt (Nat.sub_le _ _) p.isLt)).2.2 j + yAt V c p j := by
  rw [outs_acc_step V c p h0]
  exact pay4_apply _ _ _ _ j

/-- The accumulator after the fourth trial of a row block: the four projections summed from zero in trial order. -/
theorem acc_full_apply (n : ℕ) (hn : n + 3 < cfg0.N) (h0 : n % 4 = 0) (j : S4096x128.Idx) :
    (outsAt0 V c (n + 3) hn).2.2 j
      = (((Ideal.ofBits .f32 0x00000000#32 + yAt V c ⟨n, by omega⟩ j) + yAt V c ⟨n + 1, by omega⟩ j) + yAt V c ⟨n + 2, by omega⟩ j) + yAt V c ⟨n + 3, hn⟩ j := by
  have s3 : (outsAt0 V c (n + 3) hn).2.2 j = (outsAt0 V c (n + 2) (by omega)).2.2 j + yAt V c ⟨n + 3, hn⟩ j :=
    acc_step_apply V c ⟨n + 3, hn⟩ (by show ¬(n + 3) % 4 = 0; omega) j
  have s2 : (outsAt0 V c (n + 2) (by omega)).2.2 j = (outsAt0 V c (n + 1) (by omega)).2.2 j + yAt V c ⟨n + 2, by omega⟩ j :=
    acc_step_apply V c ⟨n + 2, by omega⟩ (by show ¬(n + 2) % 4 = 0; omega) j
  have s1 : (outsAt0 V c (n + 1) (by omega)).2.2 j = (outsAt0 V c n (by omega)).2.2 j + yAt V c ⟨n + 1, by omega⟩ j :=
    acc_step_apply V c ⟨n + 1, by omega⟩ (by show ¬(n + 1) % 4 = 0; omega) j
  have s0 : (outsAt0 V c n (by omega)).2.2 j = Ideal.ofBits .f32 0x00000000#32 + yAt V c ⟨n, by omega⟩ j :=
    acc_reset_apply V c ⟨n, by omega⟩ h0 j
  rw [s3, s2, s1, s0]

/-- What a point at the fourth trial writes back of the mean is the block of the mean's array. -/
theorem flushed4_eq (p : Fin cfg0.N) (hf : p.val % 4 = 3) :
    (dat0 V c).flushed 4 p = ((cfg0.win 4).blk p).view.read (Elt Ideal) (G4 V c) := by
  obtain ⟨pv, hp⟩ := p
  obtain ⟨n, rfl⟩ : ∃ n, pv = n + 3 := ⟨pv - 3, by have : pv % 4 = 3 := hf; omega⟩
  have h0 : n % 4 = 0 := by have : (n + 3) % 4 = 3 := hf; omega
  show (cfg0.win 4).cut (grid0.coords ⟨n + 3, hp⟩) ((dat0 V c).after 4 ⟨n + 3, hp⟩) = _
  rw [after0_4, outs_mean V c ⟨n + 3, hp⟩ hf]
  obtain ⟨-, -, -, -, -, -, -, -, -, e40, e41⟩ := idx_facts0 ⟨n + 3, hp⟩
  have e40' : win0_4.index ⟨n + 3, hp⟩ (0 : Fin 2) = (n + 3) / 4 := e40
  have hN : n + 3 < 8 := lt_of_lt_of_eq hp (show cfg0.N = 8 from N_0)
  funext j
  obtain ⟨r, o, rfl⟩ : ∃ (r : Fin 4096) (o : Fin 128), j = ix2 r o := ⟨j 0, j 1, eq_ix2 j⟩
  refine (pay5_apply _ (ix2 r o)).trans ?_
  show _ = G4 V c (((cfg0.win 4).blk ⟨n + 3, hp⟩).view.emb (ix2 r o))
  unfold G4
  refine congrArg (· * Ideal.ofBits .f32 0x3E800000#32) ?_
  refine (pay4_apply _ _ _ _ (ix2 r o)).trans ?_
  refine ((acc_step_apply V c ⟨n + 3, hp⟩ (by show ¬(n + 3) % 4 = 0; omega) (ix2 r o)).symm.trans ?_)
  refine (acc_full_apply V c n hp h0 (ix2 r o)).trans ?_
  rw [show yAt V c ⟨n, by omega⟩ (ix2 r o) = _ from yAt_apply V c ⟨n, by omega⟩ r o,
    show yAt V c ⟨n + 1, by omega⟩ (ix2 r o) = _ from yAt_apply V c ⟨n + 1, by omega⟩ r o,
    show yAt V c ⟨n + 2, by omega⟩ (ix2 r o) = _ from yAt_apply V c ⟨n + 2, by omega⟩ r o,
    show yAt V c ⟨n + 3, hp⟩ (ix2 r o) = _ from yAt_apply V c ⟨n + 3, hp⟩ r o]
  refine congrArg₂ (· + ·) (congrArg₂ (· + ·) (congrArg₂ (· + ·) (congrArg (Ideal.ofBits .f32 0x00000000#32 + ·) ?_) ?_) ?_) ?_
  all_goals refine congr (congr (congrArg (proj V c) (Fin.ext ?_)) (Fin.ext ?_)) (Fin.ext ?_)
  · show n % 4 = 0; omega
  · show n / 4 * 4096 + r.val = win0_4.index ⟨n + 3, hp⟩ (0 : Fin 2) * 4096 + 1 * r.val; omega
  · show o.val = win0_4.index ⟨n + 3, hp⟩ (1 : Fin 2) * 128 + 1 * o.val; omega
  · show (n + 1) % 4 = 1; omega
  · show (n + 1) / 4 * 4096 + r.val = win0_4.index ⟨n + 3, hp⟩ (0 : Fin 2) * 4096 + 1 * r.val; omega
  · show o.val = win0_4.index ⟨n + 3, hp⟩ (1 : Fin 2) * 128 + 1 * o.val; omega
  · show (n + 2) % 4 = 2; omega
  · show (n + 2) / 4 * 4096 + r.val = win0_4.index ⟨n + 3, hp⟩ (0 : Fin 2) * 4096 + 1 * r.val; omega
  · show o.val = win0_4.index ⟨n + 3, hp⟩ (1 : Fin 2) * 128 + 1 * o.val; omega
  · show (n + 3) % 4 = 3; omega
  · show (n + 3) / 4 * 4096 + r.val = win0_4.index ⟨n + 3, hp⟩ (0 : Fin 2) * 4096 + 1 * r.val; omega
  · show o.val = win0_4.index ⟨n + 3, hp⟩ (1 : Fin 2) * 128 + 1 * o.val; omega

theorem mem_blk4 (p : Fin cfg0.N) (i : S8192x128.Idx) :
    i ∈ ((cfg0.win 4).blk p).view.set ↔ ∀ a : Fin 2, win0_4.index p a * S4096x128.size a ≤ (i a).val ∧ (i a).val < win0_4.index p a * S4096x128.size a + S4096x128.size a := by
  show i ∈ ((View.whole main_v3_1).slice (win0_4.rect p)).set ↔ _
  rw [View.set_slice_whole, Rect.mem_set_unit]
  exact Iff.rfl

theorem idx_onto4 : ∀ (q0 : Fin 2), ∃ p : Fin cfg0.N, p.val % 4 = 3 ∧ win0_4.index p = ![q0.val, 0] :=
  (by decide +kernel : ∀ (q0 : Fin 2), ∃ p : Fin grid0.N, p.val % 4 = 3 ∧ win0_4.index p = ![q0.val, 0])

theorem cover4 (i : S8192x128.Idx) : ∃ p : Fin cfg0.N, (cfg0.win 4).flush p = true ∧ i ∈ ((cfg0.win 4).blk p).view.set := by
  have hi0 : (i 0).val < 8192 := (i 0).isLt
  have hi1 : (i 1).val < 128 := (i 1).isLt
  obtain ⟨p, hp3, hp⟩ := idx_onto4 ⟨(i 0).val / 4096, by omega⟩
  have q0 : win0_4.index p (0 : Fin 2) = (i 0).val / 4096 := congrFun hp 0
  have q1 : win0_4.index p (1 : Fin 2) = 0 := congrFun hp 1
  refine ⟨p, (flush0_4 p).mpr hp3, ?_⟩
  rw [mem_blk4]
  intro a
  match a with
  | ⟨0, _⟩ => show win0_4.index p (0 : Fin 2) * 4096 ≤ (i 0).val ∧ (i 0).val < win0_4.index p (0 : Fin 2) * 4096 + 4096; omega
  | ⟨1, _⟩ => show win0_4.index p (1 : Fin 2) * 128 ≤ (i 1).val ∧ (i 1).val < win0_4.index p (1 : Fin 2) * 128 + 128; omega

/-- The mean's array after the region. -/
theorem final4 : (dat0 V c).arrAt 4 cfg0.N = G4 V c :=
  (dat0 V c).arrAt_eq_of_cover 4 (G4 V c) (fun p hfl => flushed4_eq V c p ((flush0_4 p).mp hfl)) (cover4)

end Cert.KernelIdeal.R0

end
-- ==== Proof.IdealValue1.lean ====
/-
  The second kernel's result array after its region, as a whole-array function of the arrays the region is entered
  with. At (R, o) it holds the feature-layer map of the concatenated-linear map of row R: the inner product over d of
  mid(R, d) with column o of the feature weights, plus the feature bias at o, where mid(R, d) is the inner product of
  row R of the first operand with column d of the first weight block, plus that of the second operand with the second
  weight block, plus the linear bias at d. Block p of the array is rows 4096 p … 4096 p + 4095, and the 72 blocks tile it.
-/
import proofs.«178774_j58600533786747_2_alg».proof.Proof.IdealRegion1
import proofs.«178774_j58600533786747_2_alg».proof.Proof.LibMatmulNN
import Idealize.ShloMosaic.Lib.ValueLayout
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl
theorem hz1 : (![0] : Fin 1 → Nat) = fun _ => 0 := funext fun a => by fin_cases a <;> rfl

/-- The body's arithmetic at (r, o). -/
theorem pay_apply (v0 : Vec Ideal S4096x128 .f32) (v3 : Vec Ideal S4096x128 .bf16) (v5 v7 : Vec Ideal S128x128 .bf16)
    (v12 : Vec Ideal S128 .f32) (v17 : Vec Ideal S128x128 .bf16) (v20 : Vec Ideal S128 .f32) (r : Fin 4096) (o : Fin 128) :
    k1_pay1 v0 v3 v5 v7 v12 v17 v20 (ix2 r o)
      = (∑ d : Fin 128, (((∑ k : Fin 128, v0 (ix2 r k) * v5 (ix2 k d)) + (∑ k : Fin 128, v3 (ix2 r k) * v7 (ix2 k d))) + v12 (ix1 d)) * v17 (ix2 d o))
        + v20 (ix1 o) := by
  unfold k1_pay1
  show matmul dot_S4096x128_S128x128_S4096x128_1_0_0_1_n_n none
        (truncf .bf16 (addf (addf
          (matmul dot_S4096x128_S128x128_S4096x128_1_0_0_1_n_n none (truncf .bf16 (shapeCast S4096x128 v0 shapeCasts_S4096x128_S4096x128) bitsLt_bf16_f32) (shapeCast S128x128 v5 shapeCasts_S128x128_S128x128) (constant (F := Ideal) S4096x128 .f32 0x00000000#32))
          (matmul dot_S4096x128_S128x128_S4096x128_1_0_0_1_n_n none (shapeCast S4096x128 v3 shapeCasts_S4096x128_S4096x128) (shapeCast S128x128 v7 shapeCasts_S128x128_S128x128) (constant (F := Ideal) S4096x128 .f32 0x00000000#32)))
          (broadcastTo S4096x128 (shapeCast S1x128 v12 shapeCasts_S128_S1x128) broadcasts_S1x128_S4096x128)) bitsLt_bf16_f32)
        (shapeCast S128x128 v17 shapeCasts_S128x128_S128x128) (constant (F := Ideal) S4096x128 .f32 0x00000000#32) (ix2 r o)
      + broadcastTo S4096x128 (shapeCast S1x128 v20 shapeCasts_S128_S1x128) broadcasts_S1x128_S4096x128 (ix2 r o) = _
  refine congrArg₂ (· + ·) ?_ ?_
  · refine (Cert.MatmulNN.matmul_zero_apply _ rfl none _ _ r o).trans ?_
    refine Finset.sum_congr rfl fun d _ => congrArg₂ (· * ·) ?_ (congrFun (shapeCast_self v17 _) (ix2 d o))
    show (matmul dot_S4096x128_S128x128_S4096x128_1_0_0_1_n_n none (truncf .bf16 (shapeCast S4096x128 v0 shapeCasts_S4096x128_S4096x128) bitsLt_bf16_f32) (shapeCast S128x128 v5 shapeCasts_S128x128_S128x128) (constant (F := Ideal) S4096x128 .f32 0x00000000#32) (ix2 r d)
        + matmul dot_S4096x128_S128x128_S4096x128_1_0_0_1_n_n none (shapeCast S4096x128 v3 shapeCasts_S4096x128_S4096x128) (shapeCast S128x128 v7 shapeCasts_S128x128_S128x128) (constant (F := Ideal) S4096x128 .f32 0x00000000#32) (ix2 r d))
        + broadcastTo S4096x128 (shapeCast S1x128 v12 shapeCasts_S128_S1x128) broadcasts_S1x128_S4096x128 (ix2 r d) = _
    refine congrArg₂ (· + ·) (congrArg₂ (· + ·) ?_ ?_) ?_
    · refine (Cert.MatmulNN.matmul_zero_apply _ rfl none _ _ r d).trans ?_
      exact Finset.sum_congr rfl fun k _ => congrArg₂ (· * ·) (congrFun (shapeCast_self v0 _) (ix2 r k)) (congrFun (shapeCast_self v5 _) (ix2 k d))
    · refine (Cert.MatmulNN.matmul_zero_apply _ rfl none _ _ r d).trans ?_
      exact Finset.sum_congr rfl fun k _ => congrArg₂ (· * ·) (congrFun (shapeCast_self v3 _) (ix2 r k)) (congrFun (shapeCast_self v7 _) (ix2 k d))
    · exact (broadcastTo_1b_ab_apply _ _ r d).trans (shapeCast_a_1a_apply v12 _ 0 d)
  · exact (broadcastTo_1b_ab_apply _ _ r o).trans (shapeCast_a_1a_apply v20 _ 0 o)

variable (V : (c : Dev nD) → (b : Ref sig .tc) → Buf (Elt Ideal) ((c : Thread nD τ).loc b)) (c : Dev nD)

abbrev F1 : S294912x128.Idx → EReal := V c (Pipeline.arrRef spec1 0)
abbrev F2 : S294912x128.Idx → EReal := V c (Pipeline.arrRef spec1 1)
abbrev W1 : S128x128.Idx → EReal := V c (Pipeline.arrRef spec1 2)
abbrev W2 : S128x128.Idx → EReal := V c (Pipeline.arrRef spec1 3)
abbrev BL : S128.Idx → EReal := V c (Pipeline.arrRef spec1 4)
abbrev WF : S128x128.Idx → EReal := V c (Pipeline.arrRef spec1 5)
abbrev BF : S128.Idx → EReal := V c (Pipeline.arrRef spec1 6)

/-- The result at (R, o). -/
def feat (R : Fin 294912) (o : Fin 128) : EReal :=
  (∑ d : Fin 128, (((∑ k : Fin 128, F1 V c (ix2 R k) * W1 V c (ix2 k d)) + (∑ k : Fin 128, F2 V c (ix2 R k) * W2 V c (ix2 k d))) + BL V c (ix1 d)) * WF V c (ix2 d o))
    + BF V c (ix1 o)

/-- The result array. -/
def G7 : S294912x128.Idx → EReal := fun j => feat V c ⟨(j 0).val, (j 0).isLt⟩ ⟨(j 1).val, (j 1).isLt⟩

theorem idx_facts1 : ∀ p : Fin cfg1.N,
    win1_0.index p (0 : Fin 2) = p.val ∧ win1_0.index p (1 : Fin 2) = 0 ∧ win1_1.index p (0 : Fin 2) = p.val ∧ win1_1.index p (1 : Fin 2) = 0
    ∧ win1_2.index p (0 : Fin 2) = 0 ∧ win1_2.index p (1 : Fin 2) = 0 ∧ win1_3.index p (0 : Fin 2) = 0 ∧ win1_3.index p (1 : Fin 2) = 0
    ∧ win1_4.index p (0 : Fin 1) = 0 ∧ win1_5.index p (0 : Fin 2) = 0 ∧ win1_5.index p (1 : Fin 2) = 0 ∧ win1_6.index p (0 : Fin 1) = 0
    ∧ win1_7.index p (0 : Fin 2) = p.val ∧ win1_7.index p (1 : Fin 2) = 0 :=
  (by decide +kernel : ∀ p : Fin grid1.N, _)

/-- What point p writes back is the block of the result array. -/
theorem flushed7_eq (p : Fin cfg1.N) :
    (dat1 V c).flushed 7 p = ((cfg1.win 7).blk p).view.read (Elt Ideal) (G7 V c) := by
  show (cfg1.win 7).cut (grid1.coords p) ((dat1 V c).after 7 p) = _
  rw [after1_7]
  unfold out1_7
  rw [View.canon_unit_zero hz2]
  simp only [View.ld_unit_zero (S := S4096x128) hz2, View.ld_unit_zero (S := S128x128) hz2, View.ld_unit_zero (S := S128) hz1]
  obtain ⟨e00, e01, e10, e11, e20, e21, e30, e31, e40, e50, e51, e60, e70, e71⟩ := idx_facts1 p
  have hN : p.val < 72 := lt_of_lt_of_eq p.isLt (show cfg1.N = 72 from N_1)
  funext j
  obtain ⟨r, o, rfl⟩ : ∃ (r : Fin 4096) (o : Fin 128), j = ix2 r o := ⟨j 0, j 1, eq_ix2 j⟩
  refine (pay_apply _ _ _ _ _ _ _ r o).trans ?_
  show _ = G7 V c (((cfg1.win 7).blk p).view.emb (ix2 r o))
  unfold G7 feat
  have hR : ∀ k : Fin 128, (fun a : Fin 2 => (((cfg1.win 7).blk p).view.emb (ix2 r o)) a) = (((cfg1.win 7).blk p).view.emb (ix2 r o)) := fun _ => rfl
  refine congrArg₂ (· + ·) (Finset.sum_congr rfl fun d _ => congrArg₂ (· * ·) (congrArg₂ (· + ·) (congrArg₂ (· + ·)
      (Finset.sum_congr rfl fun k _ => congrArg₂ (· * ·) ?_ ?_) (Finset.sum_congr rfl fun k _ => congrArg₂ (· * ·) ?_ ?_)) ?_) ?_) ?_
  · show F1 V c (((cfg1.win 0).blk p).view.emb (ix2 r k)) = _
    refine congrArg (F1 V c) (funext fun a => Fin.ext ?_)
    match a with
    | ⟨0, _⟩ => show win1_0.index p (0 : Fin 2) * 4096 + 1 * r.val = win1_7.index p (0 : Fin 2) * 4096 + 1 * r.val; omega
    | ⟨1, _⟩ => show win1_0.index p (1 : Fin 2) * 128 + 1 * k.val = k.val; omega
  · show W1 V c (((cfg1.win 2).blk p).view.emb (ix2 k d)) = _
    refine congrArg (W1 V c) (funext fun a => Fin.ext ?_)
    match a with
    | ⟨0, _⟩ => show win1_2.index p (0 : Fin 2) * 128 + 1 * k.val = k.val; omega
    | ⟨1, _⟩ => show win1_2.index p (1 : Fin 2) * 128 + 1 * d.val = d.val; omega
  · show F2 V c (((cfg1.win 1).blk p).view.emb (ix2 r k)) = _
    refine congrArg (F2 V c) (funext fun a => Fin.ext ?_)
    match a with
    | ⟨0, _⟩ => show win1_1.index p (0 : Fin 2) * 4096 + 1 * r.val = win1_7.index p (0 : Fin 2) * 4096 + 1 * r.val; omega
    | ⟨1, _⟩ => show win1_1.index p (1 : Fin 2) * 128 + 1 * k.val = k.val; omega
  · show W2 V c (((cfg1.win 3).blk p).view.emb (ix2 k d)) = _
    refine congrArg (W2 V c) (funext fun a => Fin.ext ?_)
    match a with
    | ⟨0, _⟩ => show win1_3.index p (0 : Fin 2) * 128 + 1 * k.val = k.val; omega
    | ⟨1, _⟩ => show win1_3.index p (1 : Fin 2) * 128 + 1 * d.val = d.val; omega
  · show BL V c (((cfg1.win 4).blk p).view.emb (ix1 d)) = _
    refine congrArg (BL V c) (funext fun a => Fin.ext ?_)
    match a with
    | ⟨0, _⟩ => show win1_4.index p (0 : Fin 1) * 128 + 1 * d.val = d.val; omega
  · show WF V c (((cfg1.win 5).blk p).view.emb (ix2 d o)) = _
    refine congrArg (WF V c) (funext fun a => Fin.ext ?_)
    match a with
    | ⟨0, _⟩ => show win1_5.index p (0 : Fin 2) * 128 + 1 * d.val = d.val; omega
    | ⟨1, _⟩ => show win1_5.index p (1 : Fin 2) * 128 + 1 * o.val = win1_7.index p (1 : Fin 2) * 128 + 1 * o.val; omega
  · show BF V c (((cfg1.win 6).blk p).view.emb (ix1 o)) = _
    refine congrArg (BF V c) (funext fun a => Fin.ext ?_)
    match a with
    | ⟨0, _⟩ => show win1_6.index p (0 : Fin 1) * 128 + 1 * o.val = win1_7.index p (1 : Fin 2) * 128 + 1 * o.val; omega

theorem mem_blk7 (p : Fin cfg1.N) (i : S294912x128.Idx) :
    i ∈ ((cfg1.win 7).blk p).view.set ↔ ∀ a : Fin 2, win1_7.index p a * S4096x128.size a ≤ (i a).val ∧ (i a).val < win1_7.index p a * S4096x128.size a + S4096x128.size a := by
  show i ∈ ((View.whole main_v41).slice (win1_7.rect p)).set ↔ _
  rw [View.set_slice_whole, Rect.mem_set_unit]
  exact Iff.rfl

theorem idx_onto7 : ∀ (q0 : Fin 72), ∃ p : Fin cfg1.N, win1_7.index p = ![q0.val, 0] :=
  (by decide +kernel : ∀ (q0 : Fin 72), ∃ p : Fin grid1.N, win1_7.index p = ![q0.val, 0])

theorem cover7 (i : S294912x128.Idx) : ∃ p : Fin cfg1.N, (cfg1.win 7).flush p = true ∧ i ∈ ((cfg1.win 7).blk p).view.set := by
  have hi0 : (i 0).val < 294912 := (i 0).isLt
  have hi1 : (i 1).val < 128 := (i 1).isLt
  obtain ⟨p, hp⟩ := idx_onto7 ⟨(i 0).val / 4096, by omega⟩
  have q0 : win1_7.index p (0 : Fin 2) = (i 0).val / 4096 := congrFun hp 0
  have q1 : win1_7.index p (1 : Fin 2) = 0 := congrFun hp 1
  refine ⟨p, flush1_7 p, ?_⟩
  rw [mem_blk7]
  intro a
  match a with
  | ⟨0, _⟩ => show win1_7.index p (0 : Fin 2) * 4096 ≤ (i 0).val ∧ (i 0).val < win1_7.index p (0 : Fin 2) * 4096 + 4096; omega
  | ⟨1, _⟩ => show win1_7.index p (1 : Fin 2) * 128 ≤ (i 1).val ∧ (i 1).val < win1_7.index p (1 : Fin 2) * 128 + 128; omega

/-- The result array after the region. -/
theorem final7 : (dat1 V c).arrAt 7 cfg1.N = G7 V c :=
  (dat1 V c).arrAt_eq_of_cover 7 (G7 V c) (fun p _ => flushed7_eq V c p) (cover7)

end Cert.KernelIdeal.R1

end
-- ==== Proof.KHost0.lean ====
/-
  The first stretch of host operations of the kernel's program, read index by index: the input x with its edge and
  batch axes merged into one row axis (row 2e+b is edge e, batch b), and the first projection's weight transposed.
  Both are stated for arbitrary contents W of the buffers before the stretch.
-/
import proofs.«178774_j58600533786747_2_alg».proof.Proof.Gen.KernelIdeal.Launch
import Idealize.ShloMosaic.Lib.StableHlo.Run
import Idealize.ShloMosaic.Lib.ValueIdx
import Idealize.ShloMosaic.Lib.Pipeline.Value

set_option maxRecDepth 16384

noncomputable section

namespace Cert.KHost

open Cert.KernelIdeal Cert.KernelIdeal.Gen
open Idealize.ShloMosaic Idealize.ShloMosaic.TcCoe
open Idealize.ShloMosaic.ValueIdx

variable (W : Valuation τ sig (Elt Ideal))

/-- The merged view of x: row `2e+b` of trial `t` is x at (t, e, b). -/
theorem v2_apply (t : Fin 4) (e : Fin 4096) (b : Fin 2) (r : Fin 8192) (hr : r.val = 2 * e.val + b.val) (d : Fin 128) :
    (StableHlo.after (hostOps0 (F := Ideal)) W (Proc.devRef .tc main_v2) : S4x8192x128.Idx → EReal) (ix3 t r d)
      = (W (Proc.devRef .tc main_arg0) : S4x4096x2x128.Idx → EReal) (ix4 t e b d) := by
  have e0 : (StableHlo.after (hostOps0 (F := Ideal)) W (Proc.devRef .tc main_v2) : S4x8192x128.Idx → EReal)
      = shapeCast S4x8192x128 (W (Proc.devRef .tc main_arg0) : S4x4096x2x128.Idx → EReal) shapeCasts_S4x4096x2x128_S4x8192x128 := by
    after_results; first | done | rfl
  rw [e0]
  refine shapeCast_apply _ _ _ (ix4 t e b d) ?_
  rw [Shape.rowMajor_val_four, Shape.rowMajor_val_three]
  show ((t.val * 4096 + e.val) * 2 + b.val) * 128 + d.val = (t.val * 8192 + r.val) * 128 + d.val
  omega

/-- The first projection's weight, transposed: entry (d, o) is W_g at (o, d). -/
theorem v1_apply (d o : Fin 128) :
    (StableHlo.after (hostOps0 (F := Ideal)) W (Proc.devRef .tc main_v1) : S128x128.Idx → EReal) (ix2 d o)
      = (W (Proc.devRef .tc main_arg6) : S128x128.Idx → EReal) (ix2 o d) := by
  have e0 : (StableHlo.after (hostOps0 (F := Ideal)) W (Proc.devRef .tc main_v1) : S128x128.Idx → EReal)
      = truncf (F := Ideal) .bf16 (transpose S128x128 [1, 0] (W (Proc.devRef .tc main_arg6) : FVec Ideal S128x128 .f32) transposes_S128x128_S128x128_1_0) bitsLt_bf16_f32 := by
    after_results; first | done | rfl
  rw [e0, truncf_apply]
  refine transpose_apply _ _ _ _ (ix2 o d) ?_
  intro b; match b with | ⟨0, _⟩ => rfl | ⟨1, _⟩ => rfl

end Cert.KHost
-- ==== Proof.KHost1.lean ====
/-
  The second stretch of host operations of the kernel's program (between the two kernels), read index by index, for
  arbitrary contents W of the buffers before the stretch: the node-pair features with their three leading axes merged
  into one row axis (row (n·384+m)·2+b is node pair (n, m), batch b), the three weight blocks transposed (the two
  halves of the linear layer's weight along its input axis, and the output layer's weight), and the first kernel's
  projection with its row axis split back into edge and batch.
-/
import proofs.«178774_j58600533786747_2_alg».proof.Proof.Gen.KernelIdeal.Launch
import Idealize.ShloMosaic.Lib.StableHlo.Run
import Idealize.ShloMosaic.Lib.ValueIdx
import Idealize.ShloMosaic.Lib.Pipeline.Value

set_option maxRecDepth 16384

noncomputable section

namespace Cert.KHost

open Cert.KernelIdeal Cert.KernelIdeal.Gen
open Idealize.ShloMosaic Idealize.ShloMosaic.TcCoe
open Idealize.ShloMosaic.ValueIdx

variable (W : Valuation τ sig (Elt Ideal))

/-- The merged view of the node-pair features: row `(n·384+m)·2+b` is the feature vector of pair (n, m), batch b. -/
theorem v39_apply (n mm : Fin 384) (b : Fin 2) (r : Fin 294912) (hr : r.val = (n.val * 384 + mm.val) * 2 + b.val) (c : Fin 128) :
    (StableHlo.after (hostOps1 (F := Ideal)) W (Proc.devRef .tc main_v39) : FVec Ideal S294912x128 .f32) (ix2 r c)
      = (W (Proc.devRef .tc main_arg1) : FVec Ideal S384x384x2x128 .f32) (ix4 n mm b c) := by
  have e0 : (StableHlo.after (hostOps1 (F := Ideal)) W (Proc.devRef .tc main_v39) : FVec Ideal S294912x128 .f32)
      = shapeCast S294912x128 (W (Proc.devRef .tc main_arg1) : FVec Ideal S384x384x2x128 .f32) shapeCasts_S384x384x2x128_S294912x128 := by
    after_results; first | done | rfl
  rw [e0]
  refine shapeCast_apply _ _ _ (ix4 n mm b c) ?_
  rw [Shape.rowMajor_val_four, Shape.rowMajor_val_two]
  show ((n.val * 384 + mm.val) * 2 + b.val) * 128 + c.val = r.val * 128 + c.val
  omega

/-- The first kernel's projection, its row axis split back: (t, e, b) is row `2e+b` of trial `t`. -/
theorem v4_apply (t : Fin 4) (e : Fin 4096) (b : Fin 2) (r : Fin 8192) (hr : r.val = 2 * e.val + b.val) (o : Fin 128) :
    (StableHlo.after (hostOps1 (F := Ideal)) W (Proc.devRef .tc main_v4) : FVec Ideal S4x4096x2x128 .f32) (ix4 t e b o)
      = (W (Proc.devRef .tc main_v3_0) : FVec Ideal S4x8192x128 .f32) (ix3 t r o) := by
  have e0 : (StableHlo.after (hostOps1 (F := Ideal)) W (Proc.devRef .tc main_v4) : FVec Ideal S4x4096x2x128 .f32)
      = shapeCast S4x4096x2x128 (W (Proc.devRef .tc main_v3_0) : FVec Ideal S4x8192x128 .f32) shapeCasts_S4x8192x128_S4x4096x2x128 := by
    after_results; first | done | rfl
  rw [e0]
  refine shapeCast_apply _ _ _ (ix3 t r o) ?_
  rw [Shape.rowMajor_val_four, Shape.rowMajor_val_three]
  show (t.val * 8192 + r.val) * 128 + o.val = ((t.val * 4096 + e.val) * 2 + b.val) * 128 + o.val
  omega

/-- The first half (input columns 0…127) of the linear layer's weight, transposed: entry (c, d) is W_lin at (d, c). -/
theorem v33_apply (c d : Fin 128) (c' : Fin 256) (hc : c'.val = c.val) :
    (StableHlo.after (hostOps1 (F := Ideal)) W (Proc.devRef .tc main_v33) : FVec Ideal S128x128 .bf16) (ix2 c d)
      = (W (Proc.devRef .tc main_arg8) : FVec Ideal S128x256 .f32) (ix2 d c') := by
  have e0 : (StableHlo.after (hostOps1 (F := Ideal)) W (Proc.devRef .tc main_v33) : FVec Ideal S128x128 .bf16)
      = truncf (F := Ideal) .bf16 (transpose S128x128 [1, 0] (extractStridedSlice S128x128 ![0, 0]
          (W (Proc.devRef .tc main_arg8) : FVec Ideal S128x256 .f32) slices_S128x256_S128x128_0_0) transposes_S128x128_S128x128_1_0) bitsLt_bf16_f32 := by
    after_results; first | done | rfl
  rw [e0, truncf_apply]
  refine (transpose_apply _ _ _ _ (ix2 d c) ?_).trans (extractStridedSlice_apply _ _ _ _ (ix2 d c') ?_)
  · intro b; match b with | ⟨0, _⟩ => rfl | ⟨1, _⟩ => rfl
  · intro a; match a with
    | ⟨0, _⟩ => show d.val = 0 + d.val; omega
    | ⟨1, _⟩ => show c'.val = 0 + c.val; omega

/-- The second half (input columns 128…255) of the linear layer's weight, transposed: entry (c, d) is W_lin at (d, 128+c). -/
theorem v36_apply (c d : Fin 128) (c' : Fin 256) (hc : c'.val = 128 + c.val) :
    (StableHlo.after (hostOps1 (F := Ideal)) W (Proc.devRef .tc main_v36) : FVec Ideal S128x128 .bf16) (ix2 c d)
      = (W (Proc.devRef .tc main_arg8) : FVec Ideal S128x256 .f32) (ix2 d c') := by
  have e0 : (StableHlo.after (hostOps1 (F := Ideal)) W (Proc.devRef .tc main_v36) : FVec Ideal S128x128 .bf16)
      = truncf (F := Ideal) .bf16 (transpose S128x128 [1, 0] (extractStridedSlice S128x128 ![0, 128]
          (W (Proc.devRef .tc main_arg8) : FVec Ideal S128x256 .f32) slices_S128x256_S128x128_0_128) transposes_S128x128_S128x128_1_0) bitsLt_bf16_f32 := by
    after_results; first | done | rfl
  rw [e0, truncf_apply]
  refine (transpose_apply _ _ _ _ (ix2 d c) ?_).trans (extractStridedSlice_apply _ _ _ _ (ix2 d c') ?_)
  · intro b; match b with | ⟨0, _⟩ => rfl | ⟨1, _⟩ => rfl
  · intro a; match a with
    | ⟨0, _⟩ => show d.val = 0 + d.val; omega
    | ⟨1, _⟩ => show c'.val = 128 + c.val; omega

/-- The output layer's weight, transposed: entry (d, o) is W_f at (o, d). -/
theorem v38_apply (d o : Fin 128) :
    (StableHlo.after (hostOps1 (F := Ideal)) W (Proc.devRef .tc main_v38) : FVec Ideal S128x128 .bf16) (ix2 d o)
      = (W (Proc.devRef .tc main_arg10) : FVec Ideal S128x128 .f32) (ix2 o d) := by
  have e0 : (StableHlo.after (hostOps1 (F := Ideal)) W (Proc.devRef .tc main_v38) : FVec Ideal S128x128 .bf16)
      = truncf (F := Ideal) .bf16 (transpose S128x128 [1, 0] (W (Proc.devRef .tc main_arg10) : FVec Ideal S128x128 .f32) transposes_S128x128_S128x128_1_0) bitsLt_bf16_f32 := by
    after_results; first | done | rfl
  rw [e0, truncf_apply]
  refine transpose_apply _ _ _ _ (ix2 o d) ?_
  intro b; match b with | ⟨0, _⟩ => rfl | ⟨1, _⟩ => rfl

end Cert.KHost
-- ==== Proof.KHost1Grid.lean ====
/-
  The scattered grid the second kernel reads, as the second stretch of host operations leaves it, for arbitrary contents
  W of the buffers before the stretch: a grid filled with the pad scalar, into which the first kernel's mean block of
  edge e is written at the node pair of e (each node id less one, and a negative id wrapped by 384, as the program's
  integer operations compute it), with its three leading axes then merged into one row axis. The grid is left as the
  scatter of three named arrays — the pad grid, the index pairs and the updates —, each of them read at an index.
-/
import proofs.«178774_j58600533786747_2_alg».proof.Proof.Gen.KernelIdeal.Launch
import Idealize.ShloMosaic.Lib.StableHlo.Run
import Idealize.ShloMosaic.Lib.ValueIdx
import Idealize.ShloMosaic.Lib.Pipeline.Value

set_option maxRecDepth 16384

noncomputable section

namespace Cert.KHost

open Cert.KernelIdeal Cert.KernelIdeal.Gen
open Idealize.ShloMosaic Idealize.ShloMosaic.TcCoe
open Idealize.ShloMosaic.ValueIdx

variable (W : Valuation τ sig (Elt Ideal))

/-- The grid before the scatter: the pad scalar everywhere. -/
def PADK : FVec Ideal S384x384x2x128 .bf16 :=
  broadcastInDim S384x384x2x128 ![3] bcast_S1_S384x384x2x128_3
    (truncf (F := Ideal) .bf16 (W (Proc.devRef .tc main_arg5) : FVec Ideal S1 .f32) bitsLt_bf16_f32)

/-- The updates: the first kernel's mean, its row axis split into edge and batch. -/
def UPDK : FVec Ideal S4096x2x128 .bf16 :=
  truncf (F := Ideal) .bf16
    (shapeCast S4096x2x128 (W (Proc.devRef .tc main_v3_1) : FVec Ideal S8192x128 .f32) shapeCasts_S8192x128_S4096x2x128) bitsLt_bf16_f32

/-- Node ids of the first table, end 0 of each edge, less one. -/
def NODE0 : IVec S4096 32 :=
  subi (shapeCast S4096 (extractStridedSlice S1x4096x1 ![0, 0, 0] (W (Proc.devRef .tc main_arg2) : IVec S2x4096x2 32)
      slices_S2x4096x2_S1x4096x1_0_0_0) shapeCasts_S1x4096x1_S4096)
    (broadcastInDim S4096 ![] bcast_S_S4096 (constantI S_ 32 1#32))

/-- Node ids of the first table, end 1 of each edge, less one. -/
def NODE1 : IVec S4096 32 :=
  subi (shapeCast S4096 (extractStridedSlice S1x4096x1 ![0, 0, 1] (W (Proc.devRef .tc main_arg2) : IVec S2x4096x2 32)
      slices_S2x4096x2_S1x4096x1_0_0_1) shapeCasts_S1x4096x1_S4096)
    (broadcastInDim S4096 ![] bcast_S_S4096 (constantI S_ 32 1#32))

/-- A negative position wrapped by the grid's extent 384, elementwise. -/
def WRAP (v : IVec S4096 32) : IVec S4096 32 :=
  select (cmpi .slt v (broadcastInDim S4096 ![] bcast_S_S4096 (constantI S_ 32 0#32)))
    (addi v (broadcastInDim S4096 ![] bcast_S_S4096 (constantI S_ 32 384#32))) v

/-- The index pairs: for each edge the two wrapped positions, side by side. -/
def IDXK : IVec S4096x2 32 :=
  concatenate S4096x2 1
    [⟨S4096x1, broadcastInDim S4096x1 ![0] bcast_S4096_S4096x1_0 (WRAP (NODE0 W))⟩,
     ⟨S4096x1, broadcastInDim S4096x1 ![0] bcast_S4096_S4096x1_0 (WRAP (NODE1 W))⟩] concatenates_S4096x1_S4096x1_S4096x2_d1

/-- The scattered grid: the updates written into the pad grid at the index pairs. -/
def SCK : FVec Ideal S384x384x2x128 .bf16 :=
  Host.scatter scatter_S384x384x2x128_S4096x2_S4096x2x128_12_01_01_1 (fun _ b => b) (PADK W) (IDXK W) (UPDK W)

/-- What the stretch leaves in the second kernel's grid operand: the scattered grid, reshaped. -/
theorem v40_eq :
    (StableHlo.after (hostOps1 (F := Ideal)) W (Proc.devRef .tc main_v40) : FVec Ideal S294912x128 .bf16)
      = shapeCast S294912x128 (SCK W) shapeCasts_S384x384x2x128_S294912x128 := by
  unfold SCK PADK IDXK UPDK WRAP NODE0 NODE1
  after_results_simp
  first | done | rfl

/-- The merged view of the scattered grid: row `(n·384+m)·2+b` is the grid at (n, m), batch b. -/
theorem v40_apply (n mm : Fin 384) (b : Fin 2) (r : Fin 294912) (hr : r.val = (n.val * 384 + mm.val) * 2 + b.val) (c : Fin 128) :
    (StableHlo.after (hostOps1 (F := Ideal)) W (Proc.devRef .tc main_v40) : FVec Ideal S294912x128 .bf16) (ix2 r c)
      = SCK W (ix4 n mm b c) := by
  rw [v40_eq]
  refine shapeCast_apply _ _ _ (ix4 n mm b c) ?_
  rw [Shape.rowMajor_val_four, Shape.rowMajor_val_two]
  show ((n.val * 384 + mm.val) * 2 + b.val) * 128 + c.val = r.val * 128 + c.val
  omega

/-- The pad grid holds the pad scalar at every index. -/
theorem PADK_apply (n mm : Fin 384) (b : Fin 2) (c : Fin 128) :
    PADK W (ix4 n mm b c) = (W (Proc.devRef .tc main_arg5) : FVec Ideal S1 .f32) (ix1 0) := by
  unfold PADK
  refine (broadcastInDim_apply _ _ _ _ (ix1 0) ?_).trans ?_
  rotate_left
  · rw [truncf_apply]
  intro a; match a with | ⟨0, _⟩ => rfl

/-- The update of edge e, batch b is row `2e+b` of the first kernel's mean. -/
theorem UPDK_apply (e : Fin 4096) (b : Fin 2) (r : Fin 8192) (hr : r.val = 2 * e.val + b.val) (o : Fin 128) :
    UPDK W (ix3 e b o) = (W (Proc.devRef .tc main_v3_1) : FVec Ideal S8192x128 .f32) (ix2 r o) := by
  unfold UPDK
  rw [truncf_apply]
  refine shapeCast_apply _ _ _ (ix2 r o) ?_
  rw [Shape.rowMajor_val_two, Shape.rowMajor_val_three]
  show r.val * 128 + o.val = (e.val * 2 + b.val) * 128 + o.val
  omega

/-- One node id taken to its grid position, as the program's 32-bit integer operations compute it: the id less one,
    and 384 added when that is negative (signed). -/
def wrapNode (x : BitVec 32) : BitVec 32 :=
  Scalar.select (IntOp.cmpi .slt (IntOp.subi x 1#32) 0#32) (IntOp.addi (IntOp.subi x 1#32) 384#32) (IntOp.subi x 1#32)

theorem WRAP_apply (v : IVec S4096 32) (i : S4096.Idx) :
    WRAP v i = Scalar.select (IntOp.cmpi .slt (v i) 0#32) (IntOp.addi (v i) 384#32) (v i) := rfl

theorem NODE0_apply (e : Fin 4096) :
    NODE0 W (ix1 e) = IntOp.subi ((W (Proc.devRef .tc main_arg2) : IVec S2x4096x2 32) (ix3 0 e 0)) 1#32 := by
  have h : shapeCast S4096 (extractStridedSlice S1x4096x1 ![0, 0, 0] (W (Proc.devRef .tc main_arg2) : IVec S2x4096x2 32)
      slices_S2x4096x2_S1x4096x1_0_0_0) shapeCasts_S1x4096x1_S4096 (ix1 e)
      = (W (Proc.devRef .tc main_arg2) : IVec S2x4096x2 32) (ix3 0 e 0) := by
    refine (shapeCast_apply _ _ _ (ix3 (0 : Fin 1) e (0 : Fin 1)) ?_).trans (extractStridedSlice_apply _ _ _ _ (ix3 0 e 0) ?_)
    · rw [Shape.rowMajor_val_three, Shape.rowMajor_val_one]
      show (0 * 4096 + e.val) * 1 + 0 = e.val
      omega
    · intro a; match a with
      | ⟨0, _⟩ => rfl
      | ⟨1, _⟩ => show e.val = 0 + e.val; omega
      | ⟨2, _⟩ => rfl
  show IntOp.subi (shapeCast S4096 _ _ (ix1 e)) 1#32 = _
  rw [h]

theorem NODE1_apply (e : Fin 4096) :
    NODE1 W (ix1 e) = IntOp.subi ((W (Proc.devRef .tc main_arg2) : IVec S2x4096x2 32) (ix3 0 e 1)) 1#32 := by
  have h : shapeCast S4096 (extractStridedSlice S1x4096x1 ![0, 0, 1] (W (Proc.devRef .tc main_arg2) : IVec S2x4096x2 32)
      slices_S2x4096x2_S1x4096x1_0_0_1) shapeCasts_S1x4096x1_S4096 (ix1 e)
      = (W (Proc.devRef .tc main_arg2) : IVec S2x4096x2 32) (ix3 0 e 1) := by
    refine (shapeCast_apply _ _ _ (ix3 (0 : Fin 1) e (0 : Fin 1)) ?_).trans (extractStridedSlice_apply _ _ _ _ (ix3 0 e 1) ?_)
    · rw [Shape.rowMajor_val_three, Shape.rowMajor_val_one]
      show (0 * 4096 + e.val) * 1 + 0 = e.val
      omega
    · intro a; match a with
      | ⟨0, _⟩ => rfl
      | ⟨1, _⟩ => show e.val = 0 + e.val; omega
      | ⟨2, _⟩ => rfl
  show IntOp.subi (shapeCast S4096 _ _ (ix1 e)) 1#32 = _
  rw [h]

/-- The index pair of edge e: the grid positions of its two node ids in the first table. -/
theorem IDXK_apply (e : Fin 4096) (j : Fin 2) :
    IDXK W (ix2 e j) = wrapNode ((W (Proc.devRef .tc main_arg2) : IVec S2x4096x2 32) (ix3 0 e j)) := by
  unfold IDXK wrapNode
  match j with
  | ⟨0, _⟩ =>
    refine (concatenate_pair_apply_left _ _ _ _ _ (by rfl) (ix2 e (0 : Fin 1)) ?_).trans ?_
    · intro b; match b with | ⟨0, _⟩ => rfl | ⟨1, _⟩ => rfl
    · refine (broadcastInDim_apply _ _ _ _ (ix1 e) ?_).trans ?_
      · intro a; match a with | ⟨0, _⟩ => rfl
      · rw [WRAP_apply, NODE0_apply]; rfl
  | ⟨1, _⟩ =>
    refine (concatenate_pair_apply_right _ _ _ _ _ (by rfl) (by rfl) (ix2 e (0 : Fin 1)) ?_ ?_).trans ?_
    · intro b hb; match b with
      | ⟨0, _⟩ => rfl
      | ⟨1, _⟩ => exact absurd rfl hb
    · rfl
    · refine (broadcastInDim_apply _ _ _ _ (ix1 e) ?_).trans ?_
      · intro a; match a with | ⟨0, _⟩ => rfl
      · rw [WRAP_apply, NODE1_apply]; rfl

end Cert.KHost
-- ==== Proof.KHost2.lean ====
/-
  The last stretch of host operations of the kernel's program (after the second kernel), read index by index, for
  arbitrary contents W of the buffers before the stretch: the second kernel's result with its row axis split back into
  node pair and batch, and the final sum — the projection plus, for each edge and batch, the row of that result that a
  gather picks by a triple of positions (the edge's two clamped node positions and the batch). The triple array is left
  as one named term.
-/
import proofs.«178774_j58600533786747_2_alg».proof.Proof.Gen.KernelIdeal.Launch
import Idealize.ShloMosaic.Lib.StableHlo.Run
import Idealize.ShloMosaic.Lib.ValueIdx
import Idealize.ShloMosaic.Lib.Pipeline.Value
import Mathlib.Tactic.FinCases
set_option maxRecDepth 16384

noncomputable section

namespace Cert.KHost

open Cert.KernelIdeal Cert.KernelIdeal.Gen
open Idealize.ShloMosaic Idealize.ShloMosaic.TcCoe
open Idealize.ShloMosaic.ValueIdx

variable (W : Valuation τ sig (Elt Ideal))

/-- The result of an operation with three literal operand references, each operand's contents read at its own reference. -/
theorem nary3_result {x a b y : Ref sig .tc}
    (f : ((k : Fin 3) → ((![x, a, b] : Fin 3 → Ref sig .tc) k).ty.Contents (Elt Ideal)) → y.ty.Contents (Elt Ideal)) (hxs hy)
    (V : Valuation τ sig (Elt Ideal)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

theorem nary3_result' {x a b y : Ref sig .tc}
    (f : ((k : Fin 3) → ((![x, a, b] : Fin 3 → Ref sig .tc) k).ty.Contents (Elt Ideal)) → y.ty.Contents (Elt Ideal)) (hxs hy)
    (V : Valuation τ sig (Elt Ideal)) :
    (StableHlo.nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- The second kernel's result, its row axis split back: (n, m, b) is row `(n·384+m)·2+b`. -/
theorem v42_apply (n mm : Fin 384) (b : Fin 2) (r : Fin 294912) (hr : r.val = (n.val * 384 + mm.val) * 2 + b.val) (o : Fin 128) :
    (StableHlo.after (hostOps2 (F := Ideal)) W (Proc.devRef .tc main_v42) : FVec Ideal S384x384x2x128 .f32) (ix4 n mm b o)
      = (W (Proc.devRef .tc main_v41) : FVec Ideal S294912x128 .f32) (ix2 r o) := by
  have e0 : (StableHlo.after (hostOps2 (F := Ideal)) W (Proc.devRef .tc main_v42) : FVec Ideal S384x384x2x128 .f32)
      = shapeCast S384x384x2x128 (W (Proc.devRef .tc main_v41) : FVec Ideal S294912x128 .f32) shapeCasts_S294912x128_S384x384x2x128 := by
    after_results; first | done | rfl
  rw [e0]
  refine shapeCast_apply _ _ _ (ix2 r o) ?_
  rw [Shape.rowMajor_val_four, Shape.rowMajor_val_two]
  show r.val * 128 + o.val = ((n.val * 384 + mm.val) * 2 + b.val) * 128 + o.val
  omega

/-- The node ids less one, clamped below at 0 (signed), both tables. -/
def POSK : IVec S2x4096x2 32 :=
  maxsi (subi (W (Proc.devRef .tc main_arg2) : IVec S2x4096x2 32) (broadcastInDim S2x4096x2 ![] bcast_S_S2x4096x2 (constantI S_ 32 1#32)))
    (broadcastInDim S2x4096x2 ![] bcast_S_S2x4096x2 (constantI S_ 32 0#32))

/-- A negative entry wrapped by `k`, elementwise, on an edge-by-batch array. -/
def WRAP2 (k : BitVec 32) (v : IVec S4096x2 32) : IVec S4096x2 32 :=
  select (cmpi .slt v (broadcastInDim S4096x2 ![] bcast_S_S4096x2 (constantI S_ 32 0#32)))
    (addi v (broadcastInDim S4096x2 ![] bcast_S_S4096x2 (constantI S_ 32 k))) v

/-- The triples the gather reads: per edge and batch, the two positions of the edge's ends (from the table of that
    batch) and the batch number, each passed through the wrap of a negative entry. -/
def IDXG : IVec S4096x2x3 32 :=
  concatenate S4096x2x3 2
    [⟨S4096x2x1, broadcastInDim S4096x2x1 ![0, 1] bcast_S4096x2_S4096x2x1_0_1 (WRAP2 384#32
        (transpose S4096x2 [1, 0] (shapeCast S2x4096 (extractStridedSlice S2x4096x1 ![0, 0, 0] (POSK W) slices_S2x4096x2_S2x4096x1_0_0_0)
          shapeCasts_S2x4096x1_S2x4096) transposes_S2x4096_S4096x2_1_0))⟩,
     ⟨S4096x2x1, broadcastInDim S4096x2x1 ![0, 1] bcast_S4096x2_S4096x2x1_0_1 (WRAP2 384#32
        (transpose S4096x2 [1, 0] (shapeCast S2x4096 (extractStridedSlice S2x4096x1 ![0, 0, 1] (POSK W) slices_S2x4096x2_S2x4096x1_0_0_1)
          shapeCasts_S2x4096x1_S2x4096) transposes_S2x4096_S4096x2_1_0))⟩,
     ⟨S4096x2x1, broadcastInDim S4096x2x1 ![0, 1] bcast_S4096x2_S4096x2x1_0_1 (WRAP2 2#32
        (broadcastInDim S4096x2 ![0, 1] bcast_S1x2_S4096x2_0_1 (broadcastInDim S1x2 ![1] bcast_S2_S1x2_1 (iotaInDim S2 32 0))))⟩]
    concatenates_S4096x2x1_S4096x2x1_S4096x2x1_S4096x2x3_d2

/-- The gathered rows: for each edge and batch, the row of the second kernel's result (split back to four axes) at the triple. -/
def GAK : FVec Ideal S4096x2x128 .f32 :=
  Host.gather gather_S384x384x2x128_S4096x2x3_S4096x2x128_2_012_n_n_012_2_111128
    (shapeCast S384x384x2x128 (W (Proc.devRef .tc main_v41) : FVec Ideal S294912x128 .f32) shapeCasts_S294912x128_S384x384x2x128) (IDXG W)

/-- What the stretch leaves in the first result: the projection plus the gathered rows, repeated along the trial axis. -/
theorem v78_eq :
    (StableHlo.after (hostOps2 (F := Ideal)) W (Proc.devRef .tc main_v78) : FVec Ideal S4x4096x2x128 .f32)
      = addf (F := Ideal) (W (Proc.devRef .tc main_v4) : FVec Ideal S4x4096x2x128 .f32)
          (broadcastInDim S4x4096x2x128 ![0, 1, 2, 3] bcast_S1x4096x2x128_S4x4096x2x128_0_1_2_3
            (broadcastInDim S1x4096x2x128 ![1, 2, 3] bcast_S4096x2x128_S1x4096x2x128_1_2_3 (GAK W))) := by
  unfold GAK IDXG WRAP2 POSK
  simp (disch := decide) only [StableHlo.after_cons, StableHlo.after_nil, nary3_result',
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      StableHlo.nary_result_ne']
  first | done | rfl

/-- The first result at an index: the projection there (`A` names the projection's array as the stretch finds it) plus
    the gathered row of that edge and batch. -/
theorem v78_apply (A : FVec Ideal S4x4096x2x128 .f32) (hA : (W (Proc.devRef .tc main_v4) : FVec Ideal S4x4096x2x128 .f32) = A)
    (t : Fin 4) (e : Fin 4096) (b : Fin 2) (o : Fin 128) :
    (StableHlo.after (hostOps2 (F := Ideal)) W (Proc.devRef .tc main_v78) : FVec Ideal S4x4096x2x128 .f32) (ix4 t e b o)
      = A (ix4 t e b o) + GAK W (ix3 e b o) := by
  rw [v78_eq, hA, addf_apply]
  refine congrArg (_ + ·) ?_
  refine (broadcastInDim_apply _ _ _ _ (ix4 (0 : Fin 1) e b o) ?_).trans (broadcastInDim_apply _ _ _ _ (ix3 e b o) ?_)
  · intro a; match a with | ⟨0, _⟩ => rfl | ⟨1, _⟩ => rfl | ⟨2, _⟩ => rfl | ⟨3, _⟩ => rfl
  · intro a; match a with | ⟨0, _⟩ => rfl | ⟨1, _⟩ => rfl | ⟨2, _⟩ => rfl

end Cert.KHost
-- ==== Proof.IdealResults.lean ====
/-
  The kernel program's two results, and the pieces its scatter is made of, as formulas of the argument arrays: each
  boundary's contents unfolded one step at a time — a host stretch read at an entry, a region's array at its
  whole-array function — down to the launch memory.
-/
import proofs.«178774_j58600533786747_2_alg».proof.Proof.IdealRun
import proofs.«178774_j58600533786747_2_alg».proof.Proof.IdealValue0c
import proofs.«178774_j58600533786747_2_alg».proof.Proof.IdealValue1
import proofs.«178774_j58600533786747_2_alg».proof.Proof.KHost0
import proofs.«178774_j58600533786747_2_alg».proof.Proof.KHost1
import proofs.«178774_j58600533786747_2_alg».proof.Proof.KHost1Grid
import proofs.«178774_j58600533786747_2_alg».proof.Proof.KHost2

set_option maxRecDepth 16384

noncomputable section

namespace Cert.KernelIdeal.Res

open Cert.KernelIdeal Cert.KernelIdeal.Gen Cert.KernelIdeal.Run Cert.KHost
open Idealize.ShloMosaic Idealize.ShloMosaic.TcCoe Idealize.SL.Sem
open Idealize.ShloMosaic.ValueIdx

variable (m : (ℓ : Loc nD τ sig) → Buf (Elt Ideal) ℓ) (c : Dev nD)

/-! Each argument's buffer at every boundary is the launch memory's. -/
theorem W1_arg0 : W1 m c (Proc.devRef .tc main_arg0) = m ((c : Thread nD τ).loc main_arg0) :=
  (StableHlo.after_of_writes_sub hostOps0 _ hostOps0_writes (by decide)).trans rfl
theorem W1_arg1 : W1 m c (Proc.devRef .tc main_arg1) = m ((c : Thread nD τ).loc main_arg1) :=
  (StableHlo.after_of_writes_sub hostOps0 _ hostOps0_writes (by decide)).trans rfl
theorem W1_arg2 : W1 m c (Proc.devRef .tc main_arg2) = m ((c : Thread nD τ).loc main_arg2) :=
  (StableHlo.after_of_writes_sub hostOps0 _ hostOps0_writes (by decide)).trans rfl
theorem W1_arg3 : W1 m c (Proc.devRef .tc main_arg3) = m ((c : Thread nD τ).loc main_arg3) :=
  (StableHlo.after_of_writes_sub hostOps0 _ hostOps0_writes (by decide)).trans rfl
theorem W1_arg4 : W1 m c (Proc.devRef .tc main_arg4) = m ((c : Thread nD τ).loc main_arg4) :=
  (StableHlo.after_of_writes_sub hostOps0 _ hostOps0_writes (by decide)).trans rfl
theorem W1_arg5 : W1 m c (Proc.devRef .tc main_arg5) = m ((c : Thread nD τ).loc main_arg5) :=
  (StableHlo.after_of_writes_sub hostOps0 _ hostOps0_writes (by decide)).trans rfl
theorem W1_arg6 : W1 m c (Proc.devRef .tc main_arg6) = m ((c : Thread nD τ).loc main_arg6) :=
  (StableHlo.after_of_writes_sub hostOps0 _ hostOps0_writes (by decide)).trans rfl
theorem W1_arg7 : W1 m c (Proc.devRef .tc main_arg7) = m ((c : Thread nD τ).loc main_arg7) :=
  (StableHlo.after_of_writes_sub hostOps0 _ hostOps0_writes (by decide)).trans rfl
theorem W1_arg8 : W1 m c (Proc.devRef .tc main_arg8) = m ((c : Thread nD τ).loc main_arg8) :=
  (StableHlo.after_of_writes_sub hostOps0 _ hostOps0_writes (by decide)).trans rfl
theorem W1_arg9 : W1 m c (Proc.devRef .tc main_arg9) = m ((c : Thread nD τ).loc main_arg9) :=
  (StableHlo.after_of_writes_sub hostOps0 _ hostOps0_writes (by decide)).trans rfl
theorem W1_arg10 : W1 m c (Proc.devRef .tc main_arg10) = m ((c : Thread nD τ).loc main_arg10) :=
  (StableHlo.after_of_writes_sub hostOps0 _ hostOps0_writes (by decide)).trans rfl
theorem W1_arg11 : W1 m c (Proc.devRef .tc main_arg11) = m ((c : Thread nD τ).loc main_arg11) :=
  (StableHlo.after_of_writes_sub hostOps0 _ hostOps0_writes (by decide)).trans rfl
theorem W2_arg0 : W2 m c (Proc.devRef .tc main_arg0) = m ((c : Thread nD τ).loc main_arg0) :=
  (W2_of_ne m c main_arg0 (by decide)).trans (W1_arg0 m c)
theorem W2_arg1 : W2 m c (Proc.devRef .tc main_arg1) = m ((c : Thread nD τ).loc main_arg1) :=
  (W2_of_ne m c main_arg1 (by decide)).trans (W1_arg1 m c)
theorem W2_arg2 : W2 m c (Proc.devRef .tc main_arg2) = m ((c : Thread nD τ).loc main_arg2) :=
  (W2_of_ne m c main_arg2 (by decide)).trans (W1_arg2 m c)
theorem W2_arg3 : W2 m c (Proc.devRef .tc main_arg3) = m ((c : Thread nD τ).loc main_arg3) :=
  (W2_of_ne m c main_arg3 (by decide)).trans (W1_arg3 m c)
theorem W2_arg4 : W2 m c (Proc.devRef .tc main_arg4) = m ((c : Thread nD τ).loc main_arg4) :=
  (W2_of_ne m c main_arg4 (by decide)).trans (W1_arg4 m c)
theorem W2_arg5 : W2 m c (Proc.devRef .tc main_arg5) = m ((c : Thread nD τ).loc main_arg5) :=
  (W2_of_ne m c main_arg5 (by decide)).trans (W1_arg5 m c)
theorem W2_arg6 : W2 m c (Proc.devRef .tc main_arg6) = m ((c : Thread nD τ).loc main_arg6) :=
  (W2_of_ne m c main_arg6 (by decide)).trans (W1_arg6 m c)
theorem W2_arg7 : W2 m c (Proc.devRef .tc main_arg7) = m ((c : Thread nD τ).loc main_arg7) :=
  ((W2_arr m c 2).trans (((R0.dat0 (V1 m) c).arrAt_in 2 rfl _).trans (R0.A_eq0 (V1 m) c 2))).trans (W1_arg7 m c)
theorem W2_arg8 : W2 m c (Proc.devRef .tc main_arg8) = m ((c : Thread nD τ).loc main_arg8) :=
  (W2_of_ne m c main_arg8 (by decide)).trans (W1_arg8 m c)
theorem W2_arg9 : W2 m c (Proc.devRef .tc main_arg9) = m ((c : Thread nD τ).loc main_arg9) :=
  (W2_of_ne m c main_arg9 (by decide)).trans (W1_arg9 m c)
theorem W2_arg10 : W2 m c (Proc.devRef .tc main_arg10) = m ((c : Thread nD τ).loc main_arg10) :=
  (W2_of_ne m c main_arg10 (by decide)).trans (W1_arg10 m c)
theorem W2_arg11 : W2 m c (Proc.devRef .tc main_arg11) = m ((c : Thread nD τ).loc main_arg11) :=
  (W2_of_ne m c main_arg11 (by decide)).trans (W1_arg11 m c)
theorem W3_arg0 : W3 m c (Proc.devRef .tc main_arg0) = m ((c : Thread nD τ).loc main_arg0) :=
  (StableHlo.after_of_writes_sub hostOps1 _ hostOps1_writes (by decide)).trans (W2_arg0 m c)
theorem W3_arg1 : W3 m c (Proc.devRef .tc main_arg1) = m ((c : Thread nD τ).loc main_arg1) :=
  (StableHlo.after_of_writes_sub hostOps1 _ hostOps1_writes (by decide)).trans (W2_arg1 m c)
theorem W3_arg2 : W3 m c (Proc.devRef .tc main_arg2) = m ((c : Thread nD τ).loc main_arg2) :=
  (StableHlo.after_of_writes_sub hostOps1 _ hostOps1_writes (by decide)).trans (W2_arg2 m c)
theorem W3_arg3 : W3 m c (Proc.devRef .tc main_arg3) = m ((c : Thread nD τ).loc main_arg3) :=
  (StableHlo.after_of_writes_sub hostOps1 _ hostOps1_writes (by decide)).trans (W2_arg3 m c)
theorem W3_arg4 : W3 m c (Proc.devRef .tc main_arg4) = m ((c : Thread nD τ).loc main_arg4) :=
  (StableHlo.after_of_writes_sub hostOps1 _ hostOps1_writes (by decide)).trans (W2_arg4 m c)
theorem W3_arg5 : W3 m c (Proc.devRef .tc main_arg5) = m ((c : Thread nD τ).loc main_arg5) :=
  (StableHlo.after_of_writes_sub hostOps1 _ hostOps1_writes (by decide)).trans (W2_arg5 m c)
theorem W3_arg6 : W3 m c (Proc.devRef .tc main_arg6) = m ((c : Thread nD τ).loc main_arg6) :=
  (StableHlo.after_of_writes_sub hostOps1 _ hostOps1_writes (by decide)).trans (W2_arg6 m c)
theorem W3_arg7 : W3 m c (Proc.devRef .tc main_arg7) = m ((c : Thread nD τ).loc main_arg7) :=
  (StableHlo.after_of_writes_sub hostOps1 _ hostOps1_writes (by decide)).trans (W2_arg7 m c)
theorem W3_arg8 : W3 m c (Proc.devRef .tc main_arg8) = m ((c : Thread nD τ).loc main_arg8) :=
  (StableHlo.after_of_writes_sub hostOps1 _ hostOps1_writes (by decide)).trans (W2_arg8 m c)
theorem W3_arg9 : W3 m c (Proc.devRef .tc main_arg9) = m ((c : Thread nD τ).loc main_arg9) :=
  (StableHlo.after_of_writes_sub hostOps1 _ hostOps1_writes (by decide)).trans (W2_arg9 m c)
theorem W3_arg10 : W3 m c (Proc.devRef .tc main_arg10) = m ((c : Thread nD τ).loc main_arg10) :=
  (StableHlo.after_of_writes_sub hostOps1 _ hostOps1_writes (by decide)).trans (W2_arg10 m c)
theorem W3_arg11 : W3 m c (Proc.devRef .tc main_arg11) = m ((c : Thread nD τ).loc main_arg11) :=
  (StableHlo.after_of_writes_sub hostOps1 _ hostOps1_writes (by decide)).trans (W2_arg11 m c)
theorem W4_arg0 : W4 m c (Proc.devRef .tc main_arg0) = m ((c : Thread nD τ).loc main_arg0) :=
  (W4_of_ne m c main_arg0 (by decide)).trans (W3_arg0 m c)
theorem W4_arg1 : W4 m c (Proc.devRef .tc main_arg1) = m ((c : Thread nD τ).loc main_arg1) :=
  (W4_of_ne m c main_arg1 (by decide)).trans (W3_arg1 m c)
theorem W4_arg2 : W4 m c (Proc.devRef .tc main_arg2) = m ((c : Thread nD τ).loc main_arg2) :=
  (W4_of_ne m c main_arg2 (by decide)).trans (W3_arg2 m c)
theorem W4_arg3 : W4 m c (Proc.devRef .tc main_arg3) = m ((c : Thread nD τ).loc main_arg3) :=
  (W4_of_ne m c main_arg3 (by decide)).trans (W3_arg3 m c)
theorem W4_arg4 : W4 m c (Proc.devRef .tc main_arg4) = m ((c : Thread nD τ).loc main_arg4) :=
  (W4_of_ne m c main_arg4 (by decide)).trans (W3_arg4 m c)
theorem W4_arg5 : W4 m c (Proc.devRef .tc main_arg5) = m ((c : Thread nD τ).loc main_arg5) :=
  (W4_of_ne m c main_arg5 (by decide)).trans (W3_arg5 m c)
theorem W4_arg6 : W4 m c (Proc.devRef .tc main_arg6) = m ((c : Thread nD τ).loc main_arg6) :=
  (W4_of_ne m c main_arg6 (by decide)).trans (W3_arg6 m c)
theorem W4_arg7 : W4 m c (Proc.devRef .tc main_arg7) = m ((c : Thread nD τ).loc main_arg7) :=
  (W4_of_ne m c main_arg7 (by decide)).trans (W3_arg7 m c)
theorem W4_arg8 : W4 m c (Proc.devRef .tc main_arg8) = m ((c : Thread nD τ).loc main_arg8) :=
  (W4_of_ne m c main_arg8 (by decide)).trans (W3_arg8 m c)
theorem W4_arg9 : W4 m c (Proc.devRef .tc main_arg9) = m ((c : Thread nD τ).loc main_arg9) :=
  ((W4_arr m c 4).trans (((R1.dat1 (V3 m) c).arrAt_in 4 rfl _).trans (R1.A_eq1 (V3 m) c 4))).trans (W3_arg9 m c)
theorem W4_arg10 : W4 m c (Proc.devRef .tc main_arg10) = m ((c : Thread nD τ).loc main_arg10) :=
  (W4_of_ne m c main_arg10 (by decide)).trans (W3_arg10 m c)
theorem W4_arg11 : W4 m c (Proc.devRef .tc main_arg11) = m ((c : Thread nD τ).loc main_arg11) :=
  ((W4_arr m c 6).trans (((R1.dat1 (V3 m) c).arrAt_in 6 rfl _).trans (R1.A_eq1 (V3 m) c 6))).trans (W3_arg11 m c)

/-- The argument arrays. -/
abbrev a0 : S4x4096x2x128.Idx → EReal := m ((c : Thread nD τ).loc main_arg0)
abbrev a1 : S384x384x2x128.Idx → EReal := m ((c : Thread nD τ).loc main_arg1)
abbrev a2 : IVec S2x4096x2 32 := m ((c : Thread nD τ).loc main_arg2)
abbrev a5 : S1.Idx → EReal := m ((c : Thread nD τ).loc main_arg5)
abbrev a6 : S128x128.Idx → EReal := m ((c : Thread nD τ).loc main_arg6)
abbrev a7 : S128.Idx → EReal := m ((c : Thread nD τ).loc main_arg7)
abbrev a8 : S128x256.Idx → EReal := m ((c : Thread nD τ).loc main_arg8)
abbrev a9 : S128.Idx → EReal := m ((c : Thread nD τ).loc main_arg9)
abbrev a10 : S128x128.Idx → EReal := m ((c : Thread nD τ).loc main_arg10)
abbrev a11 : S128.Idx → EReal := m ((c : Thread nD τ).loc main_arg11)

/-- The projection of edge e, batch b, trial t at output o. -/
def xp (t : Fin 4) (e : Fin 4096) (b : Fin 2) (o : Fin 128) : EReal :=
  (∑ k : Fin 128, a0 m c (ix4 t e b k) * a6 m c (ix2 o k)) + a7 m c (ix1 o)

/-- The first region's projection function at row 2e + b is the projection of (e, b). -/
theorem proj_eq (t : Fin 4) (e : Fin 4096) (b : Fin 2) (r : Fin 8192) (hr : r.val = 2 * e.val + b.val) (o : Fin 128) :
    R0.proj (V1 m) c t r o = xp m c t e b o := by
  unfold R0.proj xp
  refine congrArg₂ (· + ·) (Finset.sum_congr rfl fun k _ => congrArg₂ (· * ·) ?_ ?_) ?_
  · exact KHost.v2_apply (W0 m c) t e b r hr k
  · exact KHost.v1_apply (W0 m c) k o
  · exact congrFun (W1_arg7 m c) (ix1 o)

/-- The projection the program adds the gathered features to: region 0's first result, reshaped back. -/
theorem xprojK (t : Fin 4) (e : Fin 4096) (b : Fin 2) (o : Fin 128) :
    (W4 m c (Proc.devRef .tc main_v4) : S4x4096x2x128.Idx → EReal) (ix4 t e b o) = xp m c t e b o := by
  have h43 : W4 m c (Proc.devRef .tc main_v4) = W3 m c (Proc.devRef .tc main_v4) := W4_of_ne m c main_v4 (by decide)
  rw [h43]
  refine (KHost.v4_apply (W2 m c) t e b ⟨2 * e.val + b.val, by omega⟩ rfl o).trans ?_
  have h2 : W2 m c (Proc.devRef .tc main_v3_0) = (R0.dat0 (V1 m) c).arrAt 3 cfg0.N := W2_arr m c 3
  rw [h2, R0.final3]
  exact proj_eq m c t e b _ rfl o

/-- The constant 1/4 and the zero word, as the kernel prints them. -/
abbrev qw : EReal := Ideal.ofBits .f32 0x3E800000#32
abbrev zw : EReal := Ideal.ofBits .f32 0x00000000#32

/-- The kernel's mean of edge e, batch b at output o. -/
def xmK (e : Fin 4096) (b : Fin 2) (o : Fin 128) : EReal :=
  ((((zw + xp m c 0 e b o) + xp m c 1 e b o) + xp m c 2 e b o) + xp m c 3 e b o) * qw

/-- Region 0's second result at row 2e + b is the kernel's mean of (e, b). -/
theorem xmeanK (e : Fin 4096) (b : Fin 2) (r : Fin 8192) (hr : r.val = 2 * e.val + b.val) (o : Fin 128) :
    (W2 m c (Proc.devRef .tc main_v3_1) : S8192x128.Idx → EReal) (ix2 r o) = xmK m c e b o := by
  have h2 : W2 m c (Proc.devRef .tc main_v3_1) = (R0.dat0 (V1 m) c).arrAt 4 cfg0.N := W2_arr m c 4
  rw [h2, R0.final4]
  unfold R0.G4 xmK
  rw [← proj_eq m c 0 e b r hr o, ← proj_eq m c 1 e b r hr o, ← proj_eq m c 2 e b r hr o, ← proj_eq m c 3 e b r hr o]

/-- The scatter's updates, operand and indices in the argument arrays. -/
theorem UPDK_eq (e : Fin 4096) (b : Fin 2) (o : Fin 128) : UPDK (W2 m c) (ix3 e b o) = xmK m c e b o :=
  (KHost.UPDK_apply (W2 m c) e b ⟨2 * e.val + b.val, by omega⟩ rfl o).trans (xmeanK m c e b _ rfl o)
theorem PADK_eq (n mm : Fin 384) (b : Fin 2) (k : Fin 128) : PADK (W2 m c) (ix4 n mm b k) = a5 m c (ix1 0) :=
  (KHost.PADK_apply (W2 m c) n mm b k).trans (congrFun (W2_arg5 m c) (ix1 0))
theorem IDXK_eq (e : Fin 4096) (j : Fin 2) : IDXK (W2 m c) (ix2 e j) = wrapNode (a2 m c (ix3 0 e j)) :=
  (KHost.IDXK_apply (W2 m c) e j).trans (congrArg wrapNode (congrFun (W2_arg2 m c) (ix3 0 e j)))

abbrev lo (k : Fin 128) : Fin 256 := ⟨k.val, by omega⟩
abbrev hi (k : Fin 128) : Fin 256 := ⟨128 + k.val, by omega⟩

/-- The kernel's second result at (n, mm, b, o). -/
def foK (n mm : Fin 384) (b : Fin 2) (o : Fin 128) : EReal :=
  (∑ d : Fin 128, (((∑ k : Fin 128, a1 m c (ix4 n mm b k) * a8 m c (ix2 d (lo k)))
      + (∑ k : Fin 128, SCK (W2 m c) (ix4 n mm b k) * a8 m c (ix2 d (hi k)))) + a9 m c (ix1 d)) * a10 m c (ix2 o d))
    + a11 m c (ix1 o)

/-- Region 1's result at row (n·384 + mm)·2 + b. -/
theorem featK (n mm : Fin 384) (b : Fin 2) (R : Fin 294912) (hR : R.val = (n.val * 384 + mm.val) * 2 + b.val) (o : Fin 128) :
    (W4 m c (Proc.devRef .tc main_v41) : S294912x128.Idx → EReal) (ix2 R o) = foK m c n mm b o := by
  have h4 : W4 m c (Proc.devRef .tc main_v41) = (R1.dat1 (V3 m) c).arrAt 7 cfg1.N := W4_arr m c 7
  rw [h4, R1.final7]
  unfold R1.G7 R1.feat foK
  refine congrArg₂ (· + ·) (Finset.sum_congr rfl fun d _ => congrArg₂ (· * ·) (congrArg₂ (· + ·) (congrArg₂ (· + ·)
      (Finset.sum_congr rfl fun k _ => congrArg₂ (· * ·) ?_ ?_) (Finset.sum_congr rfl fun k _ => congrArg₂ (· * ·) ?_ ?_)) ?_) ?_) ?_
  · exact (KHost.v39_apply (W2 m c) n mm b R hR k).trans (congrFun (W2_arg1 m c) (ix4 n mm b k))
  · exact (KHost.v33_apply (W2 m c) k d (lo k) rfl).trans (congrFun (W2_arg8 m c) (ix2 d (lo k)))
  · exact KHost.v40_apply (W2 m c) n mm b R hR k
  · exact (KHost.v36_apply (W2 m c) k d (hi k) rfl).trans (congrFun (W2_arg8 m c) (ix2 d (hi k)))
  · exact congrFun (W3_arg9 m c) (ix1 d)
  · exact (KHost.v38_apply (W2 m c) d o).trans (congrFun (W2_arg10 m c) (ix2 o d))
  · exact congrFun (W3_arg11 m c) (ix1 o)

/-- THE KERNEL'S SECOND RESULT. -/
theorem K_featsout (n mm : Fin 384) (b : Fin 2) (o : Fin 128) :
    (W5 m c (Proc.devRef .tc main_v42) : S384x384x2x128.Idx → EReal) (ix4 n mm b o) = foK m c n mm b o :=
  (KHost.v42_apply (W4 m c) n mm b ⟨(n.val * 384 + mm.val) * 2 + b.val, by omega⟩ rfl o).trans (featK m c n mm b _ rfl o)

/-- THE KERNEL'S FIRST RESULT: the projection plus the gathered features. -/
theorem K_xfinal (t : Fin 4) (e : Fin 4096) (b : Fin 2) (o : Fin 128) :
    (W5 m c (Proc.devRef .tc main_v78) : S4x4096x2x128.Idx → EReal) (ix4 t e b o) = xp m c t e b o + GAK (W4 m c) (ix3 e b o) :=
  (KHost.v78_apply (W4 m c) _ rfl t e b o).trans (congrArg (· + _) (xprojK m c t e b o))

end Cert.KernelIdeal.Res

end
-- ==== Proof.RefForm.lean ====
/- The reference's two results as formulas at an index, read at the extended reals.

   With T = 4 time steps, E = 4096 edges, B = 2, D = 128 features and N = 384 nodes, the reference computes
     x_proj[t,e,b,o]    = Σ_d x[t,e,b,d] · W_g[o,d] + b_g[o],
     x_mean[e,b,o]      = (0 + Σ_t x_proj[t,e,b,o]) / 4,
     a padded (N+1)×(N+1) grid, every entry 1 · pad, into which x_mean[e] is scattered at the node pair of edge e, and whose
       row 0 and column 0 are then dropped,
     mid[n,m,b,d]       = Σ_k cat[n,m,b,k] · W_lin[d,k] + b_lin[d], where cat is the node features followed by the grid
       along the last axis,
     feats_out[n,m,b,o] = Σ_d mid[n,m,b,d] · W_f[o,d] + b_f[o],
     x_final[t,e,b,o]   = x_proj[t,e,b,o] + (feats_out gathered at the edge's node pair)[e,b,o].
   Each theorem below reads one of these stages at an index built from literal coordinates. The scatter and the gather are not
   opened: they stay as the terms val_main_v28 and val_main_v71. The sum over the joined axis of extent 256 is split into its
   two halves of extent 128 by commutativity and associativity of the sum alone; no finiteness of any entry is used. -/
import proofs.«178774_j58600533786747_2_alg».proof.Proof.RefReadP0

noncomputable section

namespace Cert.RefForm

open Cert.ReferenceIdeal Cert.ReferenceIdeal.Gen Cert.ReferenceIdeal.ReadP
open Idealize.ShloMosaic Idealize.ShloMosaic.ValueIdx Idealize.ShloMosaic.StableHlo
open scoped BigOperators

/-! ## Coordinates

The joined feature axis of extent 256 is the 128 node features followed by the 128 grid features: `lo c` is position
`c` of the first half, `hi c` position `128 + c` of the second. The padded grid has one more row and column than
the grid of nodes; `up n` is row (or column) `n + 1` of the padded grid. -/

/-- Position `c` of the joined axis: the node features' half. -/
abbrev lo (c : Fin 128) : Fin 256 := ⟨c.val, by omega⟩
/-- Position `128 + c` of the joined axis: the grid features' half. -/
abbrev hi (c : Fin 128) : Fin 256 := ⟨128 + c.val, by omega⟩
/-- Row (column) `n + 1` of the padded grid. -/
abbrev up (n : Fin 384) : Fin 385 := ⟨n.val + 1, by omega⟩

/-- A sum over the joined axis is the sum over its first half plus the sum over its second half. -/
theorem sum_halves {M : Type} [AddCommMonoid M] (f : Fin 256 → M) :
    ∑ k : Fin 256, f k = (∑ c : Fin 128, f (lo c)) + ∑ c : Fin 128, f (hi c) :=
  Fin.sum_univ_add (a := 128) (b := 128) f

section
variable (x0 : (⟨S4x4096x2x128, .f32⟩ : BufTy).Contents (Elt Ideal)) (x1 : (⟨S384x384x2x128, .f32⟩ : BufTy).Contents (Elt Ideal))
  (x2 : (⟨S2x4096x2, .i32⟩ : BufTy).Contents (Elt Ideal)) (x5 : (⟨S1, .f32⟩ : BufTy).Contents (Elt Ideal))
  (x6 : (⟨S128x128, .f32⟩ : BufTy).Contents (Elt Ideal)) (x7 : (⟨S128, .f32⟩ : BufTy).Contents (Elt Ideal))
  (x8 : (⟨S128x256, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-! ## The projection of the edge features: x_proj[t,e,b,o] = Σ_d x[t,e,b,d] · W_g[o,d] + b_g[o] -/

theorem lidx0 (t : Fin 4) (e : Fin 4096) (b : Fin 2) (o k : Fin 128) : lidx_main_v0 (ix4 t e b o) k = ix4 t e b k :=
  funext fun a => Fin.ext (by match a with | ⟨0, _⟩ => rfl | ⟨1, _⟩ => rfl | ⟨2, _⟩ => rfl | ⟨3, _⟩ => rfl)
theorem ridx0 (t : Fin 4) (e : Fin 4096) (b : Fin 2) (o k : Fin 128) : ridx_main_v0 (ix4 t e b o) k = ix2 o k :=
  funext fun a => Fin.ext (by match a with | ⟨0, _⟩ => rfl | ⟨1, _⟩ => rfl)
theorem idx12 (t : Fin 4) (e : Fin 4096) (b : Fin 2) (o : Fin 128) : idx_main_v1 (idx_main_v2 (ix4 t e b o)) = ix1 o :=
  funext fun a => Fin.ext (by match a with | ⟨0, _⟩ => rfl)

/-- The projected edge features at an index. -/
theorem xproj (t : Fin 4) (e : Fin 4096) (b : Fin 2) (o : Fin 128) :
    val_main_v3 (F := Ideal) x0 x6 x7 (ix4 t e b o) = (∑ d : Fin 128, x0 (ix4 t e b d) * x6 (ix2 o d)) + x7 (ix1 o) := by
  rw [val_main_v3_apply, val_main_v0_apply, val_main_v2_apply, val_main_v1_apply]
  simp only [lidx0, ridx0, idx12, Ideal.addf_def]

/-! ## The mean over the T = 4 time steps: the sum from the zero word, divided by the word of 4 -/

theorem idx4 (e : Fin 4096) (b : Fin 2) (o : Fin 128) (k : Fin 4) : idx_main_v4 (ix3 e b o) k = ix4 k e b o :=
  funext fun a => Fin.ext (by match a with | ⟨0, _⟩ => rfl | ⟨1, _⟩ => rfl | ⟨2, _⟩ => rfl | ⟨3, _⟩ => rfl)

/-- The time mean of the projected edge features at an index. -/
theorem xmean (e : Fin 4096) (b : Fin 2) (o : Fin 128) :
    val_main_v6 (F := Ideal) x0 x6 x7 (ix3 e b o)
      = Ideal.div (Ideal.ofBits .f32 0x00000000#32 + ∑ t : Fin 4, val_main_v3 (F := Ideal) x0 x6 x7 (ix4 t e b o))
          (Ideal.ofBits .f32 0x40800000#32) := by
  rw [val_main_v6_apply, val_main_v4_apply, val_main_v5_apply, val_main_cst_apply, val_main_cst_0_apply]
  simp only [idx4, Ideal.hostDivf_def, Ideal.ofBits_def]

/-! ## The grid before the scatter: every entry is the word of 1 times the padding scalar -/

theorem idx89 (i : S385x385x2x128.Idx) : idx_main_v8 (idx_main_v9 i) = ix1 (0 : Fin 1) :=
  funext fun a => Fin.ext (by match a with | ⟨0, _⟩ => rfl)

/-- The padded grid before the scatter, at any index. -/
theorem padgrid (i : S385x385x2x128.Idx) :
    val_main_v10 (F := Ideal) x5 i = Ideal.ofBits .f32 0x3F800000#32 * x5 (ix1 (0 : Fin 1)) := by
  rw [val_main_v10_apply, val_main_v7_apply, val_main_cst_1_apply, val_main_v9_apply, val_main_v8_apply]
  simp only [idx89, Ideal.mulf_def, Ideal.ofBits_def]

/-! ## The slice that drops row 0 and column 0 of the scattered grid -/

theorem idx29 (n mm : Fin 384) (b : Fin 2) (c : Fin 128) : idx_main_v29 (ix4 n mm b c) = ix4 (up n) (up mm) b c :=
  funext fun a => Fin.ext (by
    match a with
    | ⟨0, _⟩ => show 1 + n.val = n.val + 1; omega
    | ⟨1, _⟩ => show 1 + mm.val = mm.val + 1; omega
    | ⟨2, _⟩ => rfl
    | ⟨3, _⟩ => rfl)

/-- The grid of nodes is the scattered padded grid one row and one column further on. The scatter itself stays closed. -/
theorem grid_slice (n mm : Fin 384) (b : Fin 2) (c : Fin 128) :
    val_main_v29 (F := Ideal) x0 x2 x5 x6 x7 (ix4 n mm b c) = val_main_v28 (F := Ideal) x0 x2 x5 x6 x7 (ix4 (up n) (up mm) b c) := by
  rw [val_main_v29_apply, idx29]

/-! ## The node features joined with the grid features along the last axis -/

/-- The joined array on its first half is the node features. -/
theorem cat_lo (n mm : Fin 384) (b : Fin 2) (c : Fin 128) :
    val_main_v30 (F := Ideal) x0 x1 x2 x5 x6 x7 (ix4 n mm b (lo c)) = x1 (ix4 n mm b c) := by
  unfold val_main_v30
  generalize val_main_v29 (F := Ideal) x0 x2 x5 x6 x7 = y
  exact concatenate_pair_apply_left 3 x1 y concatenates_S384x384x2x128_S384x384x2x128_S384x384x2x256_d3 (ix4 n mm b (lo c)) rfl
    (ix4 n mm b c) (fun a => match a with | ⟨0, _⟩ => rfl | ⟨1, _⟩ => rfl | ⟨2, _⟩ => rfl | ⟨3, _⟩ => rfl)

/-- The joined array on its second half is the grid features. -/
theorem cat_hi (n mm : Fin 384) (b : Fin 2) (c : Fin 128) :
    val_main_v30 (F := Ideal) x0 x1 x2 x5 x6 x7 (ix4 n mm b (hi c)) = val_main_v29 (F := Ideal) x0 x2 x5 x6 x7 (ix4 n mm b c) := by
  unfold val_main_v30
  generalize val_main_v29 (F := Ideal) x0 x2 x5 x6 x7 = y
  exact concatenate_pair_apply_right 3 x1 y concatenates_S384x384x2x128_S384x384x2x128_S384x384x2x256_d3 (ix4 n mm b (hi c)) rfl rfl
    (ix4 n mm b c)
    (fun a ha => match a, ha with
      | ⟨0, _⟩, _ => rfl | ⟨1, _⟩, _ => rfl | ⟨2, _⟩, _ => rfl | ⟨3, _⟩, ha => absurd (Fin.ext rfl) ha)
    (by show c.val + 128 = 128 + c.val; omega)

/-! ## The two linear layers on the joined features: feats_out[n,m,b,o] = Σ_d mid[n,m,b,d] · W_f[o,d] + b_f[o] -/

theorem lidx31 (n mm : Fin 384) (b : Fin 2) (d : Fin 128) (k : Fin 256) : lidx_main_v31 (ix4 n mm b d) k = ix4 n mm b k :=
  funext fun a => Fin.ext (by match a with | ⟨0, _⟩ => rfl | ⟨1, _⟩ => rfl | ⟨2, _⟩ => rfl | ⟨3, _⟩ => rfl)
theorem ridx31 (n mm : Fin 384) (b : Fin 2) (d : Fin 128) (k : Fin 256) : ridx_main_v31 (ix4 n mm b d) k = ix2 d k :=
  funext fun a => Fin.ext (by match a with | ⟨0, _⟩ => rfl | ⟨1, _⟩ => rfl)
theorem idx3233 (n mm : Fin 384) (b : Fin 2) (d : Fin 128) : idx_main_v32 (idx_main_v33 (ix4 n mm b d)) = ix1 d :=
  funext fun a => Fin.ext (by match a with | ⟨0, _⟩ => rfl)
theorem lidx35 (n mm : Fin 384) (b : Fin 2) (o k : Fin 128) : lidx_main_v35 (ix4 n mm b o) k = ix4 n mm b k :=
  funext fun a => Fin.ext (by match a with | ⟨0, _⟩ => rfl | ⟨1, _⟩ => rfl | ⟨2, _⟩ => rfl | ⟨3, _⟩ => rfl)
theorem ridx35 (n mm : Fin 384) (b : Fin 2) (o k : Fin 128) : ridx_main_v35 (ix4 n mm b o) k = ix2 o k :=
  funext fun a => Fin.ext (by match a with | ⟨0, _⟩ => rfl | ⟨1, _⟩ => rfl)
theorem idx3637 (n mm : Fin 384) (b : Fin 2) (o : Fin 128) : idx_main_v36 (idx_main_v37 (ix4 n mm b o)) = ix1 o :=
  funext fun a => Fin.ext (by match a with | ⟨0, _⟩ => rfl)

/-- The hidden layer over the whole joined axis: mid[n,m,b,d] = Σ_k cat[n,m,b,k] · W_lin[d,k] + b_lin[d]. -/
theorem mid_joined (n mm : Fin 384) (b : Fin 2) (d : Fin 128) :
    val_main_v34 (F := Ideal) x0 x1 x2 x5 x6 x7 x8 x9 (ix4 n mm b d)
      = (∑ k : Fin 256, val_main_v30 (F := Ideal) x0 x1 x2 x5 x6 x7 (ix4 n mm b k) * x8 (ix2 d k)) + x9 (ix1 d) := by
  rw [val_main_v34_apply, val_main_v31_apply, val_main_v33_apply, val_main_v32_apply]
  simp only [lidx31, ridx31, idx3233, Ideal.addf_def]

/-- The hidden layer with the sum over the joined axis split into the node features' half and the grid
    features' half. Only commutativity and associativity of the sum are used. -/
theorem mid (n mm : Fin 384) (b : Fin 2) (d : Fin 128) :
    val_main_v34 (F := Ideal) x0 x1 x2 x5 x6 x7 x8 x9 (ix4 n mm b d)
      = ((∑ c : Fin 128, x1 (ix4 n mm b c) * x8 (ix2 d (lo c)))
          + ∑ c : Fin 128, val_main_v29 (F := Ideal) x0 x2 x5 x6 x7 (ix4 n mm b c) * x8 (ix2 d (hi c))) + x9 (ix1 d) := by
  rw [mid_joined, sum_halves]
  simp only [cat_lo, cat_hi]

/-- The node features' result at an index, over the hidden layer. -/
theorem feats_out (n mm : Fin 384) (b : Fin 2) (o : Fin 128) :
    val_main_v38 (F := Ideal) x0 x1 x2 x5 x6 x7 x8 x9 x10 x11 (ix4 n mm b o)
      = (∑ d : Fin 128, val_main_v34 (F := Ideal) x0 x1 x2 x5 x6 x7 x8 x9 (ix4 n mm b d) * x10 (ix2 o d)) + x11 (ix1 o) := by
  rw [val_main_v38_apply, val_main_v35_apply, val_main_v37_apply, val_main_v36_apply]
  simp only [lidx35, ridx35, idx3637, Ideal.addf_def]

/-- The node features' result at an index as one formula of the arguments and of the scattered padded grid: both linear layers
    opened, the hidden layer's sum split into its two halves, the grid read one row and one column further on. -/
theorem feats_out_formula (n mm : Fin 384) (b : Fin 2) (o : Fin 128) :
    val_main_v38 (F := Ideal) x0 x1 x2 x5 x6 x7 x8 x9 x10 x11 (ix4 n mm b o)
      = (∑ d : Fin 128,
          (((∑ c : Fin 128, x1 (ix4 n mm b c) * x8 (ix2 d (lo c)))
            + ∑ c : Fin 128, val_main_v28 (F := Ideal) x0 x2 x5 x6 x7 (ix4 (up n) (up mm) b c) * x8 (ix2 d (hi c))) + x9 (ix1 d))
          * x10 (ix2 o d)) + x11 (ix1 o) := by
  rw [feats_out]
  simp only [mid, grid_slice]

/-! ## The edge result: the projection plus the node result gathered at the edge's node pair -/

theorem idx7273 (t : Fin 4) (e : Fin 4096) (b : Fin 2) (o : Fin 128) : idx_main_v72 (idx_main_v73 (ix4 t e b o)) = ix3 e b o :=
  funext fun a => Fin.ext (by match a with | ⟨0, _⟩ => rfl | ⟨1, _⟩ => rfl | ⟨2, _⟩ => rfl)

/-- The edge result at an index; the gather stays closed. -/
theorem x_final (t : Fin 4) (e : Fin 4096) (b : Fin 2) (o : Fin 128) :
    val_main_v74 (F := Ideal) x0 x1 x2 x5 x6 x7 x8 x9 x10 x11 (ix4 t e b o)
      = val_main_v3 (F := Ideal) x0 x6 x7 (ix4 t e b o) + val_main_v71 (F := Ideal) x0 x1 x2 x5 x6 x7 x8 x9 x10 x11 (ix3 e b o) := by
  rw [val_main_v74_apply, val_main_v73_apply, val_main_v72_apply]
  simp only [idx7273, Ideal.addf_def]

/-- The gathered term: the node result read at the index triples of the joined index array. -/
theorem gathered_def :
    val_main_v71 (F := Ideal) x0 x1 x2 x5 x6 x7 x8 x9 x10 x11
      = Host.gather gather_S384x384x2x128_S4096x2x3_S4096x2x128_2_012_n_n_012_2_111128
          (val_main_v38 (F := Ideal) x0 x1 x2 x5 x6 x7 x8 x9 x10 x11) (val_main_v70 (F := Ideal) x2) := rfl

end

end Cert.RefForm

end
-- ==== Proof.LibScatterEmbed.lean ====
/-
  A scatter read through an injective re-indexing of its operand.

  `Host.scatter` is the left fold, over the update indices in row-major order, of the step "replace the
  operand's element at the update's result index by the body applied to it and the update's element, or drop the
  update when its result index falls outside the operand". Two scatters of the SAME updates into two DIFFERENT
  operands are related whenever the second operand contains a copy of the first: if `φ` embeds the first
  operand's indices into the second's, every update lands in the second operand exactly at the `φ`-image of where
  it lands in the first (and is dropped by both or by neither), and the second operand starts out, on the image of
  `φ`, as the first one, then after all updates the second result read at `φ i` is the first result read at `i`.
  Nothing is assumed about repeated result indices (the fold visits the updates in one order on both sides), about
  the body `f`, or about the element type.

  The typical use is a scatter into a grid padded by a leading row and column whose padding is sliced away
  afterwards, against the scatter of the same updates at indices shifted by one into the unpadded grid.
-/
import Idealize.ShloMosaic.PureOps.ShapeOps

namespace Idealize.ShloMosaic.LibScatterEmbed

open Idealize.ShloMosaic

variable {α : Type} {s s' si si' u : Shape} {w w' : Nat}

/-- One step of the scatter fold: update number `n` (row-major) applied to the running result `r`. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w)
    (upd : u.Idx → α) :
    Host.scatter d f x idx upd = (List.finRange u.numel).foldl (step d f idx upd) x := rfl

/-- One step commutes with the embedding: if the running results agree through `φ` before the update, they
    agree through `φ` after it. -/
theorem step_embed (d : ScatterDims s si u) (d' : ScatterDims s' si' u) (f : α → α → α)
    (idx : IVec si w) (idx' : IVec si' w') (upd : u.Idx → α)
    (φ : s.Idx → s'.Idx) (hφ : Function.Injective φ)
    (hidx : ∀ j : u.Idx, d'.resultIdx? j idx' = (d.resultIdx? j idx).map φ)
    (r : s.Idx → α) (r' : s'.Idx → α) (h : ∀ i, r' (φ i) = r i) (n : Fin u.numel) (i : s.Idx) :
    step d' f idx' upd r' n (φ i) = step d f idx upd r n i := by
  unfold step
  rw [hidx]
  cases d.resultIdx? (u.rowMajor.symm n) idx with
  | none => exact h i
  | some j =>
    show (if φ i = φ j then f (r' (φ j)) (upd (u.rowMajor.symm n)) else r' (φ i))
      = (if i = j then f (r j) (upd (u.rowMajor.symm n)) else r i)
    by_cases hij : i = j
    · subst hij; rw [if_pos rfl, if_pos rfl, h]
    · rw [if_neg hij, if_neg (fun e => hij (hφ e)), h]

/-- **A scatter read through an embedding of its operand.** With `φ` injective, every update's result index in
    the second scatter the `φ`-image of its result index in the first (dropped by both or by neither), and the
    second operand on the image of `φ` the first operand, the second scatter's result at `φ i` is the first's
    at `i`. -/
theorem scatter_embed (d : ScatterDims s si u) (d' : ScatterDims s' si' u) (f : α → α → α)
    (x : s.Idx → α) (x' : s'.Idx → α) (idx : IVec si w) (idx' : IVec si' w') (upd : u.Idx → α)
    (φ : s.Idx → s'.Idx) (hφ : Function.Injective φ)
    (hidx : ∀ j : u.Idx, d'.resultIdx? j idx' = (d.resultIdx? j idx).map φ)
    (hx : ∀ i, x' (φ i) = x i) (i : s.Idx) :
    Host.scatter d' f x' idx' upd (φ i) = Host.scatter d f x idx upd i := by
  rw [scatter_eq_foldl, scatter_eq_foldl]
  have key : ∀ (l : List (Fin u.numel)) (r : s.Idx → α) (r' : s'.Idx → α), (∀ i, r' (φ i) = r i) →
      ∀ i, (l.foldl (step d' f idx' upd) r') (φ i) = (l.foldl (step d f idx upd) r) i := by
    intro l
    induction l with
    | nil => intro r r' h i; exact h i
    | cons n l ih =>
      intro r r' h i
      rw [List.foldl_cons, List.foldl_cons]
      exact ih _ _ (fun i => step_embed d d' f idx idx' upd φ hφ hidx r r' h n i) i
  exact key _ x x' hx i

/-- The same with the two update arrays merely equal index by index (two programs each computing its own). -/
theorem scatter_embed' (d : ScatterDims s si u) (d' : ScatterDims s' si' u) (f : α → α → α)
    (x : s.Idx → α) (x' : s'.Idx → α) (idx : IVec si w) (idx' : IVec si' w') (upd upd' : u.Idx → α)
    (φ : s.Idx → s'.Idx) (hφ : Function.Injective φ)
    (hidx : ∀ j : u.Idx, d'.resultIdx? j idx' = (d.resultIdx? j idx).map φ)
    (hx : ∀ i, x' (φ i) = x i) (hupd : ∀ j, upd' j = upd j) (i : s.Idx) :
    Host.scatter d' f x' idx' upd' (φ i) = Host.scatter d f x idx upd i := by
  have : upd' = upd := funext hupd
  subst this
  exact scatter_embed d d' f x x' idx idx' upd' φ hφ hidx hx i

end Idealize.ShloMosaic.LibScatterEmbed
-- ==== Proof.ScatterIdx.lean ====
/-
  Two scatters of one family of updates that differ by a border: one into a 384×384 grid at each edge's node pair with
  every node id lowered by one, the other into a 385×385 grid at the node ids themselves. For node ids between 1 and 384
  neither scatter ever wraps a negative position nor drops an update, and update (e, b, o) lands at
  (id₀−1, id₁−1, b, o) in the small grid and at (id₀, id₁, b, o) in the large one: the second place is the first shifted
  by one along the two node axes. Hence the large scatter read at a shifted index is the small scatter read at the
  index, provided the grids they start from agree through the shift.
-/
import proofs.«178774_j58600533786747_2_alg».proof.KernelIdeal
import proofs.«178774_j58600533786747_2_alg».proof.ReferenceIdeal
import proofs.«178774_j58600533786747_2_alg».proof.Proof.LibScatterEmbed
import proofs.«178774_j58600533786747_2_alg».proof.Proof.KHost1Grid

set_option maxRecDepth 16384

noncomputable section

namespace Cert.ScatterIdx

open Idealize.ShloMosaic Idealize.ShloMosaic.ValueIdx
open Cert.KHost (wrapNode)

/-- The small grid, the large grid, the index pairs, the updates. -/
abbrev SK : Shape := ⟨4, ![384, 384, 2, 128]⟩
abbrev SR : Shape := ⟨4, ![385, 385, 2, 128]⟩
abbrev SI : Shape := ⟨2, ![4096, 2]⟩
abbrev SU : Shape := ⟨3, ![4096, 2, 128]⟩

variable [Cert.KernelIdeal.Facts₀] [Cert.ReferenceIdeal.Facts₀]

/-- The two scatters' dimension records (both: window axes 1 and 2 of the updates, the two node axes of the grid
    inserted and indexed, the index pair along axis 1 of the index array). -/
abbrev dK : ScatterDims SK SI SU := Cert.KernelIdeal.scatter_S384x384x2x128_S4096x2_S4096x2x128_12_01_01_1
abbrev dR : ScatterDims SR SI SU := Cert.ReferenceIdeal.scatter_S385x385x2x128_S4096x2_S4096x2x128_12_01_01_1

/-- A node id taken to its position in the large grid, as the 32-bit integer operations compute it: the id itself,
    and 385 added when it is negative (signed). -/
def wrapR (x : BitVec 32) : BitVec 32 := Scalar.select (IntOp.cmpi .slt x 0#32) (IntOp.addi x 385#32) x

/-- The shift by one along the two node axes. -/
def φ (i : SK.Idx) : SR.Idx :=
  ix4 (n0 := 385) (n1 := 385) (n2 := 2) (n3 := 128)
    ⟨(i 0).val + 1, by have : (i 0).val < 384 := (i 0).isLt; omega⟩
    ⟨(i 1).val + 1, by have : (i 1).val < 384 := (i 1).isLt; omega⟩ (i 2) (i 3)

theorem φ_injective : Function.Injective φ := by
  intro i j h
  have h0 : (i 0).val + 1 = (j 0).val + 1 := congrArg Fin.val (congrFun h 0)
  have h1 : (i 1).val + 1 = (j 1).val + 1 := congrArg Fin.val (congrFun h 1)
  have h2 : (i 2).val = (j 2).val := congrArg Fin.val (congrFun h 2)
  have h3 : (i 3).val = (j 3).val := congrArg Fin.val (congrFun h 3)
  have e0 : i 0 = j 0 := Fin.ext (by omega)
  have e1 : i 1 = j 1 := Fin.ext (by omega)
  have e2 : i 2 = j 2 := Fin.ext h2
  have e3 : i 3 = j 3 := Fin.ext h3
  rw [eq_ix4 i, eq_ix4 j, e0, e1, e2, e3]

/-! ### 32-bit facts -/

theorem one_toInt : (1#32 : BitVec 32).toInt = 1 := by decide
theorem zero_toInt : (0#32 : BitVec 32).toInt = 0 := by decide

theorem sub_one_toInt (x : BitVec 32) (h1 : 1 ≤ x.toInt) (h2 : x.toInt ≤ 384) : (x - 1#32).toInt = x.toInt - 1 := by
  rw [BitVec.toInt_sub, one_toInt, Int.bmod_def]
  split <;> omega

theorem not_slt_zero (y : BitVec 32) (h : 0 ≤ y.toInt) : y.slt 0#32 = false := by
  rw [BitVec.slt_eq_decide, zero_toInt]
  exact decide_eq_false (by omega)

/-- A non-negative entry passes the wrap unchanged. -/
theorem select_slt_zero (y k : BitVec 32) (h : 0 ≤ y.toInt) :
    Scalar.select (IntOp.cmpi .slt y 0#32) (IntOp.addi y k) y = y := by
  have : IntOp.cmpi .slt y 0#32 = 0#1 := by
    show BitVec.ofBool (y.slt 0#32) = 0#1
    rw [not_slt_zero y h]; rfl
  rw [this]; exact if_neg (by decide)

theorem wrapNode_toInt (x : BitVec 32) (h1 : 1 ≤ x.toInt) (h2 : x.toInt ≤ 384) : (wrapNode x).toInt = x.toInt - 1 := by
  have hs := sub_one_toInt x h1 h2
  unfold wrapNode
  show (Scalar.select (IntOp.cmpi .slt (x - 1#32) 0#32) (IntOp.addi (x - 1#32) 384#32) (x - 1#32)).toInt = _
  rw [select_slt_zero _ _ (by omega), hs]

theorem wrapR_toInt (x : BitVec 32) (h1 : 1 ≤ x.toInt) : (wrapR x).toInt = x.toInt := by
  unfold wrapR
  rw [select_slt_zero _ _ (by omega)]

/-! ### Where an update lands -/

/-- An update whose start plus window coordinate is, axis by axis, the coordinate of `i` lands at `i`. -/
theorem resultIdx?_eq_some {s si u : Shape} {w : Nat} (d : ScatterDims s si u) (j : u.Idx) (idx : IVec si w) (i : s.Idx)
    (h : ∀ a, d.start j idx a + (d.window j a : Int) = ((i a).val : Int)) : d.resultIdx? j idx = some i := by
  unfold ScatterDims.resultIdx?
  have hc : ∀ a, 0 ≤ d.start j idx a + d.window j a ∧ d.start j idx a + d.window j a < s.size a := fun a => by
    rw [h a]; exact ⟨Int.natCast_nonneg _, by exact_mod_cast (i a).isLt⟩
  rw [dif_pos hc]
  congr 1; funext a; apply Fin.ext
  show (d.start j idx a + d.window j a).toNat = (i a).val
  rw [h a]; exact Int.toNat_natCast _

theorem startK (e : Fin 4096) (b : Fin 2) (o : Fin 128) (idx : IVec SI 32) (c : Fin 2) (a : Fin 4) (ha : a.val = c.val) :
    dK.start (ix3 e b o) idx a = (idx (ix2 e c)).toInt := by
  match c, a, ha with
  | ⟨0, _⟩, ⟨0, _⟩, _ =>
    refine congrArg (fun k => (idx k).toInt) (?_ : dK.siIdx (ix3 e b o) ⟨0, by show (0 : Nat) < 2; omega⟩ = _)
    funext k; match k with | ⟨0, _⟩ => rfl | ⟨1, _⟩ => rfl
  | ⟨1, _⟩, ⟨1, _⟩, _ =>
    refine congrArg (fun k => (idx k).toInt) (?_ : dK.siIdx (ix3 e b o) ⟨1, by show (1 : Nat) < 2; omega⟩ = _)
    funext k; match k with | ⟨0, _⟩ => rfl | ⟨1, _⟩ => rfl

theorem startR (e : Fin 4096) (b : Fin 2) (o : Fin 128) (idx : IVec SI 32) (c : Fin 2) (a : Fin 4) (ha : a.val = c.val) :
    dR.start (ix3 e b o) idx a = (idx (ix2 e c)).toInt := by
  match c, a, ha with
  | ⟨0, _⟩, ⟨0, _⟩, _ =>
    refine congrArg (fun k => (idx k).toInt) (?_ : dR.siIdx (ix3 e b o) ⟨0, by show (0 : Nat) < 2; omega⟩ = _)
    funext k; match k with | ⟨0, _⟩ => rfl | ⟨1, _⟩ => rfl
  | ⟨1, _⟩, ⟨1, _⟩, _ =>
    refine congrArg (fun k => (idx k).toInt) (?_ : dR.siIdx (ix3 e b o) ⟨1, by show (1 : Nat) < 2; omega⟩ = _)
    funext k; match k with | ⟨0, _⟩ => rfl | ⟨1, _⟩ => rfl

/-- **Where the updates land.** For node ids between 1 and 384, every update lands in the large grid at the shift of
    where it lands in the small one. -/
theorem resultIdx_shift (idxK idxR : IVec SI 32) (v : Fin 4096 → Fin 2 → BitVec 32)
    (hv : ∀ e j, 1 ≤ (v e j).toInt ∧ (v e j).toInt ≤ 384)
    (hK : ∀ e j, idxK (ix2 e j) = wrapNode (v e j)) (hR : ∀ e j, idxR (ix2 e j) = wrapR (v e j)) :
    ∀ u : SU.Idx, dR.resultIdx? u idxR = (dK.resultIdx? u idxK).map φ := by
  intro u
  obtain ⟨e, b, o, rfl⟩ : ∃ (e : Fin 4096) (b : Fin 2) (o : Fin 128), u = ix3 e b o := ⟨u 0, u 1, u 2, eq_ix3 u⟩
  have h0 := hv e 0
  have h1 := hv e 1
  obtain ⟨n0, hn0⟩ : ∃ n : Nat, (v e 0).toInt = (n : Int) + 1 := ⟨((v e 0).toInt - 1).toNat, by omega⟩
  obtain ⟨n1, hn1⟩ : ∃ n : Nat, (v e 1).toInt = (n : Int) + 1 := ⟨((v e 1).toInt - 1).toNat, by omega⟩
  have hn0lt : n0 < 384 := by omega
  have hn1lt : n1 < 384 := by omega
  have eK : dK.resultIdx? (ix3 e b o) idxK = some (ix4 (⟨n0, hn0lt⟩ : Fin 384) (⟨n1, hn1lt⟩ : Fin 384) b o) := by
    refine resultIdx?_eq_some dK (ix3 e b o) idxK _ fun a => ?_
    match a with
    | ⟨0, _⟩ =>
      show dK.start (ix3 e b o) idxK 0 + ((0 : Nat) : Int) = (n0 : Int)
      rw [startK e b o idxK 0 0 rfl, hK, wrapNode_toInt _ h0.1 h0.2]; omega
    | ⟨1, _⟩ =>
      show dK.start (ix3 e b o) idxK 1 + ((0 : Nat) : Int) = (n1 : Int)
      rw [startK e b o idxK 1 1 rfl, hK, wrapNode_toInt _ h1.1 h1.2]; omega
    | ⟨2, _⟩ =>
      show (0 : Int) + ((b.val : Nat) : Int) = ((b.val : Nat) : Int)
      omega
    | ⟨3, _⟩ =>
      show (0 : Int) + ((o.val : Nat) : Int) = ((o.val : Nat) : Int)
      omega
  have eR : dR.resultIdx? (ix3 e b o) idxR = some (φ (ix4 (⟨n0, hn0lt⟩ : Fin 384) (⟨n1, hn1lt⟩ : Fin 384) b o)) := by
    refine resultIdx?_eq_some dR (ix3 e b o) idxR _ fun a => ?_
    match a with
    | ⟨0, _⟩ =>
      show dR.start (ix3 e b o) idxR 0 + ((0 : Nat) : Int) = ((n0 + 1 : Nat) : Int)
      rw [startR e b o idxR 0 0 rfl, hR, wrapR_toInt _ h0.1]; omega
    | ⟨1, _⟩ =>
      show dR.start (ix3 e b o) idxR 1 + ((0 : Nat) : Int) = ((n1 + 1 : Nat) : Int)
      rw [startR e b o idxR 1 1 rfl, hR, wrapR_toInt _ h1.1]; omega
    | ⟨2, _⟩ =>
      show (0 : Int) + ((b.val : Nat) : Int) = ((b.val : Nat) : Int)
      omega
    | ⟨3, _⟩ =>
      show (0 : Int) + ((o.val : Nat) : Int) = ((o.val : Nat) : Int)
      omega
  rw [eK, eR]; rfl

/-- **The large scatter read through the shift is the small scatter.** With the grids they start from agreeing through
    the shift and the same updates, index by index. -/
theorem scatter_shift (xK : SK.Idx → EReal) (xR : SR.Idx → EReal) (hx : ∀ i, xR (φ i) = xK i)
    (updK updR : SU.Idx → EReal) (hu : ∀ u, updR u = updK u)
    (idxK idxR : IVec SI 32) (v : Fin 4096 → Fin 2 → BitVec 32)
    (hv : ∀ e j, 1 ≤ (v e j).toInt ∧ (v e j).toInt ≤ 384)
    (hK : ∀ e j, idxK (ix2 e j) = wrapNode (v e j)) (hR : ∀ e j, idxR (ix2 e j) = wrapR (v e j)) :
    ∀ i, Host.scatter dR (fun _ b => b) xR idxR updR (φ i) = Host.scatter dK (fun _ b => b) xK idxK updK i :=
  fun i => Idealize.ShloMosaic.LibScatterEmbed.scatter_embed' dK dR (fun _ b => b) xK xR idxK idxR updK updR φ φ_injective
    (resultIdx_shift idxK idxR v hv hK hR) hx hu i

end Cert.ScatterIdx
-- ==== Proof.KHost2Idx.lean ====
/-
  The triples the final gather reads, index by index: for edge e and batch b, the positions of the edge's two ends taken
  from table b of the node ids (each id less one, clamped below at 0, then passed through the wrap of a negative entry
  by 384), and the batch number b (passed through the wrap of a negative entry by 2), as the program's 32-bit integer
  operations compute them.
-/
import proofs.«178774_j58600533786747_2_alg».proof.Proof.KHost2

set_option maxRecDepth 16384

noncomputable section

namespace Cert.KHost

open Cert.KernelIdeal Cert.KernelIdeal.Gen
open Idealize.ShloMosaic Idealize.ShloMosaic.TcCoe
open Idealize.ShloMosaic.ValueIdx

variable (W : Valuation τ sig (Elt Ideal))

/-- A node id taken to its clamped position: the id less one, and 0 when that is negative (signed). -/
def clampNode (x : BitVec 32) : BitVec 32 := IntOp.maxsi (IntOp.subi x 1#32) 0#32

/-- A negative entry wrapped by `k` (signed compare with 0). -/
def wrapBy (k v : BitVec 32) : BitVec 32 := Scalar.select (IntOp.cmpi .slt v 0#32) (IntOp.addi v k) v

theorem POSK_apply (i : S2x4096x2.Idx) :
    POSK W i = clampNode ((W (Proc.devRef .tc main_arg2) : IVec S2x4096x2 32) i) := rfl

theorem WRAP2_apply (k : BitVec 32) (v : IVec S4096x2 32) (i : S4096x2.Idx) : WRAP2 k v i = wrapBy k (v i) := rfl

/-- Column `j` of the clamped positions, transposed to edge-by-batch. -/
theorem posCol_apply (j : Fin 2) (off : Fin 3 → Nat) (hoff : off = ![0, 0, j.val]) (hs : S2x4096x2.Slices off S2x4096x1)
    (e : Fin 4096) (b : Fin 2) :
    transpose S4096x2 [1, 0] (shapeCast S2x4096 (extractStridedSlice S2x4096x1 off (POSK W) hs)
        shapeCasts_S2x4096x1_S2x4096) transposes_S2x4096_S4096x2_1_0 (ix2 e b)
      = clampNode ((W (Proc.devRef .tc main_arg2) : IVec S2x4096x2 32) (ix3 b e j)) := by
  subst hoff
  refine (transpose_apply _ _ _ _ (ix2 b e) ?_).trans ((shapeCast_apply _ _ _ (ix3 b e (0 : Fin 1)) ?_).trans
    ((extractStridedSlice_apply _ _ _ _ (ix3 b e j) ?_).trans (POSK_apply W _)))
  · intro a; match a with | ⟨0, _⟩ => rfl | ⟨1, _⟩ => rfl
  · rw [Shape.rowMajor_val_three, Shape.rowMajor_val_two]
    show (b.val * 4096 + e.val) * 1 + 0 = b.val * 4096 + e.val
    omega
  · intro a; match a with
    | ⟨0, _⟩ => show b.val = 0 + b.val; omega
    | ⟨1, _⟩ => show e.val = 0 + e.val; omega
    | ⟨2, _⟩ => show j.val = j.val + 0; omega

/-- The first two components of a triple: the wrapped clamped positions of the two ends of edge e in table b. -/
theorem IDXG_apply_node (e : Fin 4096) (b : Fin 2) (j : Fin 2) (k : Fin 3) (hk : k.val = j.val) :
    IDXG W (ix3 e b k) = wrapBy 384#32 (clampNode ((W (Proc.devRef .tc main_arg2) : IVec S2x4096x2 32) (ix3 b e j))) := by
  unfold IDXG
  match j, k, hk with
  | ⟨0, _⟩, ⟨0, _⟩, _ =>
    refine (concatenate_apply_piece _ _ _ _ 0 (by show (0 : Nat) < 3; omega) S4096x2x1 _ rfl (by rfl) 0 (by rfl) (ix3 e b (0 : Fin 1)) ?_ (by rfl)).trans ?_
    · intro a ha; match a with
      | ⟨0, _⟩ => rfl
      | ⟨1, _⟩ => rfl
      | ⟨2, _⟩ => exact absurd rfl ha
    · refine (broadcastInDim_apply _ _ _ _ (ix2 e b) ?_).trans ?_
      · intro a; match a with | ⟨0, _⟩ => rfl | ⟨1, _⟩ => rfl
      · rw [WRAP2_apply]
        exact congrArg (wrapBy 384#32) (posCol_apply W 0 _ rfl _ e b)
  | ⟨1, _⟩, ⟨1, _⟩, _ =>
    refine (concatenate_apply_piece _ _ _ _ 1 (by show (1 : Nat) < 3; omega) S4096x2x1 _ rfl (by rfl) 1 (by rfl) (ix3 e b (0 : Fin 1)) ?_ (by rfl)).trans ?_
    · intro a ha; match a with
      | ⟨0, _⟩ => rfl
      | ⟨1, _⟩ => rfl
      | ⟨2, _⟩ => exact absurd rfl ha
    · refine (broadcastInDim_apply _ _ _ _ (ix2 e b) ?_).trans ?_
      · intro a; match a with | ⟨0, _⟩ => rfl | ⟨1, _⟩ => rfl
      · rw [WRAP2_apply]
        exact congrArg (wrapBy 384#32) (posCol_apply W 1 _ rfl _ e b)

/-- The third component of a triple: the batch number, passed through the wrap by 2. -/
theorem IDXG_apply_batch (e : Fin 4096) (b : Fin 2) :
    IDXG W (ix3 e b 2) = wrapBy 2#32 (BitVec.ofNat 32 b.val) := by
  unfold IDXG
  refine (concatenate_apply_piece _ _ _ _ 2 (by show (2 : Nat) < 3; omega) S4096x2x1 _ rfl (by rfl) 2 (by rfl) (ix3 e b (0 : Fin 1)) ?_ (by rfl)).trans ?_
  · intro a ha; match a with
    | ⟨0, _⟩ => rfl
    | ⟨1, _⟩ => rfl
    | ⟨2, _⟩ => exact absurd rfl ha
  · refine (broadcastInDim_apply _ _ _ _ (ix2 e b) ?_).trans ?_
    · intro a; match a with | ⟨0, _⟩ => rfl | ⟨1, _⟩ => rfl
    · rw [WRAP2_apply]
      refine congrArg (wrapBy 2#32) ?_
      refine (broadcastInDim_apply _ _ _ _ (ix2 (0 : Fin 1) b) ?_).trans ((broadcastInDim_apply _ _ _ _ (ix1 b) ?_).trans rfl)
      · intro a; match a with | ⟨0, _⟩ => rfl | ⟨1, _⟩ => rfl
      · intro a; match a with | ⟨0, _⟩ => rfl

end Cert.KHost
-- ==== Proof.GatherIdx.lean ====
/-
  The triples the final gather reads, in the reference program's spelling, and that they are the kernel program's.
  Both programs form, for edge e and batch b, the triple (position of end 0, position of end 1, batch) from the node ids
  by the same integer chain: the id (of table b) less one, clamped below at 0, a negative entry wrapped by 384; and the
  batch number, a negative entry wrapped by 2. They differ only in the order of two steps of the batch component (the
  reference wraps the two batch numbers and then repeats them along the edges, the kernel repeats and then wraps), which
  does not change any entry. So the two index arrays are equal, whatever the node ids are.
-/
import proofs.«178774_j58600533786747_2_alg».proof.Proof.Gen.ReferenceIdeal
import proofs.«178774_j58600533786747_2_alg».proof.Proof.KHost2Idx

set_option maxRecDepth 16384

noncomputable section

namespace Cert.GatherIdx

open Idealize.ShloMosaic Idealize.ShloMosaic.TcCoe Idealize.ShloMosaic.ValueIdx
open Cert.KHost (clampNode wrapBy)

section Ref
open Cert.ReferenceIdeal Cert.ReferenceIdeal.Gen

/-- The node ids less one, clamped below at 0 (signed), both tables. -/
def POSR (a2 : IVec S2x4096x2 32) : IVec S2x4096x2 32 :=
  maxsi (subi a2 (broadcastInDim S2x4096x2 ![] bcast_S_S2x4096x2 (constantI S_ 32 1#32)))
    (broadcastInDim S2x4096x2 ![] bcast_S_S2x4096x2 (constantI S_ 32 0#32))

/-- A negative entry wrapped by `k`, elementwise, on an edge-by-batch array. -/
def WRAPR (k : BitVec 32) (v : IVec S4096x2 32) : IVec S4096x2 32 :=
  select (cmpi .slt v (broadcastInDim S4096x2 ![] bcast_S_S4096x2 (constantI S_ 32 0#32)))
    (addi v (broadcastInDim S4096x2 ![] bcast_S_S4096x2 (constantI S_ 32 k))) v

/-- The two batch numbers, a negative one wrapped by 2. -/
def BATCHR : IVec S1x2 32 :=
  select (cmpi .slt (broadcastInDim S1x2 ![1] bcast_S2_S1x2_1 (iotaInDim S2 32 0)) (broadcastInDim S1x2 ![] bcast_S_S1x2 (constantI S_ 32 0#32)))
    (addi (broadcastInDim S1x2 ![1] bcast_S2_S1x2_1 (iotaInDim S2 32 0)) (broadcastInDim S1x2 ![] bcast_S_S1x2 (constantI S_ 32 2#32)))
    (broadcastInDim S1x2 ![1] bcast_S2_S1x2_1 (iotaInDim S2 32 0))

/-- The triples the reference's gather reads, as a function of the node-id array. -/
def IDXGR (a2 : IVec S2x4096x2 32) : IVec S4096x2x3 32 :=
  concatenate S4096x2x3 2
    [⟨S4096x2x1, broadcastInDim S4096x2x1 ![0, 1] bcast_S4096x2_S4096x2x1_0_1 (WRAPR 384#32
        (transpose S4096x2 [1, 0] (shapeCast S2x4096 (extractStridedSlice S2x4096x1 ![0, 0, 0] (POSR a2) slices_S2x4096x2_S2x4096x1_0_0_0)
          shapeCasts_S2x4096x1_S2x4096) transposes_S2x4096_S4096x2_1_0))⟩,
     ⟨S4096x2x1, broadcastInDim S4096x2x1 ![0, 1] bcast_S4096x2_S4096x2x1_0_1 (WRAPR 384#32
        (transpose S4096x2 [1, 0] (shapeCast S2x4096 (extractStridedSlice S2x4096x1 ![0, 0, 1] (POSR a2) slices_S2x4096x2_S2x4096x1_0_0_1)
          shapeCasts_S2x4096x1_S2x4096) transposes_S2x4096_S4096x2_1_0))⟩,
     ⟨S4096x2x1, broadcastInDim S4096x2x1 ![0, 1] bcast_S4096x2_S4096x2x1_0_1
        (broadcastInDim S4096x2 ![0, 1] bcast_S1x2_S4096x2_0_1 BATCHR)⟩]
    concatenates_S4096x2x1_S4096x2x1_S4096x2x1_S4096x2x3_d2

theorem POSR_apply (a2 : IVec S2x4096x2 32) (i : S2x4096x2.Idx) : POSR a2 i = clampNode (a2 i) := rfl

theorem WRAPR_apply (k : BitVec 32) (v : IVec S4096x2 32) (i : S4096x2.Idx) : WRAPR k v i = wrapBy k (v i) := rfl

theorem BATCHR_apply (b : Fin 2) : BATCHR (ix2 (0 : Fin 1) b) = wrapBy 2#32 (BitVec.ofNat 32 b.val) := by
  have h : broadcastInDim S1x2 ![1] bcast_S2_S1x2_1 (iotaInDim S2 32 0) (ix2 (0 : Fin 1) b) = BitVec.ofNat 32 b.val :=
    (broadcastInDim_apply _ _ _ _ (ix1 b) (by intro a; match a with | ⟨0, _⟩ => rfl)).trans rfl
  show wrapBy 2#32 (broadcastInDim S1x2 ![1] bcast_S2_S1x2_1 (iotaInDim S2 32 0) (ix2 (0 : Fin 1) b)) = _
  rw [h]

/-- Column `j` of the clamped positions, transposed to edge-by-batch. -/
theorem posColR_apply (a2 : IVec S2x4096x2 32) (j : Fin 2) (off : Fin 3 → Nat) (hoff : off = ![0, 0, j.val])
    (hs : S2x4096x2.Slices off S2x4096x1) (e : Fin 4096) (b : Fin 2) :
    transpose S4096x2 [1, 0] (shapeCast S2x4096 (extractStridedSlice S2x4096x1 off (POSR a2) hs)
        shapeCasts_S2x4096x1_S2x4096) transposes_S2x4096_S4096x2_1_0 (ix2 e b)
      = clampNode (a2 (ix3 b e j)) := by
  subst hoff
  refine (transpose_apply _ _ _ _ (ix2 b e) ?_).trans ((shapeCast_apply _ _ _ (ix3 b e (0 : Fin 1)) ?_).trans
    ((extractStridedSlice_apply _ _ _ _ (ix3 b e j) ?_).trans (POSR_apply a2 _)))
  · intro a; match a with | ⟨0, _⟩ => rfl | ⟨1, _⟩ => rfl
  · rw [Shape.rowMajor_val_three, Shape.rowMajor_val_two]
    show (b.val * 4096 + e.val) * 1 + 0 = b.val * 4096 + e.val
    omega
  · intro a; match a with
    | ⟨0, _⟩ => show b.val = 0 + b.val; omega
    | ⟨1, _⟩ => show e.val = 0 + e.val; omega
    | ⟨2, _⟩ => show j.val = j.val + 0; omega

/-- The first two components of a reference triple: the wrapped clamped positions of the two ends of edge e in table b. -/
theorem IDXGR_apply_node (a2 : IVec S2x4096x2 32) (e : Fin 4096) (b : Fin 2) (j : Fin 2) (k : Fin 3) (hk : k.val = j.val) :
    IDXGR a2 (ix3 e b k) = wrapBy 384#32 (clampNode (a2 (ix3 b e j))) := by
  unfold IDXGR
  match j, k, hk with
  | ⟨0, _⟩, ⟨0, _⟩, _ =>
    refine (concatenate_apply_piece _ _ _ _ 0 (by show (0 : Nat) < 3; omega) S4096x2x1 _ rfl (by rfl) 0 (by rfl) (ix3 e b (0 : Fin 1)) ?_ (by rfl)).trans ?_
    · intro a ha; match a with
      | ⟨0, _⟩ => rfl
      | ⟨1, _⟩ => rfl
      | ⟨2, _⟩ => exact absurd rfl ha
    · refine (broadcastInDim_apply _ _ _ _ (ix2 e b) ?_).trans ?_
      · intro a; match a with | ⟨0, _⟩ => rfl | ⟨1, _⟩ => rfl
      · rw [WRAPR_apply]
        exact congrArg (wrapBy 384#32) (posColR_apply a2 0 _ rfl _ e b)
  | ⟨1, _⟩, ⟨1, _⟩, _ =>
    refine (concatenate_apply_piece _ _ _ _ 1 (by show (1 : Nat) < 3; omega) S4096x2x1 _ rfl (by rfl) 1 (by rfl) (ix3 e b (0 : Fin 1)) ?_ (by rfl)).trans ?_
    · intro a ha; match a with
      | ⟨0, _⟩ => rfl
      | ⟨1, _⟩ => rfl
      | ⟨2, _⟩ => exact absurd rfl ha
    · refine (broadcastInDim_apply _ _ _ _ (ix2 e b) ?_).trans ?_
      · intro a; match a with | ⟨0, _⟩ => rfl | ⟨1, _⟩ => rfl
      · rw [WRAPR_apply]
        exact congrArg (wrapBy 384#32) (posColR_apply a2 1 _ rfl _ e b)

/-- The third component of a reference triple: the batch number, passed through the wrap by 2. -/
theorem IDXGR_apply_batch (a2 : IVec S2x4096x2 32) (e : Fin 4096) (b : Fin 2) :
    IDXGR a2 (ix3 e b 2) = wrapBy 2#32 (BitVec.ofNat 32 b.val) := by
  unfold IDXGR
  refine (concatenate_apply_piece _ _ _ _ 2 (by show (2 : Nat) < 3; omega) S4096x2x1 _ rfl (by rfl) 2 (by rfl) (ix3 e b (0 : Fin 1)) ?_ (by rfl)).trans ?_
  · intro a ha; match a with
    | ⟨0, _⟩ => rfl
    | ⟨1, _⟩ => rfl
    | ⟨2, _⟩ => exact absurd rfl ha
  · refine (broadcastInDim_apply _ _ _ _ (ix2 e b) ?_).trans ((broadcastInDim_apply _ _ _ _ (ix2 (0 : Fin 1) b) ?_).trans (BATCHR_apply b))
    · intro a; match a with | ⟨0, _⟩ => rfl | ⟨1, _⟩ => rfl
    · intro a; match a with | ⟨0, _⟩ => rfl | ⟨1, _⟩ => rfl

end Ref

/-- **The two programs' gather triples are the same array**: the kernel program's, formed from its node-id buffer, is the
    reference's chain applied to that buffer's contents. -/
theorem IDXG_eq (W : Valuation Cert.KernelIdeal.τ Cert.KernelIdeal.sig (Elt Ideal)) :
    Cert.KHost.IDXG W = IDXGR (W (Proc.devRef .tc Cert.KernelIdeal.main_arg2) : IVec Cert.KernelIdeal.S2x4096x2 32) := by
  funext i
  obtain ⟨e, b, k, rfl⟩ : ∃ (e : Fin 4096) (b : Fin 2) (k : Fin 3), i = ix3 e b k := ⟨i 0, i 1, i 2, eq_ix3 i⟩
  match k with
  | ⟨0, _⟩ => exact (Cert.KHost.IDXG_apply_node W e b 0 0 rfl).trans (IDXGR_apply_node _ e b 0 0 rfl).symm
  | ⟨1, _⟩ => exact (Cert.KHost.IDXG_apply_node W e b 1 1 rfl).trans (IDXGR_apply_node _ e b 1 1 rfl).symm
  | ⟨2, _⟩ => exact (Cert.KHost.IDXG_apply_batch W e b).trans (IDXGR_apply_batch _ e b).symm

end Cert.GatherIdx
-- ==== Proof.GatherIdxRef.lean ====
/-
  The reference program's gather, joined to the names used on the kernel's side: the triple array that the reference's
  stage-by-stage reading builds is the array `IDXGR` of the node ids, and the two programs' gathers are described by
  one and the same dimension record (offset axis 2; the operand's three leading axes collapsed and indexed by the
  triple; slices of one row of 128).
-/
import proofs.«178774_j58600533786747_2_alg».proof.Proof.GatherIdx
import proofs.«178774_j58600533786747_2_alg».proof.Proof.RefReadP0

set_option maxRecDepth 16384

noncomputable section

namespace Cert.GatherIdx

open Idealize.ShloMosaic Idealize.ShloMosaic.TcCoe Idealize.ShloMosaic.ValueIdx

/-- The reference's triple array, read stage by stage, is `IDXGR` of the node ids. -/
theorem val_main_v70_eq (x2 : IVec Cert.ReferenceIdeal.S2x4096x2 32) :
    Cert.ReferenceIdeal.ReadP.val_main_v70 (F := Ideal) x2 = IDXGR x2 := rfl

variable [Cert.KernelIdeal.Facts₀] [Cert.ReferenceIdeal.Facts₀]

/-- The two programs' gathers have the same dimension record. -/
theorem gather_dims_eq :
    (Cert.KernelIdeal.gather_S384x384x2x128_S4096x2x3_S4096x2x128_2_012_n_n_012_2_111128
      : GatherDims (⟨4, ![384, 384, 2, 128]⟩ : Shape) (⟨3, ![4096, 2, 3]⟩ : Shape) (⟨3, ![4096, 2, 128]⟩ : Shape))
      = Cert.ReferenceIdeal.gather_S384x384x2x128_S4096x2x3_S4096x2x128_2_012_n_n_012_2_111128 := rfl

end Cert.GatherIdx
-- ==== Proof.BridgeBits.lean ====
/-
  Small facts that join the two programs' arithmetic: a mean over four terms as the reference writes it (the sum from
  zero, divided by 4) against the kernel's running sum times one quarter — equal for every extended-real terms, since
  dividing by the real 4 is multiplying by the real 1/4 and sums of extended reals are associative —, that multiplying by
  the float word of 1 changes nothing, and the kernel's second result with its row axis split back into node pair and batch.
-/
import proofs.«178774_j58600533786747_2_alg».proof.Proof.KHost2
import Idealize.ShloMosaic.PureOps.Ideal

set_option maxRecDepth 16384

noncomputable section

namespace Cert.BridgeBits

open Idealize.ShloMosaic Idealize.ShloMosaic.TcCoe Idealize.ShloMosaic.ValueIdx

/-- The word `0x40800000` denotes the real 4. -/
theorem ofBits_four : Ideal.ofBits .f32 0x40800000#32 = ((4 : ℝ) : EReal) := by
  simp [Ideal.ofBits, Ideal.ieee, -EReal.coe_mul]; norm_num

/-- The word `0x3E800000` denotes the real 1/4. -/
theorem ofBits_quarter : Ideal.ofBits .f32 0x3E800000#32 = ((1 / 4 : ℝ) : EReal) := by
  simp [Ideal.ofBits, Ideal.ieee, -EReal.coe_mul]; norm_num

/-- The word `0x3F800000` denotes 1. -/
theorem ofBits_one : Ideal.ofBits .f32 0x3F800000#32 = 1 := by
  simp [Ideal.ofBits, Ideal.ieee, -EReal.coe_mul]; norm_num

/-- **The mean of four terms, both spellings**: the sum from the zero word divided by the word of 4 is the running sum
    from the zero word times the word of 1/4 — for every extended-real terms. -/
theorem mean_four (f : Fin 4 → EReal) :
    Ideal.div (Ideal.ofBits .f32 0x00000000#32 + ∑ t : Fin 4, f t) (Ideal.ofBits .f32 0x40800000#32)
      = ((((Ideal.ofBits .f32 0x00000000#32 + f 0) + f 1) + f 2) + f 3) * Ideal.ofBits .f32 0x3E800000#32 := by
  rw [ofBits_four, ofBits_quarter, Ideal.div_coe (by norm_num : (4 : ℝ) ≠ 0), Fin.sum_univ_four]
  simp only [add_assoc]

/-- Multiplying by the word of 1 changes nothing. -/
theorem one_word_mul (x : EReal) : Ideal.ofBits .f32 0x3F800000#32 * x = x := by
  rw [ofBits_one, one_mul]

section
open Cert.KernelIdeal Cert.KernelIdeal.Gen
variable (W : Valuation τ sig (Elt Ideal))

/-- The second kernel's result split back to four axes, read at an index: (n, m, b) is row `(n·384+m)·2+b`. -/
theorem v41_split_apply (n mm : Fin 384) (b : Fin 2) (R : Fin 294912) (hR : R.val = (n.val * 384 + mm.val) * 2 + b.val) (o : Fin 128) :
    shapeCast S384x384x2x128 (W (Proc.devRef .tc main_v41) : FVec Ideal S294912x128 .f32) shapeCasts_S294912x128_S384x384x2x128 (ix4 n mm b o)
      = (W (Proc.devRef .tc main_v41) : FVec Ideal S294912x128 .f32) (ix2 R o) := by
  refine shapeCast_apply _ _ _ (ix2 R o) ?_
  rw [Shape.rowMajor_val_four, Shape.rowMajor_val_two]
  show R.val * 128 + o.val = ((n.val * 384 + mm.val) * 2 + b.val) * 128 + o.val
  omega

/-- What the last stretch leaves in the split buffer: that reshape of the second kernel's result. -/
theorem v42_eq :
    (StableHlo.after (hostOps2 (F := Ideal)) W (Proc.devRef .tc main_v42) : FVec Ideal S384x384x2x128 .f32)
      = shapeCast S384x384x2x128 (W (Proc.devRef .tc main_v41) : FVec Ideal S294912x128 .f32) shapeCasts_S294912x128_S384x384x2x128 := by
  after_results; first | done | rfl

end

end Cert.BridgeBits
-- ==== Proof.Bridge.lean ====
/-
  The two programs' results are equal entry by entry. The second result: both are the feature-layer map of the
  concatenated-linear map of the same row, the kernel's with the 2D-wide contraction already split in its two halves;
  the second half reads the scattered grid, and the two scattered grids agree entry by entry — the padded grid at
  (n+1, mm+1) is the unpadded one at (n, mm) — because they start from the same scalar, take the same updates (the
  mean: four projections summed from zero and divided by four, or multiplied by a quarter) and, for node ids in [1, N],
  every update lands at corresponding places. The first result: the same projection plus the same row gathered from
  the second result at the same index triple.
-/
import proofs.«178774_j58600533786747_2_alg».proof.Proof.IdealResults
import proofs.«178774_j58600533786747_2_alg».proof.Proof.RefForm
import proofs.«178774_j58600533786747_2_alg».proof.Proof.ScatterIdx
import proofs.«178774_j58600533786747_2_alg».proof.Proof.GatherIdxRef
import proofs.«178774_j58600533786747_2_alg».proof.Proof.BridgeBits

set_option maxRecDepth 16384

noncomputable section

namespace Cert.Bridge

open Cert.KernelIdeal Cert.KernelIdeal.Gen Cert.KernelIdeal.Run Cert.KernelIdeal.Res Cert.KHost
open Cert.ReferenceIdeal.ReadP
open Idealize.ShloMosaic Idealize.ShloMosaic.TcCoe Idealize.SL.Sem
open Idealize.ShloMosaic.ValueIdx

variable (m : (ℓ : Loc nD τ sig) → Buf (Elt Ideal) ℓ) (c : Dev nD)

/-- What the precondition and the reference's index chain give: the node range, and the reference's scatter indices at an entry. -/
structure Owed : Prop where
  hnodes : ∀ (b : Fin 2) (e : Fin 4096) (j : Fin 2), 1 ≤ (a2 m c (ix3 b e j)).toInt ∧ (a2 m c (ix3 b e j)).toInt ≤ 384
  h27 : ∀ (e : Fin 4096) (j : Fin 2), val_main_v27 (F := Ideal) (a2 m c) (ix2 e j) = Cert.ScatterIdx.wrapR (a2 m c (ix3 0 e j))

variable (H : Owed m c)
include H

/-- The reference's mean is the kernel's. -/
theorem mean_eq (e : Fin 4096) (b : Fin 2) (o : Fin 128) :
    val_main_v6 (F := Ideal) (a0 m c) (a6 m c) (a7 m c) (ix3 e b o) = xmK m c e b o := by
  rw [Cert.RefForm.xmean, Cert.BridgeBits.mean_four]
  unfold xmK xp
  rw [Cert.RefForm.xproj, Cert.RefForm.xproj, Cert.RefForm.xproj, Cert.RefForm.xproj]

/-- The two scattered grids agree: the padded one at (n+1, mm+1) is the unpadded one at (n, mm). -/
theorem scatter_eq (n mm : Fin 384) (b : Fin 2) (k : Fin 128) :
    SCK (W2 m c) (ix4 n mm b k)
      = val_main_v28 (F := Ideal) (a0 m c) (a2 m c) (a5 m c) (a6 m c) (a7 m c) (ix4 (Cert.RefForm.up n) (Cert.RefForm.up mm) b k) := by
  unfold SCK val_main_v28
  refine (Cert.ScatterIdx.scatter_shift (PADK (W2 m c)) (val_main_v10 (F := Ideal) (a5 m c)) ?hx (UPDK (W2 m c))
    (val_main_v6 (F := Ideal) (a0 m c) (a6 m c) (a7 m c)) ?hu (IDXK (W2 m c)) (val_main_v27 (F := Ideal) (a2 m c))
    (fun e j => a2 m c (ix3 0 e j)) (fun e j => H.hnodes 0 e j) (IDXK_eq m c) H.h27 (ix4 n mm b k)).symm
  case hx =>
    intro i
    rw [Cert.RefForm.padgrid, Cert.BridgeBits.one_word_mul]
    obtain ⟨n', mm', b', k', rfl⟩ : ∃ (n' mm' : Fin 384) (b' : Fin 2) (k' : Fin 128), i = ix4 n' mm' b' k' := ⟨i 0, i 1, i 2, i 3, eq_ix4 i⟩
    exact (PADK_eq m c n' mm' b' k').symm
  case hu =>
    intro u
    obtain ⟨e, b', o, rfl⟩ : ∃ (e : Fin 4096) (b' : Fin 2) (o : Fin 128), u = ix3 e b' o := ⟨u 0, u 1, u 2, eq_ix3 u⟩
    rw [UPDK_eq]
    exact mean_eq m c H e b' o

/-- THE SECOND RESULTS AGREE. -/
theorem featsout_eq (n mm : Fin 384) (b : Fin 2) (o : Fin 128) :
    foK m c n mm b o
      = val_main_v38 (F := Ideal) (a0 m c) (a1 m c) (a2 m c) (a5 m c) (a6 m c) (a7 m c) (a8 m c) (a9 m c) (a10 m c) (a11 m c) (ix4 n mm b o) := by
  rw [Cert.RefForm.feats_out_formula]
  unfold foK
  refine congrArg₂ (· + ·) (Finset.sum_congr rfl fun d _ => congrArg₂ (· * ·) (congrArg₂ (· + ·) (congrArg₂ (· + ·) rfl
    (Finset.sum_congr rfl fun k _ => congrArg₂ (· * ·) (scatter_eq m c H n mm b k) rfl)) rfl) rfl) rfl

/-- The kernel's gathered rows are the reference's: the same index triples into second results that agree. -/
theorem gathered_eq (e : Fin 4096) (b : Fin 2) (o : Fin 128) :
    GAK (W4 m c) (ix3 e b o)
      = val_main_v71 (F := Ideal) (a0 m c) (a1 m c) (a2 m c) (a5 m c) (a6 m c) (a7 m c) (a8 m c) (a9 m c) (a10 m c) (a11 m c) (ix3 e b o) := by
  rw [Cert.RefForm.gathered_def]
  unfold GAK
  rw [Cert.GatherIdx.IDXG_eq, Cert.GatherIdx.val_main_v70_eq]
  have hidx : (W4 m c (Proc.devRef .tc main_arg2) : IVec S2x4096x2 32) = a2 m c := W4_arg2 m c
  rw [hidx]
  unfold Host.gather
  rw [Cert.GatherIdx.gather_dims_eq]
  generalize (Cert.ReferenceIdeal.gather_S384x384x2x128_S4096x2x3_S4096x2x128_2_012_n_n_012_2_111128).operandIdx (ix3 e b o) (Cert.GatherIdx.IDXGR (a2 m c)) = i
  obtain ⟨n, mm, b', o', rfl⟩ : ∃ (n mm : Fin 384) (b' : Fin 2) (o' : Fin 128), i = ix4 n mm b' o' := ⟨i 0, i 1, i 2, i 3, eq_ix4 i⟩
  refine (Cert.BridgeBits.v41_split_apply (W4 m c) n mm b' ⟨(n.val * 384 + mm.val) * 2 + b'.val, by omega⟩ rfl o').trans ?_
  exact (featK m c n mm b' _ rfl o').trans (featsout_eq m c H n mm b' o')

/-- THE FIRST RESULTS AGREE. -/
theorem xfinal_eq (t : Fin 4) (e : Fin 4096) (b : Fin 2) (o : Fin 128) :
    xp m c t e b o + GAK (W4 m c) (ix3 e b o)
      = val_main_v74 (F := Ideal) (a0 m c) (a1 m c) (a2 m c) (a5 m c) (a6 m c) (a7 m c) (a8 m c) (a9 m c) (a10 m c) (a11 m c) (ix4 t e b o) := by
  rw [Cert.RefForm.x_final, Cert.RefForm.xproj, ← gathered_eq m c H e b o]
  rfl

end Cert.Bridge

end
-- ==== Proof.RefRunFast.lean ====
/- The reference's run, read stretch by stretch.

   The reference's body is a straight line of 90 host operations, each writing one buffer of its own from buffers written before it.
   Running the line from a memory leaves every buffer at the fold of the operations' results over the launch contents. Read as ONE
   composed term of the arguments the two results are deep (the node array alone is read some twenty times); read stretch by
   stretch they are not: the line is cut into six stretches, each stretch is read from an ARBITRARY valuation — its result buffers
   are the stages `val_main_vN` of the arguments provided the few buffers it reads are — and the stretches are chained by
   transitivity. An operation that joins arrays end to end opens its stretch, so that its operands are entries of the valuation
   the stretch starts from. That no operation writes an argument is read off the references' indices: the arguments are the
   references 0 to 11, and every operation writes one reference of index 12 or more. -/
import proofs.«178774_j58600533786747_2_alg».proof.Proof.RefRunP0
import proofs.«178774_j58600533786747_2_alg».proof.Proof.RefReadP0

noncomputable section

namespace Cert.RefRunFast

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The result of an operation with three literal operand references, each operand's contents read at its own reference
    (the library states this for four operands). -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-! ## The six stretches of the line

The 90 operations fall into six stretches, each reading only a few of the buffers written before it: operations 0–13 write the
projected edge features, their time mean and the padded grid; 14–33 the two columns of the scatter's index pairs; 34–36 join the
columns, scatter and drop row and column 0; 37–45 join the node features with the grid and apply the two linear layers; 46–84
compute the three columns of the gather's index triples; 85–89 join them, gather and add. Each stretch is read by itself from an
arbitrary valuation, so no term is ever deeper than one stretch. A joining operation opens its stretch: its operands are then
entries of the valuation the stretch starts from. -/

/-- Operations 0–13. -/
abbrev LA : List (HloOp τ sig (Elt F)) := (ops (F := F)).take 14
/-- Operations 14–33. -/
abbrev LB : List (HloOp τ sig (Elt F)) := ((ops (F := F)).drop 14).take 20
/-- Operations 34–36. -/
abbrev LC : List (HloOp τ sig (Elt F)) := ((ops (F := F)).drop 34).take 3
/-- Operations 37–45. -/
abbrev LD : List (HloOp τ sig (Elt F)) := ((ops (F := F)).drop 37).take 9
/-- Operations 46–84. -/
abbrev LE : List (HloOp τ sig (Elt F)) := ((ops (F := F)).drop 46).take 39
/-- Operations 85–89. -/
abbrev LG : List (HloOp τ sig (Elt F)) := (ops (F := F)).drop 85

/-- The line is its six stretches end to end. -/
theorem ops_split : (ops (F := F)) = LA ++ (LB ++ (LC ++ (LD ++ (LE ++ LG)))) := rfl

/-- After operations 0–13: the projection, its time mean and the padded grid are their stages of the arguments; the arguments read
    later are untouched. -/
theorem stageA (V : Valuation τ sig (Elt F)) :
    after (LA (F := F)) V (Proc.devRef .tc main_v3) = val_main_v3 (F := F) (V (Proc.devRef .tc main_arg0)) (V (Proc.devRef .tc main_arg6)) (V (Proc.devRef .tc main_arg7))
    ∧ after (LA (F := F)) V (Proc.devRef .tc main_v6) = val_main_v6 (F := F) (V (Proc.devRef .tc main_arg0)) (V (Proc.devRef .tc main_arg6)) (V (Proc.devRef .tc main_arg7))
    ∧ after (LA (F := F)) V (Proc.devRef .tc main_v10) = val_main_v10 (F := F) (V (Proc.devRef .tc main_arg5))
    ∧ after (LA (F := F)) V (Proc.devRef .tc main_arg1) = V (Proc.devRef .tc main_arg1)
    ∧ after (LA (F := F)) V (Proc.devRef .tc main_arg2) = V (Proc.devRef .tc main_arg2)
    ∧ after (LA (F := F)) V (Proc.devRef .tc main_arg8) = V (Proc.devRef .tc main_arg8)
    ∧ after (LA (F := F)) V (Proc.devRef .tc main_arg9) = V (Proc.devRef .tc main_arg9)
    ∧ after (LA (F := F)) V (Proc.devRef .tc main_arg10) = V (Proc.devRef .tc main_arg10)
    ∧ after (LA (F := F)) V (Proc.devRef .tc main_arg11) = V (Proc.devRef .tc main_arg11) := by
  simp only [LA, ops, List.take_succ_cons, List.take_zero, List.drop_succ_cons, List.drop_zero]
  refine ⟨?_, ?_, ?_, ?_, ?_, ?_, ?_, ?_, ?_⟩ <;> after_results_simp <;> rfl

/-- After operations 14–33: the two columns of the scatter's index pairs are their stages of the node array. -/
theorem stageB (V : Valuation τ sig (Elt F)) (x2 : (⟨S2x4096x2, .i32⟩ : BufTy).Contents (Elt F)) (h2 : V (Proc.devRef .tc main_arg2) = x2) :
    after (LB (F := F)) V (Proc.devRef .tc main_v25) = val_main_v25 (F := F) x2
    ∧ after (LB (F := F)) V (Proc.devRef .tc main_v26) = val_main_v26 (F := F) x2
    ∧ after (LB (F := F)) V (Proc.devRef .tc main_v3) = V (Proc.devRef .tc main_v3)
    ∧ after (LB (F := F)) V (Proc.devRef .tc main_v6) = V (Proc.devRef .tc main_v6)
    ∧ after (LB (F := F)) V (Proc.devRef .tc main_v10) = V (Proc.devRef .tc main_v10)
    ∧ after (LB (F := F)) V (Proc.devRef .tc main_arg1) = V (Proc.devRef .tc main_arg1)
    ∧ after (LB (F := F)) V (Proc.devRef .tc main_arg2) = V (Proc.devRef .tc main_arg2)
    ∧ after (LB (F := F)) V (Proc.devRef .tc main_arg8) = V (Proc.devRef .tc main_arg8)
    ∧ after (LB (F := F)) V (Proc.devRef .tc main_arg9) = V (Proc.devRef .tc main_arg9)
    ∧ after (LB (F := F)) V (Proc.devRef .tc main_arg10) = V (Proc.devRef .tc main_arg10)
    ∧ after (LB (F := F)) V (Proc.devRef .tc main_arg11) = V (Proc.devRef .tc main_arg11) := by
  simp only [LB, ops, List.take_succ_cons, List.take_zero, List.drop_succ_cons, List.drop_zero]
  refine ⟨?_, ?_, ?_, ?_, ?_, ?_, ?_, ?_, ?_, ?_, ?_⟩
  · after_results_simp
    rw [h2]; rfl
  · after_results_simp
    rw [h2]; rfl
  all_goals after_results_simp

/-- After operations 34–36: the grid of nodes is its stage of the arguments, given the two index columns, the padded grid and the
    time mean. -/
theorem stageC (V : Valuation τ sig (Elt F)) (x0 : (⟨S4x4096x2x128, .f32⟩ : BufTy).Contents (Elt F)) (x2 : (⟨S2x4096x2, .i32⟩ : BufTy).Contents (Elt F)) (x5 : (⟨S1, .f32⟩ : BufTy).Contents (Elt F)) (x6 : (⟨S128x128, .f32⟩ : BufTy).Contents (Elt F)) (x7 : (⟨S128, .f32⟩ : BufTy).Contents (Elt F))
    (h25 : V (Proc.devRef .tc main_v25) = val_main_v25 (F := F) x2) (h26 : V (Proc.devRef .tc main_v26) = val_main_v26 (F := F) x2)
    (h10 : V (Proc.devRef .tc main_v10) = val_main_v10 (F := F) x5) (h6 : V (Proc.devRef .tc main_v6) = val_main_v6 (F := F) x0 x6 x7) :
    after (LC (F := F)) V (Proc.devRef .tc main_v29) = val_main_v29 (F := F) x0 x2 x5 x6 x7
    ∧ after (LC (F := F)) V (Proc.devRef .tc main_v3) = V (Proc.devRef .tc main_v3)
    ∧ after (LC (F := F)) V (Proc.devRef .tc main_arg1) = V (Proc.devRef .tc main_arg1)
    ∧ after (LC (F := F)) V (Proc.devRef .tc main_arg2) = V (Proc.devRef .tc main_arg2)
    ∧ after (LC (F := F)) V (Proc.devRef .tc main_arg8) = V (Proc.devRef .tc main_arg8)
    ∧ after (LC (F := F)) V (Proc.devRef .tc main_arg9) = V (Proc.devRef .tc main_arg9)
    ∧ after (LC (F := F)) V (Proc.devRef .tc main_arg10) = V (Proc.devRef .tc main_arg10)
    ∧ after (LC (F := F)) V (Proc.devRef .tc main_arg11) = V (Proc.devRef .tc main_arg11) := by
  simp only [LC, ops, List.take_succ_cons, List.take_zero, List.drop_succ_cons, List.drop_zero]
  refine ⟨?_, ?_, ?_, ?_, ?_, ?_, ?_, ?_⟩
  · after_results_simp
    rw [h25, h26, h10, h6]; rfl
  all_goals after_results_simp

/-- After operations 37–45: the node result is its stage of the arguments, given the grid of nodes. -/
theorem stageD (V : Valuation τ sig (Elt F)) (x0 : (⟨S4x4096x2x128, .f32⟩ : BufTy).Contents (Elt F)) (x1 : (⟨S384x384x2x128, .f32⟩ : BufTy).Contents (Elt F)) (x2 : (⟨S2x4096x2, .i32⟩ : BufTy).Contents (Elt F)) (x5 : (⟨S1, .f32⟩ : BufTy).Contents (Elt F)) (x6 : (⟨S128x128, .f32⟩ : BufTy).Contents (Elt F)) (x7 : (⟨S128, .f32⟩ : BufTy).Contents (Elt F)) (x8 : (⟨S128x256, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F))
    (h29 : V (Proc.devRef .tc main_v29) = val_main_v29 (F := F) x0 x2 x5 x6 x7)
    (h1 : V (Proc.devRef .tc main_arg1) = x1) (h8 : V (Proc.devRef .tc main_arg8) = x8) (h9 : V (Proc.devRef .tc main_arg9) = x9)
    (ha : V (Proc.devRef .tc main_arg10) = x10) (hb : V (Proc.devRef .tc main_arg11) = x11) :
    after (LD (F := F)) V (Proc.devRef .tc main_v38) = val_main_v38 (F := F) x0 x1 x2 x5 x6 x7 x8 x9 x10 x11
    ∧ after (LD (F := F)) V (Proc.devRef .tc main_v3) = V (Proc.devRef .tc main_v3)
    ∧ after (LD (F := F)) V (Proc.devRef .tc main_arg2) = V (Proc.devRef .tc main_arg2) := by
  simp only [LD, ops, List.take_succ_cons, List.take_zero, List.drop_succ_cons, List.drop_zero]
  refine ⟨?_, ?_, ?_⟩
  · after_results_simp
    rw [h29, h1, h8, h9, ha, hb]; rfl
  all_goals after_results_simp

/-- After operations 46–84: the three columns of the gather's index triples are their stages of the node array. -/
theorem stageE (V : Valuation τ sig (Elt F)) (x2 : (⟨S2x4096x2, .i32⟩ : BufTy).Contents (Elt F)) (h2 : V (Proc.devRef .tc main_arg2) = x2) :
    after (LE (F := F)) V (Proc.devRef .tc main_v67) = val_main_v67 (F := F) x2
    ∧ after (LE (F := F)) V (Proc.devRef .tc main_v68) = val_main_v68 (F := F) x2
    ∧ after (LE (F := F)) V (Proc.devRef .tc main_v69) = val_main_v69 (F := F)
    ∧ after (LE (F := F)) V (Proc.devRef .tc main_v3) = V (Proc.devRef .tc main_v3)
    ∧ after (LE (F := F)) V (Proc.devRef .tc main_v38) = V (Proc.devRef .tc main_v38) := by
  simp only [LE, ops, List.take_succ_cons, List.take_zero, List.drop_succ_cons, List.drop_zero]
  refine ⟨?_, ?_, ?_, ?_, ?_⟩
  · after_results_simp
    rw [h2]; rfl
  · after_results_simp
    rw [h2]; rfl
  · after_results_simp
    rfl
  all_goals after_results_simp

/-- After operations 85–89: the edge result is its stage of the arguments, given the projection, the node result and the three
    index columns. -/
theorem stageG (V : Valuation τ sig (Elt F)) (x0 : (⟨S4x4096x2x128, .f32⟩ : BufTy).Contents (Elt F)) (x1 : (⟨S384x384x2x128, .f32⟩ : BufTy).Contents (Elt F)) (x2 : (⟨S2x4096x2, .i32⟩ : BufTy).Contents (Elt F)) (x5 : (⟨S1, .f32⟩ : BufTy).Contents (Elt F)) (x6 : (⟨S128x128, .f32⟩ : BufTy).Contents (Elt F)) (x7 : (⟨S128, .f32⟩ : BufTy).Contents (Elt F)) (x8 : (⟨S128x256, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F))
    (h3 : V (Proc.devRef .tc main_v3) = val_main_v3 (F := F) x0 x6 x7)
    (h38 : V (Proc.devRef .tc main_v38) = val_main_v38 (F := F) x0 x1 x2 x5 x6 x7 x8 x9 x10 x11)
    (h67 : V (Proc.devRef .tc main_v67) = val_main_v67 (F := F) x2) (h68 : V (Proc.devRef .tc main_v68) = val_main_v68 (F := F) x2)
    (h69 : V (Proc.devRef .tc main_v69) = val_main_v69 (F := F)) :
    after (LG (F := F)) V (Proc.devRef .tc main_v74) = val_main_v74 (F := F) x0 x1 x2 x5 x6 x7 x8 x9 x10 x11
    ∧ after (LG (F := F)) V (Proc.devRef .tc main_v38) = V (Proc.devRef .tc main_v38) := by
  simp only [LG, ops, List.take_succ_cons, List.take_zero, List.drop_succ_cons, List.drop_zero]
  refine ⟨?_, ?_⟩
  · simp (disch := decide) only [after_cons, after_nil, nullary_result', unary_result', binary_result', ternary_result', reshape_result', nary3_result', nullary_result_ne', unary_result_ne', binary_result_ne', ternary_result_ne', reshape_result_ne', nary_result_ne']
    rw [h3, h38, h67, h68, h69]; rfl
  all_goals after_results_simp

/-! ## The arguments are kept

The twelve arguments are the references of index 0 to 11; every operation writes one reference, of index 12 or more. -/

/-- Every buffer the operation writes is a reference of index at least `n`. -/
def WritesFrom (n : Nat) (op : HloOp τ sig (Elt F)) : Prop :=
  ∀ b ∈ op.writes, ∃ y : Ref sig .tc, n ≤ y.idx.val ∧ b = Proc.devRef .tc y

/-- An operation that writes exactly the reference `y`, of index at least `n`. -/
theorem writesFrom_of_eq {n : Nat} {op : HloOp τ sig (Elt F)} (y : Ref sig .tc) (hw : op.writes = {Proc.devRef .tc y})
    (h : n ≤ y.idx.val) : WritesFrom n op :=
  fun b hb => ⟨y, h, Finset.mem_singleton.mp (hw ▸ hb)⟩

/-- A line whose operations write only references of index at least `n` keeps every reference of smaller index. -/
theorem after_keeps (n : Nat) (l : List (HloOp τ sig (Elt F))) (V : Valuation τ sig (Elt F)) (hl : l.Forall (WritesFrom n))
    (r : Ref sig .tc) (hr : r.idx.val < n) : after l V (Proc.devRef .tc r) = V (Proc.devRef .tc r) :=
  after_of_forall_not_mem l V fun op hop hb => by
    obtain ⟨y, hy, e⟩ := List.forall_iff_forall_mem.mp hl op hop _ hb
    have e' : r = y := Proc.devRef_injective _ e
    subst e'
    omega

/-- Each of the 90 operations writes its own result reference, and the results are the references of index 12 to 101: the list is
    walked from its head, each operation's written set read off its definition. -/
theorem ops_high : (ops (F := F)).Forall (WritesFrom 12) := by
  unfold ops
  repeat' (first
    | exact trivial
    | refine (List.forall_cons _ _ _).mpr ⟨writesFrom_of_eq _ rfl (by decide), ?_⟩)

/-! ## The whole line -/

/-- After all 90 operations, from any valuation: the two results are their last stages of the ten arguments they depend on. -/
theorem after_ops (V : Valuation τ sig (Elt F)) :
    after (ops (F := F)) V (Proc.devRef .tc main_v74) = val_main_v74 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
    ∧ after (ops (F := F)) V (Proc.devRef .tc main_v38) = val_main_v38 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_split, after_append, after_append, after_append, after_append, after_append]
  obtain ⟨A3, A6, A10, Aa1, Aa2, Aa8, Aa9, Aa10, Aa11⟩ := stageA (F := F) V
  obtain ⟨B25, B26, B3, B6, B10, Ba1, Ba2, Ba8, Ba9, Ba10, Ba11⟩ := stageB (F := F) (after LA V) _ Aa2
  obtain ⟨C29, C3, Ca1, Ca2, Ca8, Ca9, Ca10, Ca11⟩ :=
    stageC (F := F) (after LB (after LA V)) _ _ _ _ _ B25 B26 (B10.trans A10) (B6.trans A6)
  obtain ⟨D38, D3, Da2⟩ :=
    stageD (F := F) (after LC (after LB (after LA V))) _ _ _ _ _ _ _ _ _ _ C29 (Ca1.trans (Ba1.trans Aa1)) (Ca8.trans (Ba8.trans Aa8))
      (Ca9.trans (Ba9.trans Aa9)) (Ca10.trans (Ba10.trans Aa10)) (Ca11.trans (Ba11.trans Aa11))
  obtain ⟨E67, E68, E69, E3, E38⟩ := stageE (F := F) (after LD (after LC (after LB (after LA V)))) _ (Da2.trans (Ca2.trans (Ba2.trans Aa2)))
  obtain ⟨G74, G38⟩ :=
    stageG (F := F) (after LE (after LD (after LC (after LB (after LA V))))) _ _ _ _ _ _ _ _ _ _ (E3.trans (D3.trans (C3.trans (B3.trans A3)))) (E38.trans D38) E67 E68 E69
  exact ⟨G74, G38.trans (E38.trans D38)⟩

/-- On every device, for any float values, from any memory with zero counters: every weakly fair execution of the reference
    terminates with the edge result and the node result at their last stages of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = val_main_v74 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v38) = val_main_v38 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v74).trans (after_ops (F := F) (launchContents m c)).1,
      (h c main_v38).trans (after_ops (F := F) (launchContents m c)).2,
      (h c main_arg0).trans (after_keeps 12 _ _ ops_high main_arg0 (by decide)),
      (h c main_arg1).trans (after_keeps 12 _ _ ops_high main_arg1 (by decide)),
      (h c main_arg2).trans (after_keeps 12 _ _ ops_high main_arg2 (by decide)),
      (h c main_arg3).trans (after_keeps 12 _ _ ops_high main_arg3 (by decide)),
      (h c main_arg4).trans (after_keeps 12 _ _ ops_high main_arg4 (by decide)),
      (h c main_arg5).trans (after_keeps 12 _ _ ops_high main_arg5 (by decide)),
      (h c main_arg6).trans (after_keeps 12 _ _ ops_high main_arg6 (by decide)),
      (h c main_arg7).trans (after_keeps 12 _ _ ops_high main_arg7 (by decide)),
      (h c main_arg8).trans (after_keeps 12 _ _ ops_high main_arg8 (by decide)),
      (h c main_arg9).trans (after_keeps 12 _ _ ops_high main_arg9 (by decide)),
      (h c main_arg10).trans (after_keeps 12 _ _ ops_high main_arg10 (by decide)),
      (h c main_arg11).trans (after_keeps 12 _ _ ops_high main_arg11 (by decide))⟩)
    (run_seq scopedRefs_eq scopedSems_eq defs main (fun _ => ops) main_eq (fun _ => ops_sub) m ρ)

end Cert.RefRunFast
end
-- ==== Proof.RefIdx.lean ====
/- The scatter's index pairs at an index.

   The reference scatters the time mean of edge e at the pair (nodes[0,e,0], nodes[0,e,1]), each id first wrapped the way a negative
   index is: an id below 0 has the padded grid's extent 385 added. The two columns are built apart (slice the node array, drop the
   unit axes, compare with 0, add 385, select) and then joined along the last axis; read at (e, j) the joined array is the wrapped
   id nodes[0,e,j]. -/
import proofs.«178774_j58600533786747_2_alg».proof.Proof.RefReadP0
import proofs.«178774_j58600533786747_2_alg».proof.Proof.ScatterIdx

noncomputable section

namespace Cert.RefForm

open Cert.ReferenceIdeal Cert.ReferenceIdeal.Gen Cert.ReferenceIdeal.ReadP
open Idealize.ShloMosaic Idealize.ShloMosaic.ValueIdx Idealize.ShloMosaic.StableHlo

variable (x2 : (⟨S2x4096x2, .i32⟩ : BufTy).Contents (Elt Ideal))

/-- Column 0 reads the node array at (0, e, 0). -/
theorem idx_col0 (e : Fin 4096) :
    idx_main_v11 (idx_main_v12 (idx_main_v25 (ix2 e (0 : Fin 1)))) = ix3 (0 : Fin 2) e (0 : Fin 2) :=
  funext fun a => Fin.ext (by
    match a with
    | ⟨0, _⟩ => rfl
    | ⟨1, _⟩ => show e.val / 1 % 4096 = e.val; have := e.isLt; omega
    | ⟨2, _⟩ => rfl)

/-- Column 1 reads the node array at (0, e, 1). -/
theorem idx_col1 (e : Fin 4096) :
    idx_main_v13 (idx_main_v14 (idx_main_v26 (ix2 e (0 : Fin 1)))) = ix3 (0 : Fin 2) e (1 : Fin 2) :=
  funext fun a => Fin.ext (by
    match a with
    | ⟨0, _⟩ => rfl
    | ⟨1, _⟩ => show e.val / 1 % 4096 = e.val; have := e.isLt; omega
    | ⟨2, _⟩ => rfl)

/-- The first entry of edge e's index pair. -/
theorem scatter_idx_0 (e : Fin 4096) :
    val_main_v27 (F := Ideal) x2 (ix2 e (0 : Fin 2)) = Cert.ScatterIdx.wrapR (x2 (ix3 (0 : Fin 2) e (0 : Fin 2))) := by
  unfold val_main_v27
  rw [concatenate_pair_apply_left 1 _ _ concatenates_S4096x1_S4096x1_S4096x2_d1 (ix2 e (0 : Fin 2)) rfl (ix2 e (0 : Fin 1))
    (fun a => match a with | ⟨0, _⟩ => rfl | ⟨1, _⟩ => rfl)]
  rw [val_main_v25_apply, val_main_v19_apply, val_main_v16_apply, val_main_v18_apply, val_main_v12_apply, val_main_v11_apply,
    val_main_v15_apply, val_main_c_apply, val_main_v17_apply, val_main_c_2_apply, idx_col0]
  rfl

/-- The second entry of edge e's index pair. -/
theorem scatter_idx_1 (e : Fin 4096) :
    val_main_v27 (F := Ideal) x2 (ix2 e (1 : Fin 2)) = Cert.ScatterIdx.wrapR (x2 (ix3 (0 : Fin 2) e (1 : Fin 2))) := by
  unfold val_main_v27
  rw [concatenate_pair_apply_right 1 _ _ concatenates_S4096x1_S4096x1_S4096x2_d1 (ix2 e (1 : Fin 2)) rfl rfl (ix2 e (0 : Fin 1))
    (fun a ha => match a, ha with | ⟨0, _⟩, _ => rfl | ⟨1, _⟩, ha => absurd (Fin.ext rfl) ha) rfl]
  rw [val_main_v26_apply, val_main_v24_apply, val_main_v21_apply, val_main_v23_apply, val_main_v14_apply, val_main_v13_apply,
    val_main_v20_apply, val_main_c_3_apply, val_main_v22_apply, val_main_c_4_apply, idx_col1]
  rfl

/-- Entry j of edge e's index pair is the wrapped id nodes[0,e,j]. -/
theorem scatter_idx (e : Fin 4096) (j : Fin 2) :
    val_main_v27 (F := Ideal) x2 (ix2 e j) = Cert.ScatterIdx.wrapR (x2 (ix3 (0 : Fin 2) e j)) := by
  match j with
  | ⟨0, _⟩ => exact scatter_idx_0 x2 e
  | ⟨1, _⟩ => exact scatter_idx_1 x2 e

end Cert.RefForm

end
-- ==== Proof.PreNodes.lean ====
/-
  The node-id range out of the precondition. The precondition is one conjunction of "all entries" tests, the last of
  which says that every node id is at least 1 and at most 384 (signed 32-bit compares, both tables, both ends of every
  edge). From the conjunction being true that last test is true; a test over all entries that is true is true at each
  entry; and the two compares at an entry are the two inequalities between the signed values.
-/
import proofs.«178774_j58600533786747_2_alg».proof.Pre_finite_inputs
import Idealize.ShloMosaic.Lib.ReduceAll
import Idealize.ShloMosaic.Lib.ValueIdx
import Idealize.ShloMosaic.PureOps.Ideal

set_option maxRecDepth 16384

noncomputable section

namespace Cert.PreNodes

open Idealize.ShloMosaic Idealize.ShloMosaic.ValueIdx
open Cert.Pre_finite_inputs Cert.Pre_finite_inputs.Facts

variable [Cert.Pre_finite_inputs.Facts]

instance : Subsingleton S_.Idx := ⟨fun a b => funext fun d => d.elim0⟩

theorem one_toInt : (1#32 : BitVec 32).toInt = 1 := by decide
theorem c384_toInt : (384#32 : BitVec 32).toInt = 384 := by decide

/-- The entrywise test of the node ids: at least 1 and at most 384. -/
def inRange (a2 : IVec S2x4096x2 32) : IVec S2x4096x2 1 :=
  andi (cmpi .sge a2 (broadcastInDim S2x4096x2 ![] bcast_S_S2x4096x2 (constantI S_ 32 1#32)))
    (cmpi .sle a2 (broadcastInDim S2x4096x2 ![] bcast_S_S2x4096x2 (constantI S_ 32 384#32)))

/-- The precondition's value is a conjunction whose last conjunct is "all node ids are in range". -/
theorem fn_last (a0 : FVec Ideal S4x4096x2x128 .f32) (a1 : FVec Ideal S384x384x2x128 .f32) (a2 : IVec S2x4096x2 32)
    (a3 : IVec S2x4096 1) (a4 : IVec S2x384 1) (a5 : FVec Ideal S1 .f32) (a6 : FVec Ideal S128x128 .f32) (a7 : FVec Ideal S128 .f32)
    (a8 : FVec Ideal S128x256 .f32) (a9 : FVec Ideal S128 .f32) (a10 : FVec Ideal S128x128 .f32) (a11 : FVec Ideal S128 .f32) :
    ∃ c : BitVec 1, fn (F := Ideal) a0 a1 a2 a3 a4 a5 a6 a7 a8 a9 a10 a11 ix0
      = IntOp.andi c (Host.reduce IntOp.andi (inRange a2) (constantI S_ 1 1#1) reducesTo_S2x4096x2_S_d0_1_2 h_S_ ix0) :=
  ⟨_, rfl⟩

/-- **Under the precondition every node id is between 1 and 384.** -/
theorem nodes_range (a0 : FVec Ideal S4x4096x2x128 .f32) (a1 : FVec Ideal S384x384x2x128 .f32) (a2 : IVec S2x4096x2 32)
    (a3 : IVec S2x4096 1) (a4 : IVec S2x384 1) (a5 : FVec Ideal S1 .f32) (a6 : FVec Ideal S128x128 .f32) (a7 : FVec Ideal S128 .f32)
    (a8 : FVec Ideal S128x256 .f32) (a9 : FVec Ideal S128 .f32) (a10 : FVec Ideal S128x128 .f32) (a11 : FVec Ideal S128 .f32)
    (h : fn (F := Ideal) a0 a1 a2 a3 a4 a5 a6 a7 a8 a9 a10 a11 = (fun _ => 1#1)) :
    ∀ (b : Fin 2) (e : Fin 4096) (j : Fin 2), 1 ≤ (a2 (ix3 b e j)).toInt ∧ (a2 (ix3 b e j)).toInt ≤ 384 := by
  intro b e j
  obtain ⟨c, hc⟩ := fn_last a0 a1 a2 a3 a4 a5 a6 a7 a8 a9 a10 a11
  have h0 : fn (F := Ideal) a0 a1 a2 a3 a4 a5 a6 a7 a8 a9 a10 a11 ix0 = 1#1 := congrFun h ix0
  rw [hc] at h0
  have hall := (IntOp.andi_eq_one.1 h0).2
  have hp : inRange a2 (ix3 b e j) = 1#1 := Host.reduce_andi_all _ _ _ _ ix0 hall (ix3 b e j)
  have hp' : IntOp.andi (IntOp.cmpi .sge (a2 (ix3 b e j)) 1#32) (IntOp.cmpi .sle (a2 (ix3 b e j)) 384#32) = 1#1 := hp
  obtain ⟨hge, hle⟩ := IntOp.andi_eq_one.1 hp'
  have h1 := IntOp.cmpi_sge.1 hge
  have h2 := IntOp.cmpi_sle.1 hle
  rw [one_toInt] at h1
  rw [c384_toInt] at h2
  exact ⟨h1, h2⟩

end Cert.PreNodes
-- ==== Proof.PreNodesK.lean ====
/-
  The node-id range in the shape the kernel program's precondition states it: on every device, the contents of the
  node-id buffer at launch are between 1 and 384.
-/
import proofs.«178774_j58600533786747_2_alg».proof.Defs
import proofs.«178774_j58600533786747_2_alg».proof.Proof.PreNodes

set_option maxRecDepth 16384

noncomputable section

namespace Cert.PreNodes

open Idealize.ShloMosaic Idealize.ShloMosaic.ValueIdx Idealize.SL.Sem

/-- Under the idealized kernel program's precondition every node id of its launch memory is between 1 and 384. -/
theorem nodes_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ (b : Fin 2) (e : Fin 4096) (j : Fin 2),
      1 ≤ ((m ((c.tc : Thread Cert.KernelIdeal.nD Cert.KernelIdeal.τ).loc Cert.KernelIdeal.main_arg2)
            : IVec Cert.KernelIdeal.S2x4096x2 32) (ix3 b e j)).toInt
      ∧ ((m ((c.tc : Thread Cert.KernelIdeal.nD Cert.KernelIdeal.τ).loc Cert.KernelIdeal.main_arg2)
            : IVec Cert.KernelIdeal.S2x4096x2 32) (ix3 b e j)).toInt ≤ 384 :=
  nodes_range _ _ _ _ _ _ _ _ _ _ _ _ (h c)

/-- The same under the idealized reference program's precondition. -/
theorem nodes_of_pre_ref [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ (b : Fin 2) (e : Fin 4096) (j : Fin 2),
      1 ≤ ((m ((c.tc : Thread Cert.ReferenceIdeal.nD Cert.ReferenceIdeal.τ).loc Cert.ReferenceIdeal.main_arg2)
            : IVec Cert.ReferenceIdeal.S2x4096x2 32) (ix3 b e j)).toInt
      ∧ ((m ((c.tc : Thread Cert.ReferenceIdeal.nD Cert.ReferenceIdeal.τ).loc Cert.ReferenceIdeal.main_arg2)
            : IVec Cert.ReferenceIdeal.S2x4096x2 32) (ix3 b e j)).toInt ≤ 384 :=
  nodes_range _ _ _ _ _ _ _ _ _ _ _ _ (h c)

end Cert.PreNodes
-- ==== Proof.lean ====
/-
  The claim of this certificate: the three frames, the (empty) idealization ledger, and the equality at the
  extended reals of the two-kernel pipeline against the jnp reference.

  The mathematics. Write x for the edge features [T, E, B, D], feats for the node-pair features [N, N, B, D].
  Both programs compute  x_proj = x · W_gᵀ + b_g  (a contraction over D), its mean over the T trials
  xmean [E, B, D]  (the kernel as a running sum over the grid axis t times the dyadic 1/4, the reference as the sum
  divided by 4: one extended real), scatter xmean into a grid filled with the scalar pad at the edges' node pairs,
  concatenate with feats and apply two affine maps (the kernel splits the 2D-wide contraction into its two halves:
  a sum over 256 terms is the sum of two sums over 128), and finally gather rows of the result back onto the edges
  and add them to x_proj. The reference scatters at (n0, n1) into an (N+1)×(N+1) grid and drops row and column 0;
  the kernel scatters at (n0 − 1, n1 − 1) into an N×N grid. For node ids in [1, N] the padded grid restricted to
  rows and columns ≥ 1 is the unpadded grid re-indexed by +1, every update lands at corresponding places, and
  the two scatters agree entry by entry whatever the order of repeated edges (Proof/LibScatterEmbed.lean). Outside
  [1, N] they differ (id 0 lands in the dropped row of the reference and in row N − 1 of the kernel), which is why
  the precondition bounds the node ids.

  The kernel program's run is five segments (host operations, the projection kernel's region, host operations, the
  fused kernel's region, host operations): Proof/IdealRun.lean and, for the word-level program, Proof/BitsRun.lean
  give its termination and the contents of every buffer at the end; Proof/IdealResults.lean reads the two results
  there as formulas of the arguments, Proof/RefForm.lean the reference's, Proof/Bridge.lean equates them.
-/
import proofs.«178774_j58600533786747_2_alg».proof.Defs
import proofs.«178774_j58600533786747_2_alg».proof.Proof.Gen.Kernel
import proofs.«178774_j58600533786747_2_alg».proof.Proof.Gen.KernelIdeal
import proofs.«178774_j58600533786747_2_alg».proof.Proof.Gen.ReferenceIdeal
import proofs.«178774_j58600533786747_2_alg».proof.Proof.Gen.Pre_finite_inputs
import proofs.«178774_j58600533786747_2_alg».proof.Proof.BitsRun
import proofs.«178774_j58600533786747_2_alg».proof.Proof.IdealRun
import proofs.«178774_j58600533786747_2_alg».proof.Proof.Bridge
import proofs.«178774_j58600533786747_2_alg».proof.Proof.RefRunFast
import proofs.«178774_j58600533786747_2_alg».proof.Proof.RefIdx
import proofs.«178774_j58600533786747_2_alg».proof.Proof.PreNodesK
import Idealize.ShloMosaic.Adequacy
import Idealize.ShloMosaic.Init

noncomputable section

namespace Cert.Proof

open Idealize.ShloMosaic Idealize.SL.Sem

/-- The word-level kernel program terminates and leaves its arguments as launched. -/
theorem frame_k [Cert.Kernel.Facts] [Cert.Pre_finite_inputs.Facts] : Cert.frame_Kernel := fun m ρ _ => Cert.Kernel.Run.frame (F := Bits) m ρ

/-- So does the idealized kernel program. -/
theorem frame_ki [Cert.KernelIdeal.Facts] [Cert.Pre_finite_inputs.Facts] : Cert.frame_KernelIdeal := fun m ρ _ => Cert.KernelIdeal.Run.frame (F := Ideal) m ρ

/-- The ideal pass rewrote nothing: the idealized kernel is the kernel's own text read at the extended reals. -/
theorem preserves : Cert.preserves_Kernel_KernelIdeal := trivial

/-- The reference is a host program: its run ends with every argument as launched. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.RefRunFast.run (F := Ideal) m ρ)

open Idealize.ShloMosaic.ValueIdx in
/-- At the extended reals the two programs, run from memories that agree on the arguments, end with equal results:
    the kernel program's are read off its run's last boundary, the reference's off its stages, and the two are equal
    entry by entry (Proof/Bridge.lean) for node ids in [1, N]. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Run.W5 m c (Proc.devRef .tc Cert.KernelIdeal.main_v78),
    fun c => Cert.KernelIdeal.Run.W5 m c (Proc.devRef .tc Cert.KernelIdeal.main_v42), ?_, ?_⟩
  · exact (θ_run Cert.KernelIdeal.defs _ _).mono (fun r h c =>
      ⟨h c _ (Cert.KernelIdeal.Run.mem_uc Cert.KernelIdeal.main_v78 (by decide)),
      h c _ (Cert.KernelIdeal.Run.mem_uc Cert.KernelIdeal.main_v42 (by decide)),
      (h c _ (Cert.KernelIdeal.Run.mem_uc Cert.KernelIdeal.main_arg0 (by decide))).trans (Cert.KernelIdeal.Run.W5_main_arg0 m c),
      (h c _ (Cert.KernelIdeal.Run.mem_uc Cert.KernelIdeal.main_arg1 (by decide))).trans (Cert.KernelIdeal.Run.W5_main_arg1 m c),
      (h c _ (Cert.KernelIdeal.Run.mem_uc Cert.KernelIdeal.main_arg2 (by decide))).trans (Cert.KernelIdeal.Run.W5_main_arg2 m c),
      (h c _ (Cert.KernelIdeal.Run.mem_uc Cert.KernelIdeal.main_arg3 (by decide))).trans (Cert.KernelIdeal.Run.W5_main_arg3 m c),
      (h c _ (Cert.KernelIdeal.Run.mem_uc Cert.KernelIdeal.main_arg4 (by decide))).trans (Cert.KernelIdeal.Run.W5_main_arg4 m c),
      (h c _ (Cert.KernelIdeal.Run.mem_uc Cert.KernelIdeal.main_arg5 (by decide))).trans (Cert.KernelIdeal.Run.W5_main_arg5 m c),
      (h c _ (Cert.KernelIdeal.Run.mem_uc Cert.KernelIdeal.main_arg6 (by decide))).trans (Cert.KernelIdeal.Run.W5_main_arg6 m c),
      (h c _ (Cert.KernelIdeal.Run.mem_uc Cert.KernelIdeal.main_arg7 (by decide))).trans (Cert.KernelIdeal.Run.W5_main_arg7 m c),
      (h c _ (Cert.KernelIdeal.Run.mem_uc Cert.KernelIdeal.main_arg8 (by decide))).trans (Cert.KernelIdeal.Run.W5_main_arg8 m c),
      (h c _ (Cert.KernelIdeal.Run.mem_uc Cert.KernelIdeal.main_arg9 (by decide))).trans (Cert.KernelIdeal.Run.W5_main_arg9 m c),
      (h c _ (Cert.KernelIdeal.Run.mem_uc Cert.KernelIdeal.main_arg10 (by decide))).trans (Cert.KernelIdeal.Run.W5_main_arg10 m c),
      (h c _ (Cert.KernelIdeal.Run.mem_uc Cert.KernelIdeal.main_arg11 (by decide))).trans (Cert.KernelIdeal.Run.W5_main_arg11 m c)⟩) (Cert.KernelIdeal.Run.run_all (F := Ideal) m ρ)
  · refine (θ_run Cert.ReferenceIdeal.defs _ _).mono (fun r h c => ?_) (Cert.RefRunFast.run (F := Ideal) m' ρ')
    obtain ⟨h74, h38, hargs⟩ := h c
    obtain ⟨g0, g1, g2, g3, g4, g5, g6, g7, g8, g9, g10, g11⟩ := hagree c
    have HO : Cert.Bridge.Owed m c :=
      ⟨Cert.PreNodes.nodes_of_pre m hpre c, fun e j => Cert.RefForm.scatter_idx _ e j⟩
    refine ⟨h74.trans ?_, h38.trans ?_, hargs⟩
    · rw [g0, g1, g2, g5, g6, g7, g8, g9, g10, g11]
      funext i
      obtain ⟨t, e, b, o, rfl⟩ : ∃ (t : Fin 4) (e : Fin 4096) (b : Fin 2) (o : Fin 128), i = ix4 t e b o := ⟨i 0, i 1, i 2, i 3, eq_ix4 i⟩
      exact ((Cert.Bridge.xfinal_eq m c HO t e b o).symm).trans (Cert.KernelIdeal.Res.K_xfinal m c t e b o).symm
    · rw [g0, g1, g2, g5, g6, g7, g8, g9, g10, g11]
      funext i
      obtain ⟨n, mm, b, o, rfl⟩ : ∃ (n mm : Fin 384) (b : Fin 2) (o : Fin 128), i = ix4 n mm b o := ⟨i 0, i 1, i 2, i 3, eq_ix4 i⟩
      exact ((Cert.Bridge.featsout_eq m c HO n mm b o).symm).trans (Cert.KernelIdeal.Res.K_featsout m c n mm b o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
